-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64x64 : Shape := ⟨2, ![64, 64]⟩
abbrev S32x64 : Shape := ⟨2, ![32, 64]⟩
abbrev S32x32 : Shape := ⟨2, ![32, 32]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S16384x16384 .f32) (main_arg1 : FVec F S16384x64 .f32) (main_arg2 : FVec F S64x64 .f32) (main_arg3 : FVec F S32x64 .f32) (main_arg4 : FVec F S32x32 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S16384x16384 : Shape := ⟨2, ![16384, 16384]⟩
abbrev S16384x64 : Shape := ⟨2, ![16384, 64]⟩
abbrev S64x64 : Shape := ⟨2, ![64, 64]⟩
abbrev S32x64 : Shape := ⟨2, ![32, 64]⟩
abbrev S32x32 : Shape := ⟨2, ![32, 32]⟩
abbrev S2048x1024 : Shape := ⟨2, ![2048, 1024]⟩
abbrev S1024x64 : Shape := ⟨2, ![1024, 64]⟩
abbrev S2048x64 : Shape := ⟨2, ![2048, 64]⟩
abbrev S64x32 : Shape := ⟨2, ![64, 32]⟩
abbrev S16384x32 : Shape := ⟨2, ![16384, 32]⟩
abbrev S2048x2048 : Shape := ⟨2, ![2048, 2048]⟩
abbrev S2048x32 : Shape := ⟨2, ![2048, 32]⟩

abbrev nBuf : Space → Nat
  | .hbm => 15
  | .vmem => 23
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S32x64, .f32⟩
  | .hbm, ⟨4, _⟩ => ⟨S32x32, .f32⟩
  | .hbm, ⟨5, _⟩ => ⟨S64x64, .f32⟩
  | .hbm, ⟨6, _⟩ => ⟨S16384x64, .f32⟩
  | .hbm, ⟨7, _⟩ => ⟨S16384x64, .f32⟩
  | .hbm, ⟨8, _⟩ => ⟨S16384x16384, .bf16⟩
  | .hbm, ⟨9, _⟩ => ⟨S64x32, .f32⟩
  | .hbm, ⟨10, _⟩ => ⟨S16384x32, .f32⟩
  | .hbm, ⟨11, _⟩ => ⟨S16384x32, .f32⟩
  | .hbm, ⟨12, _⟩ => ⟨S32x32, .f32⟩
  | .hbm, ⟨13, _⟩ => ⟨S16384x32, .f32⟩
  | .hbm, ⟨14, _⟩ => ⟨S16384x32, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S2048x64, .f32⟩
  | .local _ .vmem, ⟨5, _⟩ => ⟨S2048x64, .f32⟩
  | .local _ .vmem, ⟨6, _⟩ => ⟨S2048x1024, .bf16⟩
  | .local _ .vmem, ⟨7, _⟩ => ⟨S2048x1024, .bf16⟩
  | .local _ .vmem, ⟨8, _⟩ => ⟨S2048x64, .f32⟩
  | .local _ .vmem, ⟨9, _⟩ => ⟨S2048x2048, .bf16⟩
  | .local _ .vmem, ⟨10, _⟩ => ⟨S2048x2048, .bf16⟩
  | .local _ .vmem, ⟨11, _⟩ => ⟨S2048x32, .f32⟩
  | .local _ .vmem, ⟨12, _⟩ => ⟨S2048x32, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x2048, .bf16⟩
  | .local _ .vmem, ⟨17, _⟩ => ⟨S2048x2048, .bf16⟩
  | .local _ .vmem, ⟨18, _⟩ => ⟨S2048x32, .f32⟩
  | .local _ .vmem, ⟨19, _⟩ => ⟨S2048x32, .f32⟩
  | .local _ .vmem, ⟨20, _⟩ => ⟨S2048x32, .f32⟩
  | .local _ .vmem, ⟨21, _⟩ => ⟨S2048x32, .f32⟩
  | .local _ .vmem, ⟨22, _⟩ => ⟨S2048x32, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  transposes_S64x64_S64x64_1_0 : S64x64.Transposes [1, 0] S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S32x64_S64x32_1_0 : S32x64.Transposes [1, 0] S64x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S32x32_S32x32_1_0 : S32x32.Transposes [1, 0] S32x32
  dot_S16384x64_S64x64_S16384x64_1_0_0_1_n_n_wf : DotDims.WF S16384x64 S64x64 S16384x64 [1] [0] [0] [1] [] []
  dot_S2048x1024_S1024x64_S2048x64_1_0_0_1_n_n_wf : DotDims.WF S2048x1024 S1024x64 S2048x64 [1] [0] [0] [1] [] []
  dot_S16384x64_S64x32_S16384x32_1_0_0_1_n_n_wf : DotDims.WF S16384x64 S64x32 S16384x32 [1] [0] [0] [1] [] []
  dot_S2048x2048_S2048x32_S2048x32_1_0_0_1_n_n_wf : DotDims.WF S2048x2048 S2048x32 S2048x32 [1] [0] [0] [1] [] []
  dot_S16384x32_S32x32_S16384x32_1_0_0_1_n_n_wf : DotDims.WF S16384x32 S32x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x16384.size a
  hwx0_3 : ∀ i : grid0.Coords, EltTy.bits .bf16 = 32 ∨ (Rect.block (s := S16384x16384) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S16384x32.size a
  hwx1_1 : ∀ i : grid1.Coords, EltTy.bits .f32 = 32 ∨ (Rect.block (s := S16384x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S16384x32.size a
  hwx1_2 : ∀ i : grid1.Coords, EltTy.bits .f32 = 32 ∨ (Rect.block (s := S16384x32) S2048x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x32.size a ≤ S16384x32.size a
  hwx2_1 : ∀ i : grid2.Coords, EltTy.bits .f32 = 32 ∨ (Rect.block (s := S16384x32) S2048x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S16384x32.size a
  hwx2_2 : ∀ i : grid2.Coords, EltTy.bits .f32 = 32 ∨ (Rect.block (s := S16384x32) S2048x32.size (cc2_transform_2 i) (hinb2_2 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v2_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2048x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x64 : Shape := ⟨2, ![16384, 64]⟩
abbrev S64x64 : Shape := ⟨2, ![64, 64]⟩
abbrev S32x64 : Shape := ⟨2, ![32, 64]⟩
abbrev S32x32 : Shape := ⟨2, ![32, 32]⟩
abbrev S_ : Shape := ⟨0, ![]⟩
abbrev S64x32 : Shape := ⟨2, ![64, 32]⟩
abbrev S16384x32 : Shape := ⟨2, ![16384, 32]⟩

abbrev nBuf : Space → Nat
  | .hbm => 20
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S32x64, .f32⟩
  | .hbm, ⟨4, _⟩ => ⟨S32x32, .f32⟩
  | .hbm, ⟨5, _⟩ => ⟨S16384x64, .f32⟩
  | .hbm, ⟨6, _⟩ => ⟨S64x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S64x32, .f32⟩
  | .hbm, ⟨13, _⟩ => ⟨S16384x32, .f32⟩
  | .hbm, ⟨14, _⟩ => ⟨S_, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S32x32, .f32⟩
  | .hbm, ⟨19, _⟩ => ⟨S16384x32, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  transposes_S64x64_S64x64_1_0 : S64x64.Transposes [1, 0] S64x64
  bcast_S_S16384x64 : S_.BroadcastsInDim S16384x64 (![] : Fin 0 → Fin S16384x64.rank)
  transposes_S32x64_S64x32_1_0 : S32x64.Transposes [1, 0] S64x32
  bcast_S_S16384x32 : S_.BroadcastsInDim S16384x32 (![] : Fin 0 → Fin S16384x32.rank)
  transposes_S32x32_S32x32_1_0 : S32x32.Transposes [1, 0] S32x32
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.R0Runs.lean ====
/-
  Region 0 of the program is the first graph-convolution layer: over a grid of 8 row blocks by 16 contraction
  blocks, the kernel keeps a 2048 x 64 accumulator in a scratch buffer, clears it at the first contraction block,
  adds the product of the adjacency block with the feature block at every point, and at the last contraction
  block writes max(accumulator, 0) to its first output; its second output is the adjacency block itself, narrowed.
  This module fixes the vocabulary the three control cases of that body are stated over: the blocks of the
  windows read off the contents V the region is entered with, the two branch conditions decided over the grid,
  where the first output is idle, and the staging and scratch buffers as memrefs.
-/
import proofs.«113216_j26164940767949_2_alg».proof.Proof.Gen.KernelIdeal.Launch
import proofs.«113216_j26164940767949_2_alg».proof.Proof.Gen.KernelIdeal.Skeleton
import proofs.«113216_j26164940767949_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point: it is fetched at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature window's staging buffer holds its block at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first contraction block": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last contraction block": the result is written out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Before the last contraction block nothing is stored into the first output, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body is handed -/

/-- One staging buffer of each output window, through which its contents are stated. -/
abbrev VO0_2 : View sig .tc .vmem S2048x64 .f32 := (Memref.whole cc0_stg2_0 : Memref sig .tc .vmem S2048x64 .f32).view
abbrev VO0_3 : View sig .tc .vmem S2048x1024 .bf16 := (Memref.whole cc0_stg3_0 : Memref sig .tc .vmem S2048x1024 .bf16).view
/-- Each window's current staging memref at point `t`, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x64 .f32 := Memref.whole cc0_scratch0
abbrev VS0_0 : View sig .tc .vmem S2048x64 .f32 := scM0_0.view

/-- The scoped buffers of the other two regions (their staging buffers and accumulators), each whole at some contents:
    region 0 never touches them. -/
abbrev restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- What the launch hands a region besides its windows: the scoped buffers no window of this region stages
    (the other regions' staging buffers and accumulators, and this region's accumulator) at some contents,
    and the generator register at some state. Spelt with the accumulator as a memref owned at some contents. -/
theorem PhiA0_eq (c : Dev nD) :
    (Pipeline.ΦA spec0 c : sProp 𝕄)
      = iprop(iprop((∃ d, owns (c : Thread nD τ) scM0_0 fullShare d) ∗ restOther0 (F := F) c) ∗ (∃ r, prngReg c r)) := by
  unfold Pipeline.ΦA; rw [scopedRest0_eq]; simp only [scM0_0, owns_whole]; try rfl

end Cert.KernelIdeal.Hand

end
-- ==== Proof.R0RunA.lean ====
/-
  The first layer's body at the FIRST contraction block of a row block (not the last): the accumulator is
  cleared, the adjacency block is narrowed into the second output, and the accumulator receives the block
  product. The first output is not touched. The lists of stores each buffer ends with are found by running the body.
-/
import proofs.«113216_j26164940767949_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a point where the accumulator is cleared and the result is not yet written: from the two input
    blocks `x0`, `x1`, the first output's buffer at any contents `xi2` (handed back untouched), the second
    output's buffer and the accumulator at anything, the body runs; the second output and the accumulator end as
    the listed stores (last first) leave them. -/
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    Σ' (L2 : List (View.Piece (Elt F) S2048x64 .f32)) (L3 : List (View.Piece (Elt F) S2048x1024 .bf16)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_layer1_kernel i arg2 harg2 arg3 harg3 arg4 harg4 arg5 harg5 arg6 harg6) K } := by
  refine ⟨[], ?_, ?_, fun xi2 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R0RunB.lean ====
/-
  The first layer's body at a MIDDLE contraction block (neither first nor last): the adjacency block is narrowed
  into the second output and the block product is added to the accumulator the point before left.
-/
import proofs.«113216_j26164940767949_2_alg».proof.Proof.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a point that neither clears the accumulator nor writes the result: the accumulator comes in at
    the contents `xs0` the point before left. -/
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    Σ' (L2 : List (View.Piece (Elt F) S2048x64 .f32)) (L3 : List (View.Piece (Elt F) S2048x1024 .bf16)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_layer1_kernel i arg2 harg2 arg3 harg3 arg4 harg4 arg5 harg5 arg6 harg6) K } := by
  refine ⟨[], ?_, ?_, fun xi2 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R0RunC.lean ====
/-
  The first layer's body at the LAST contraction block of a row block: the block product is added to the
  accumulator the point before left, and max(accumulator, 0) is stored into the first output.
-/
import proofs.«113216_j26164940767949_2_alg».proof.Proof.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a point that writes the result: the first output's buffer comes in at anything and ends as its
    listed store leaves it. -/
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) :
    Σ' (L2 : List (View.Piece (Elt F) S2048x64 .f32)) (L3 : List (View.Piece (Elt F) S2048x1024 .bf16)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_layer1_kernel i arg2 harg2 arg3 harg3 arg4 harg4 arg5 harg5 arg6 harg6) K } := by
  refine ⟨?_, ?_, ?_, fun E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.R0Frame.lean ====
/-
  The first layer's proof data: what its two outputs' staging buffers and its accumulator hold after the body at
  every grid point, by recursion on the point (the accumulator is cleared at the first contraction block of a row
  block and otherwise continues from the point before), the invariant that carries the accumulator from point to
  point, and the body's obligation at every point: the body, run from the buffers as the pipeline hands them to
  it, leaves them as the proof data say.
-/
import proofs.«113216_j26164940767949_2_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ### Case A -/

/-- What case A leaves in the first output's staging buffer: its stores read back over unspecified contents (it stores nothing there: a placeholder nothing consults, since the block is neither written back nor read at these points). -/
def out0_A_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x64 .f32 :=
  VO0_2.read (Elt F) (VO0_2.writes (Elt F) VO0_2.junk (kernelRun0_A c i arg2 harg2 arg3 harg3 arg4 harg4 arg5 harg5 arg6 harg6 hc0 hc1 x0 x1).1)

/-- The store of case A into the second output covers its block. -/
theorem cover0_A_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) (y : S2048x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x1024.size (by sl_kernel_rfl) y

/-- What case A leaves in the second output's staging buffer. -/
def out0_A_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x1024 .bf16 :=
  VO0_3.read (Elt F) (VO0_3.writes (Elt F) VO0_3.junk (kernelRun0_A c i arg2 harg2 arg3 harg3 arg4 harg4 arg5 harg5 arg6 harg6 hc0 hc1 x0 x1).2.1)

/-- The stores of case A into the accumulator cover it. -/
theorem scover0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) (y : S2048x64.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x64.size (by sl_kernel_rfl) y

/-- What case A leaves in the accumulator. -/
def sout0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x64 .f32 :=
  VS0_0.read (Elt F) (VS0_0.writes (Elt F) VS0_0.junk (kernelRun0_A c i arg2 harg2 arg3 harg3 arg4 harg4 arg5 harg5 arg6 harg6 hc0 hc1 x0 x1).2.2.1)

/-! ### Case B -/

/-- What case B leaves in the first output's staging buffer: its stores read back over unspecified contents (it stores nothing there: a placeholder nothing consults, since the block is neither written back nor read at these points). -/
def out0_B_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x64 .f32 :=
  VO0_2.read (Elt F) (VO0_2.writes (Elt F) VO0_2.junk (kernelRun0_B c i arg2 harg2 arg3 harg3 arg4 harg4 arg5 harg5 arg6 harg6 hc0 hc1 x0 x1 xs0).1)

/-- The store of case B into the second output covers its block. -/
theorem cover0_B_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) (y : S2048x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S2048x1024.size (by sl_kernel_rfl) y

/-- What case B leaves in the second output's staging buffer. -/
def out0_B_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x1024 .bf16 :=
  VO0_3.read (Elt F) (VO0_3.writes (Elt F) VO0_3.junk (kernelRun0_B c i arg2 harg2 arg3 harg3 arg4 harg4 arg5 harg5 arg6 harg6 hc0 hc1 x0 x1 xs0).2.1)

/-- The stores of case B into the accumulator cover it. -/
theorem scover0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) (y : S2048x64.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S2048x64.size (by sl_kernel_rfl) y

/-- What case B leaves in the accumulator. -/
def sout0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x64 .f32 :=
  VS0_0.read (Elt F) (VS0_0.writes (Elt F) VS0_0.junk (kernelRun0_B c i arg2 harg2 arg3 harg3 arg4 harg4 arg5 harg5 arg6 harg6 hc0 hc1 x0 x1 xs0).2.2.1)

/-! ### Case C -/

/-- What case C leaves in the first output's staging buffer: its stores read back over unspecified contents. -/
def out0_C_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) : Vec F S2048x64 .f32 :=
  VO0_2.read (Elt F) (VO0_2.writes (Elt F) VO0_2.junk (kernelRun0_C c i arg2 harg2 arg3 harg3 arg4 harg4 arg5 harg5 arg6 harg6 hc0 hc1 x0 x1 xs0).1)

/-- The one store of case C into the first output covers its block. -/
theorem cover0_C_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) (y : S2048x64.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S2048x64.size (by sl_kernel_rfl) y

/-- The store of case C into the second output covers its block. -/
theorem cover0_C_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) (y : S2048x1024.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S2048x1024.size (by sl_kernel_rfl) y

/-- What case C leaves in the second output's staging buffer. -/
def out0_C_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) : Vec F S2048x1024 .bf16 :=
  VO0_3.read (Elt F) (VO0_3.writes (Elt F) VO0_3.junk (kernelRun0_C c i arg2 harg2 arg3 harg3 arg4 harg4 arg5 harg5 arg6 harg6 hc0 hc1 x0 x1 xs0).2.1)

/-- The stores of case C into the accumulator cover it. -/
theorem scover0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) (y : S2048x64.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S2048x64.size (by sl_kernel_rfl) y

/-- What case C leaves in the accumulator. -/
def sout0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) : Vec F S2048x64 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## What the buffers hold after each point -/

/-- The first output's buffer, the second output's buffer, the accumulator. -/
abbrev Outs0 (F : FTy → Type) [FloatOps F] : Type := Vec F S2048x64 .f32 × Vec F S2048x1024 .bf16 × Vec F S2048x64 .f32

/-- After a point that clears the accumulator. -/
def caseA0 (c : Dev nD) (t : Fin cfg0.N) (h0 : t.val % 16 = 0) (h1 : ¬t.val % 16 = 15) : Outs0 F :=
  (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t))
/-- After a middle point, the accumulator having come in at `xs`. -/
def caseB0 (c : Dev nD) (t : Fin cfg0.N) (h0 : ¬t.val % 16 = 0) (h1 : ¬t.val % 16 = 15) (xs : Vec F S2048x64 .f32) : Outs0 F :=
  (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs)
/-- After a point that writes the result, the accumulator having come in at `xs`. -/
def caseC0 (c : Dev nD) (t : Fin cfg0.N) (h0 : ¬t.val % 16 = 0) (h1 : t.val % 16 = 15) (xs : Vec F S2048x64 .f32) : Outs0 F :=
  (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs)

/-- THE ACCUMULATION: what the two outputs' buffers and the accumulator hold after the body at position `n`. -/
def outsAt0 (c : Dev nD) : (n : ℕ) → n < cfg0.N → Outs0 F
  | 0, hn => caseA0 V c ⟨0, hn⟩ (Nat.zero_mod 16) (fun h => by have e : 0 % 16 = 15 := h; omega)
  | n + 1, hn =>
    if h0 : (n + 1) % 16 = 0 then
      caseA0 V c ⟨n + 1, hn⟩ h0 (fun h1 => by have e : (n + 1) % 16 = 15 := h1; omega)
    else
      if h1 : (n + 1) % 16 = 15 then
        caseC0 V c ⟨n + 1, hn⟩ h0 h1 (outsAt0 c n (Nat.lt_of_succ_lt hn)).2.2
      else
        caseB0 V c ⟨n + 1, hn⟩ h0 h1 (outsAt0 c n (Nat.lt_of_succ_lt hn)).2.2

theorem outsAt0_A (c : Dev nD) (t : Fin cfg0.N) (h0 : t.val % 16 = 0) (h1 : ¬t.val % 16 = 15) :
    outsAt0 V c t.val t.isLt = caseA0 V c t h0 h1 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = caseB0 V c t h0 h1 (outsAt0 V c (t.val - 1) (Nat.lt_of_le_of_lt (Nat.sub_le _ _) t.isLt)).2.2 := by
  obtain ⟨n, hn⟩ := t
  cases n with
  | zero => exact (by exfalso; exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = caseC0 V c t h0 h1 (outsAt0 V c (t.val - 1) (Nat.lt_of_le_of_lt (Nat.sub_le _ _) t.isLt)).2.2 := by
  obtain ⟨n, hn⟩ := t
  cases n with
  | zero => exact (by exfalso; exact absurd (Nat.zero_mod _) h0)
  | succ n => exact (dif_neg h0).trans ((dif_pos h1).trans rfl)

/-! ## The invariant that carries the accumulator -/

/-- Before the first point: what the launch hands the region. Afterwards: the accumulator at what the point
    before left in it, the other regions' scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restOther0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ restOther0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restOther0 (F := F) c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_3 (c : Dev nD) (t : Fin cfg0.N) :
    (dat0 V c).leavesExact 3 t = owns (c : Thread nD τ) (ms0_3 t) fullShare ((outsAt0 V c t.val t.isLt).2.1) := by
  rw [show (dat0 V c).leavesExact 3 t = owns (c : Thread nD τ) (ms0_3 t) fullShare ((dat0 V c).after 3 t) from by
    unfold Dat.leavesExact; rw [liveAt0_3 t], after0_3]
theorem leaves0_2_live (c : Dev nD) (t : Fin cfg0.N) (h : cond0_1 (grid0.coords t)) :
    (dat0 V c).leavesExact 2 t = owns (c : Thread nD τ) (ms0_2 t) fullShare ((outsAt0 V c t.val t.isLt).1) := by
  rw [show (dat0 V c).leavesExact 2 t = owns (c : Thread nD τ) (ms0_2 t) fullShare ((dat0 V c).after 2 t) from by
    unfold Dat.leavesExact; rw [liveAt0_2 t h], after0_2]

set_option maxHeartbeats 4800000 in
/-- The body at any point. The inputs' buffers hold their blocks; the closed forms of the two conditions say which
    case the point is in; the invariant hands the body the accumulator at what the point before left (at anything
    before the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_3]
  have hN : t.val < 128 := lt_of_lt_of_eq t.isLt (show cfg0.N = 128 from N_0)
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold caseA0 out0_A_3 sout0_A_0; dsimp only
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _)
          iexact HR
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _)
          iexact HR
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
  · have hz : t.val ≠ 0 := fun e => h0 (by rw [e])
    by_cases h1 : t.val % 16 = 15
    · rw [leaves0_2_live V c t ((hcond0_1 t).mpr h1)]
      rw [outsAt0_C V c t h0 h1]
      unfold caseC0 out0_C_2 out0_C_3 sout0_C_0; dsimp only
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold caseB0 out0_B_3 sout0_B_0; dsimp only
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _)
          iexact HR
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's share back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.R1Runs.lean ====
import proofs.«113216_j26164940767949_2_alg».proof.Proof.Gen.KernelIdeal.Launch
import proofs.«113216_j26164940767949_2_alg».proof.Proof.Gen.KernelIdeal.Skeleton
import proofs.«113216_j26164940767949_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 1: what its three whole-body runs share

The kernel of this region zeroes a scratch accumulator at the first step of the contraction axis, adds one
block product `A_blk · h_blk` into it at every step, and at the last step stores the accumulator into the output
window. The grid is 8 × 8, the contraction coordinate is `t % 8`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index
    has not moved, so the block kept from the point before is this point's. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional: the contraction coordinate is 0 (the scalar chain of the
    comparison, over the grid coordinates). -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid's 64 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional: the contraction coordinate is the last, 7. -/
abbrev cond1_1 (i : grid1.Coords) : Prop := k1_cond2 i = 1#1
/-- It holds at the points ≡ 7 (mod 8) — decided over the grid's 64 points. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first contraction step (case A) the output is idle: nothing is stored into it, -/
theorem idleAt1_2_A : ∀ t : Fin cfg1.N, cond1_0 (grid1.coords t) → ¬cond1_1 (grid1.coords t) → cfg1.idle 2 (grid1.coords t) = true := by decide +kernel
/-- and its block is not written back there. -/
theorem noFlush1_2_A : ∀ t : Fin cfg1.N, cond1_0 (grid1.coords t) → ¬cond1_1 (grid1.coords t) → (cfg1.win 2).flush t = false := by decide +kernel
/-- At a middle contraction step (case B) the output is idle, -/
theorem idleAt1_2_B : ∀ t : Fin cfg1.N, ¬cond1_0 (grid1.coords t) → ¬cond1_1 (grid1.coords t) → cfg1.idle 2 (grid1.coords t) = true := by decide +kernel
/-- and not written back. -/
theorem noFlush1_2_B : ∀ t : Fin cfg1.N, ¬cond1_0 (grid1.coords t) → ¬cond1_1 (grid1.coords t) → (cfg1.win 2).flush t = false := by decide +kernel
/-- At the last contraction step (case C) the output is live: the accumulator is stored into it. -/
theorem liveAt1_2_C : ∀ t : Fin cfg1.N, ¬cond1_0 (grid1.coords t) → cond1_1 (grid1.coords t) → cfg1.idle 2 (grid1.coords t) = false := by decide +kernel

/-! ## The memrefs the body is called on -/

/-- One staging buffer of the output window, through which its contents are stated (what is read back off covering
    pieces does not depend on the buffer they were written into). -/
abbrev VO1_2 : View sig .tc .vmem S2048x32 .f32 := (Memref.whole cc1_stg2_0 : Memref sig .tc .vmem S2048x32 .f32).view
/-- Each window's current staging memref at point `t`, spelled as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, passed beside the windows. -/
abbrev scM1_0 : Memref sig .tc .vmem S2048x32 .f32 := Memref.whole cc1_scratch0
/-- The same as a view: what the accumulator holds between points is stated through it. -/
abbrev VS1_0 : View sig .tc .vmem S2048x32 .f32 := scM1_0.view

/-! ## The region's invariant, buffer by buffer -/

/-- The core's scoped buffers that this region's pipeline does not stage, each whole at some contents, with the
    accumulator's place held by `X`: the other regions' staging buffers and accumulators are carried along untouched. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The invariant the launch hands the region, with the accumulator as a memref owned at some contents. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.KernelIdeal.Hand

end
-- ==== Proof.R1RunA.lean ====
import proofs.«113216_j26164940767949_2_alg».proof.Proof.R1Runs

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE A: the first contraction step — the accumulator is zeroed, then the block product is added; the
    output window is left as found.
    What the body's stores leave in the output's staging memref and in the accumulator, as pieces (last store first),
    WITH the proof that on whole memrefs — the inputs' at their blocks `x0`, `x1`, the output's at contents `xi2` handed back untouched, the
    accumulator at anything — the body runs to a continuation holding the inputs' as they were and each buffer it stored
    into with its pieces written. The pieces are found by running the body's skeleton store by store. -/
noncomputable def kernelRun1_A (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gcn_kernel_bf16 i arg2 harg2 arg3 harg3 arg4 harg4 arg5 harg5) K } := by
  refine ⟨[], ?_, fun xi2 E K => ?run⟩
  case run =>
    simp only [cc1__gcn_kernel_bf16_eq_skeleton]; unfold cc1__gcn_kernel_bf16_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunB.lean ====
import proofs.«113216_j26164940767949_2_alg».proof.Proof.R1RunA

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE B: a middle contraction step — the block product is added to the accumulator as the step before left it; the
    output window is left as found.
    What the body's stores leave in the output's staging memref and in the accumulator, as pieces (last store first),
    WITH the proof that on whole memrefs — the inputs' at their blocks `x0`, `x1`, the output's at contents `xi2` handed back untouched, the
    accumulator at the contents `xs0` the step before left — the body runs to a continuation holding the inputs' as they were and each buffer it stored
    into with its pieces written. The pieces are found by running the body's skeleton store by store. -/
noncomputable def kernelRun1_B (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gcn_kernel_bf16 i arg2 harg2 arg3 harg3 arg4 harg4 arg5 harg5) K } := by
  refine ⟨[], ?_, fun xi2 E K => ?run⟩
  case run =>
    simp only [cc1__gcn_kernel_bf16_eq_skeleton]; unfold cc1__gcn_kernel_bf16_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunC.lean ====
import proofs.«113216_j26164940767949_2_alg».proof.Proof.R1RunB

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE C: the last contraction step — the block product is added to the accumulator as the step before left it, and
    the accumulator's positive part is stored into the output window.
    What the body's stores leave in the output's staging memref and in the accumulator, as pieces (last store first),
    WITH the proof that on whole memrefs — the inputs' at their blocks `x0`, `x1`, the output's at anything, the
    accumulator at the contents `xs0` the step before left — the body runs to a continuation holding the inputs' as they were and each buffer it stored
    into with its pieces written. The pieces are found by running the body's skeleton store by store. -/
noncomputable def kernelRun1_C (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__gcn_kernel_bf16 i arg2 harg2 arg3 harg3 arg4 harg4 arg5 harg5) K } := by
  refine ⟨?_, ?_, fun E K => ?run⟩
  case run =>
    simp only [cc1__gcn_kernel_bf16_eq_skeleton]; unfold cc1__gcn_kernel_bf16_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R1Frame.lean ====
import proofs.«113216_j26164940767949_2_alg».proof.Proof.R1RunC

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 1: what its buffers hold point by point, the proof data, and the body obligation

Along the contraction axis (`t % 8 = 0, …, 7`) the accumulator holds, after step `k`, the sum of the block products of
steps `0 … k` of the row block (each step's contents is the step's pieces read back over the contents the step
before left); the output window holds, after the last step, the positive part of the accumulator. -/

/-- Case A stores nothing into the output window (idle at its points and not written back there): no pieces — a
    placeholder that nothing consults. -/
def out1_A_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) : Vec F S2048x32 .f32 :=
  VO1_2.read (Elt F) (VO1_2.writes (Elt F) VO1_2.junk (kernelRun1_A c i arg2 harg2 arg3 harg3 arg4 harg4 arg5 harg5 hc0 hc1 x0 x1).1)

/-- Case A's pieces for the accumulator cover it (each is a whole-buffer store). -/
theorem scover1_A_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) (y : S2048x32.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x32.size (by sl_kernel_rfl) y

/-- What case A leaves in the accumulator: its pieces read back. -/
def sout1_A_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) : Vec F S2048x32 .f32 :=
  VS1_0.read (Elt F) (VS1_0.writes (Elt F) VS1_0.junk (kernelRun1_A c i arg2 harg2 arg3 harg3 arg4 harg4 arg5 harg5 hc0 hc1 x0 x1).2.1)

/-- Case B stores nothing into the output window: a placeholder that nothing consults. -/
def out1_B_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) : Vec F S2048x32 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator cover it. -/
theorem scover1_B_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) (y : S2048x32.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x32.size (by sl_kernel_rfl) y

/-- What case B leaves in the accumulator. -/
def sout1_B_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) : Vec F S2048x32 .f32 :=
  VS1_0.read (Elt F) (VS1_0.writes (Elt F) VS1_0.junk (kernelRun1_B c i arg2 harg2 arg3 harg3 arg4 harg4 arg5 harg5 hc0 hc1 x0 x1 xs0).2.1)

/-- Case C's one store into the output window covers its block. -/
theorem cover1_C_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) (y : S2048x32.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x32.size (by sl_kernel_rfl) y

/-- What case C leaves in the output window's staging buffer. -/
def out1_C_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) : Vec F S2048x32 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator cover it. -/
theorem scover1_C_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) (y : S2048x32.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x32.size (by sl_kernel_rfl) y

/-- What case C leaves in the accumulator. -/
def sout1_C_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) : Vec F S2048x32 .f32 :=
  VS1_0.read (Elt F) (VS1_0.writes (Elt F) VS1_0.junk (kernelRun1_C c i arg2 harg2 arg3 harg3 arg4 harg4 arg5 harg5 hc0 hc1 x0 x1 xs0).2.1)

/-! ## What the buffers hold after each point -/

/-- THE ACCUMULATION. What the output window's staging buffer and the accumulator hold after the body at position `n`:
    the case the closed forms select at `n`, run at the point's memrefs and input blocks, the accumulator read at what
    position `n - 1` left in it. No position is both a first and a last contraction step. -/
def outsAt1 (c : Dev nD) : (n : ℕ) → n < cfg1.N → Vec F S2048x32 .f32 × Vec F S2048x32 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (every scoped
    buffer at anything); afterwards the same with the accumulator at what the point before left in it. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms say which case the point is in; the
    invariant hands the body the accumulator at what the point before left (at anything at the first point) and the
    other scoped buffers, and takes the accumulator back at this point's contents (its pieces cover it), the others as
    they were; the output window comes back untouched where the case stores nothing into it, and at the case's pieces
    read back at the last contraction step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by unfold Dat.leavesExact; rw [liveAt1_0 t], after1_0]
      rw [show (dat1 V c).leavesExact 1 t = owns (c : Thread nD τ) (ms1_1 t) fullShare ((dat1 V c).after 1 t) from by unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        iexists _; iexact H2
      · rw [PhiS1_castSucc V c t, PhiS1_pos V c _ _ hz]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by unfold Dat.leavesExact; rw [liveAt1_0 t], after1_0]
      rw [show (dat1 V c).leavesExact 1 t = owns (c : Thread nD τ) (ms1_1 t) fullShare ((dat1 V c).after 1 t) from by unfold Dat.leavesExact; rw [liveAt1_1 t], after1_1]
      rw [show (dat1 V c).leavesExact 2 t = owns (c : Thread nD τ) (ms1_2 t) fullShare ((dat1 V c).after 2 t) from by unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_C_0 c _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by unfold Dat.leavesExact; rw [liveAt1_0 t], after1_0]
      rw [show (dat1 V c).leavesExact 1 t = owns (c : Thread nD τ) (ms1_1 t) fullShare ((dat1 V c).after 1 t) from by unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_B_0 c _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HR0, HR1, HR2, HR3, HR4, HR5, HR6, HR7, HR8, HS0, HR10, HR11, HR12, HR13, HR14, HR15, HR16⟩, Hg⟩
  isplitl [HR0 HR1 HR2 HR3 HR4 HR5 HR6 HR7 HR8 HS0 HR10 HR11 HR12 HR13 HR14 HR15 HR16]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HS0]
    · iexists _; iexact HS0
    isplitl [HR10]; · iexact HR10
    isplitl [HR11]; · iexact HR11
    isplitl [HR12]; · iexact HR12
    isplitl [HR13]; · iexact HR13
    isplitl [HR14]; · iexact HR14
    isplitl [HR15]; · iexact HR15
    iexact HR16
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.R2Runs.lean ====
import proofs.«113216_j26164940767949_2_alg».proof.Proof.Gen.KernelIdeal.Launch
import proofs.«113216_j26164940767949_2_alg».proof.Proof.Gen.KernelIdeal.Skeleton
import proofs.«113216_j26164940767949_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 2: what its three whole-body runs share

The kernel of this region zeroes a scratch accumulator at the first step of the contraction axis, adds one
block product `A_blk · h_blk` into it at every step, and at the last step stores the accumulator into the output
window. The grid is 8 × 8, the contraction coordinate is `t % 8`. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: where the window is not fetched its block index
    has not moved, so the block kept from the point before is this point's. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional: the contraction coordinate is 0 (the scalar chain of the
    comparison, over the grid coordinates). -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid's 64 points. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional: the contraction coordinate is the last, 7. -/
abbrev cond2_1 (i : grid2.Coords) : Prop := k2_cond2 i = 1#1
/-- It holds at the points ≡ 7 (mod 8) — decided over the grid's 64 points. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- At the first contraction step (case A) the output is idle: nothing is stored into it, -/
theorem idleAt2_2_A : ∀ t : Fin cfg2.N, cond2_0 (grid2.coords t) → ¬cond2_1 (grid2.coords t) → cfg2.idle 2 (grid2.coords t) = true := by decide +kernel
/-- and its block is not written back there. -/
theorem noFlush2_2_A : ∀ t : Fin cfg2.N, cond2_0 (grid2.coords t) → ¬cond2_1 (grid2.coords t) → (cfg2.win 2).flush t = false := by decide +kernel
/-- At a middle contraction step (case B) the output is idle, -/
theorem idleAt2_2_B : ∀ t : Fin cfg2.N, ¬cond2_0 (grid2.coords t) → ¬cond2_1 (grid2.coords t) → cfg2.idle 2 (grid2.coords t) = true := by decide +kernel
/-- and not written back. -/
theorem noFlush2_2_B : ∀ t : Fin cfg2.N, ¬cond2_0 (grid2.coords t) → ¬cond2_1 (grid2.coords t) → (cfg2.win 2).flush t = false := by decide +kernel
/-- At the last contraction step (case C) the output is live: the accumulator is stored into it. -/
theorem liveAt2_2_C : ∀ t : Fin cfg2.N, ¬cond2_0 (grid2.coords t) → cond2_1 (grid2.coords t) → cfg2.idle 2 (grid2.coords t) = false := by decide +kernel

/-! ## The memrefs the body is called on -/

/-- One staging buffer of the output window, through which its contents are stated (what is read back off covering
    pieces does not depend on the buffer they were written into). -/
abbrev VO2_2 : View sig .tc .vmem S2048x32 .f32 := (Memref.whole cc2_stg2_0 : Memref sig .tc .vmem S2048x32 .f32).view
/-- Each window's current staging memref at point `t`, spelled as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x32 .f32 := win2_2.stage (cfg2.slots t 2)
abbrev hs2_2 (t : Fin cfg2.N) : (ms2_2 t).IsWhole := hstage2_2 ((cfg2.slots t 2).cast nbuf2_2)
/-- The scratch accumulator: a whole scoped buffer of the kernel's own, passed beside the windows. -/
abbrev scM2_0 : Memref sig .tc .vmem S2048x32 .f32 := Memref.whole cc2_scratch0
/-- The same as a view: what the accumulator holds between points is stated through it. -/
abbrev VS2_0 : View sig .tc .vmem S2048x32 .f32 := scM2_0.view

/-! ## The region's invariant, buffer by buffer -/

/-- The core's scoped buffers that this region's pipeline does not stage, each whole at some contents, with the
    accumulator's place held by `X`: the other regions' staging buffers and accumulators are carried along untouched. -/
def scoped2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ X)

/-- The invariant the launch hands the region, with the accumulator as a memref owned at some contents. -/
theorem PhiA2_eq (c : Dev nD) :
    (Pipeline.ΦA spec2 c : sProp 𝕄)
      = iprop(scoped2 c (iprop(∃ d, owns (c : Thread nD τ) scM2_0 fullShare d)) ∗ (∃ r, prngReg c r)) := by
  unfold Pipeline.ΦA scoped2; rw [scopedRest2_eq]; simp only [scM2_0, owns_whole]; try rfl

end Cert.KernelIdeal.Hand

end
-- ==== Proof.R2RunA.lean ====
import proofs.«113216_j26164940767949_2_alg».proof.Proof.R2Runs

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE A: the first contraction step — the accumulator is zeroed, then the block product is added; the
    output window is left as found.
    What the body's stores leave in the output's staging memref and in the accumulator, as pieces (last store first),
    WITH the proof that on whole memrefs — the inputs' at their blocks `x0`, `x1`, the output's at contents `xi2` handed back untouched, the
    accumulator at anything — the body runs to a continuation holding the inputs' as they were and each buffer it stored
    into with its pieces written. The pieces are found by running the body's skeleton store by store. -/
noncomputable def kernelRun2_A (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__gcn_kernel_bf16 i arg2 harg2 arg3 harg3 arg4 harg4 arg5 harg5) K } := by
  refine ⟨[], ?_, fun xi2 E K => ?run⟩
  case run =>
    simp only [cc2__gcn_kernel_bf16_eq_skeleton]; unfold cc2__gcn_kernel_bf16_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R2RunB.lean ====
import proofs.«113216_j26164940767949_2_alg».proof.Proof.R2RunA

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE B: a middle contraction step — the block product is added to the accumulator as the step before left it; the
    output window is left as found.
    What the body's stores leave in the output's staging memref and in the accumulator, as pieces (last store first),
    WITH the proof that on whole memrefs — the inputs' at their blocks `x0`, `x1`, the output's at contents `xi2` handed back untouched, the
    accumulator at the contents `xs0` the step before left — the body runs to a continuation holding the inputs' as they were and each buffer it stored
    into with its pieces written. The pieces are found by running the body's skeleton store by store. -/
noncomputable def kernelRun2_B (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__gcn_kernel_bf16 i arg2 harg2 arg3 harg3 arg4 harg4 arg5 harg5) K } := by
  refine ⟨[], ?_, fun xi2 E K => ?run⟩
  case run =>
    simp only [cc2__gcn_kernel_bf16_eq_skeleton]; unfold cc2__gcn_kernel_bf16_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R2RunC.lean ====
import proofs.«113216_j26164940767949_2_alg».proof.Proof.R2RunB

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE C: the last contraction step — the block product is added to the accumulator as the step before left it, and
    the accumulator is stored into the output window.
    What the body's stores leave in the output's staging memref and in the accumulator, as pieces (last store first),
    WITH the proof that on whole memrefs — the inputs' at their blocks `x0`, `x1`, the output's at anything, the
    accumulator at the contents `xs0` the step before left — the body runs to a continuation holding the inputs' as they were and each buffer it stored
    into with its pieces written. The pieces are found by running the body's skeleton store by store. -/
noncomputable def kernelRun2_C (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__gcn_kernel_bf16 i arg2 harg2 arg3 harg3 arg4 harg4 arg5 harg5) K } := by
  refine ⟨?_, ?_, fun E K => ?run⟩
  case run =>
    simp only [cc2__gcn_kernel_bf16_eq_skeleton]; unfold cc2__gcn_kernel_bf16_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R2Frame.lean ====
import proofs.«113216_j26164940767949_2_alg».proof.Proof.R2RunC

-- membership in a rectangle of full-size extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 2: what its buffers hold point by point, the proof data, and the body obligation

Along the contraction axis (`t % 8 = 0, …, 7`) the accumulator holds, after step `k`, the sum of the block products of
steps `0 … k` of the row block (each step's contents is the step's pieces read back over the contents the step
before left); the output window holds, after the last step, the accumulator. -/

/-- Case A stores nothing into the output window (idle at its points and not written back there): no pieces — a
    placeholder that nothing consults. -/
def out2_A_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) : Vec F S2048x32 .f32 :=
  VO2_2.read (Elt F) (VO2_2.writes (Elt F) VO2_2.junk (kernelRun2_A c i arg2 harg2 arg3 harg3 arg4 harg4 arg5 harg5 hc0 hc1 x0 x1).1)

/-- Case A's pieces for the accumulator cover it (each is a whole-buffer store). -/
theorem scover2_A_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) (y : S2048x32.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x32.size (by sl_kernel_rfl) y

/-- What case A leaves in the accumulator: its pieces read back. -/
def sout2_A_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) : Vec F S2048x32 .f32 :=
  VS2_0.read (Elt F) (VS2_0.writes (Elt F) VS2_0.junk (kernelRun2_A c i arg2 harg2 arg3 harg3 arg4 harg4 arg5 harg5 hc0 hc1 x0 x1).2.1)

/-- Case B stores nothing into the output window: a placeholder that nothing consults. -/
def out2_B_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) : Vec F S2048x32 .f32 :=
  VO2_2.read (Elt F) (VO2_2.writes (Elt F) VO2_2.junk (kernelRun2_B c i arg2 harg2 arg3 harg3 arg4 harg4 arg5 harg5 hc0 hc1 x0 x1 xs0).1)

/-- Case B's pieces for the accumulator cover it. -/
theorem scover2_B_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) (y : S2048x32.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x32.size (by sl_kernel_rfl) y

/-- What case B leaves in the accumulator. -/
def sout2_B_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) : Vec F S2048x32 .f32 :=
  VS2_0.read (Elt F) (VS2_0.writes (Elt F) VS2_0.junk (kernelRun2_B c i arg2 harg2 arg3 harg3 arg4 harg4 arg5 harg5 hc0 hc1 x0 x1 xs0).2.1)

/-- Case C's one store into the output window covers its block. -/
theorem cover2_C_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) (y : S2048x32.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x32.size (by sl_kernel_rfl) y

/-- What case C leaves in the output window's staging buffer. -/
def out2_C_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) : Vec F S2048x32 .f32 :=
  VO2_2.read (Elt F) (VO2_2.writes (Elt F) VO2_2.junk (kernelRun2_C c i arg2 harg2 arg3 harg3 arg4 harg4 arg5 harg5 hc0 hc1 x0 x1 xs0).1)

/-- Case C's pieces for the accumulator cover it. -/
theorem scover2_C_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) (y : S2048x32.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x32.size (by sl_kernel_rfl) y

/-- What case C leaves in the accumulator. -/
def sout2_C_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) : Vec F S2048x32 .f32 :=
  VS2_0.read (Elt F) (VS2_0.writes (Elt F) VS2_0.junk (kernelRun2_C c i arg2 harg2 arg3 harg3 arg4 harg4 arg5 harg5 hc0 hc1 x0 x1 xs0).2.1)

/-! ## What the buffers hold after each point -/

/-- THE ACCUMULATION. What the output window's staging buffer and the accumulator hold after the body at position `n`:
    the case the closed forms select at `n`, run at the point's memrefs and input blocks, the accumulator read at what
    position `n - 1` left in it. No position is both a first and a last contraction step. -/
def outsAt2 (c : Dev nD) : (n : ℕ) → n < cfg2.N → Vec F S2048x32 .f32 × Vec F S2048x32 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (every scoped
    buffer at anything); afterwards the same with the accumulator at what the point before left in it. -/
def PhiS2 (c : Dev nD) : (n : ℕ) → n ≤ cfg2.N → sProp 𝕄
  | 0, _ => Pipeline.ΦA spec2 c
  | n + 1, hn => iprop(scoped2 c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(scoped2 c (owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(scoped2 c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at `outsAt2`; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms say which case the point is in; the
    invariant hands the body the accumulator at what the point before left (at anything at the first point) and the
    other scoped buffers, and takes the accumulator back at this point's contents (its pieces cover it), the others as
    they were; the output window comes back untouched where the case stores nothing into it, and at the case's pieces
    read back at the last contraction step. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [show (dat2 V c).leavesExact 2 t = owns (c : Thread nD τ) (ms2_2 t) fullShare ((dat2 V c).after 2 t) from by unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold scoped2
  iintro ⟨⟨HR0, HR1, HR2, HR3, HR4, HR5, HR6, HR7, HR8, HR9, HR10, HR11, HR12, HR13, HR14, HR15, HS0⟩, Hg⟩
  isplitl [HR0 HR1 HR2 HR3 HR4 HR5 HR6 HR7 HR8 HR9 HR10 HR11 HR12 HR13 HR14 HR15 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KRun.lean ====
/-
  The three layers in sequence. The contents of the core's unscoped buffers are followed through @main: the launch
  memory, then alternately a stretch of host operations (the small products with the transposed weights) and a
  kernel region (whose arrays end at what its write-backs leave, every other buffer untouched). Each region is
  entered from the contents the stretch before it left; the run of the whole program then ends with every
  unscoped buffer at the last of these contents. Read at the argument arrays this is the frame; read at the
  result array it is the value the third layer's write-backs leave.
-/
import proofs.«113216_j26164940767949_2_alg».proof.Proof.R0Frame
import proofs.«113216_j26164940767949_2_alg».proof.Proof.R1Frame
import proofs.«113216_j26164940767949_2_alg».proof.Proof.R2Frame
import proofs.«113216_j26164940767949_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- After region 0: its arrays at what the write-backs leave, every other buffer as it was entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- After region 1: its arrays at what the write-backs leave, every other buffer as it was entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
theorem W5_of (c : Dev nD) (r : Ref sig .tc) (h : r ∉ hostOps2_W) : W5 m c (Proc.devRef .tc r) = W4 m c (Proc.devRef .tc r) :=
  StableHlo.after_of_writes_sub hostOps2 _ hostOps2_writes h

/-- After region 2: its arrays at what the write-backs leave, every other buffer as it was entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ### No stretch and no region writes an argument array -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-- The result array ends at what the third layer's write-backs leave. -/
theorem W6_main_v8 (c : Dev nD) : W6 m c (Proc.devRef .tc main_v8) = (dat2 (V5 m) c).arrAt 2 cfg2.N :=
  W6_arr m c 2

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 as a segment: entered from every unscoped buffer at the contents before it, left at the contents
    after it; its arrays are split out of the unscoped buffers and put back at what the write-backs leave; the
    generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the contents before it, left at the contents
    after it; its arrays are split out of the unscoped buffers and put back at what the write-backs leave; the
    generator register goes into the invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered from every unscoped buffer at the contents before it, left at the contents
    after it; its arrays are split out of the unscoped buffers and put back at what the write-backs leave; the
    generator register goes into the invariant and comes out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faults,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

/-- THE RUN WITH ITS RESULT NAMED: the result array ends at what the third layer's write-backs leave, the
    argument arrays as launched. -/
theorem run_value : θ_run defs (onTc (τ := τ) (main (F := F))) ⟨m, fun _ => 0, ρ⟩ (fun r => ∀ c : Dev nD,
      r.2.mem ((c.tc : Thread nD τ).loc main_v8) = (dat2 (V5 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v8 (by decide))).trans (W6_main_v8 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.KernelIdeal.Hand

end
-- ==== Proof.BR0Runs.lean ====
/-
  Region 0 of the program is the first graph-convolution layer: over a grid of 8 row blocks by 16 contraction
  blocks, the kernel keeps a 2048 x 64 accumulator in a scratch buffer, clears it at the first contraction block,
  adds the product of the adjacency block with the feature block at every point, and at the last contraction
  block writes max(accumulator, 0) to its first output; its second output is the adjacency block itself, narrowed.
  This module fixes the vocabulary the three control cases of that body are stated over: the blocks of the
  windows read off the contents V the region is entered with, the two branch conditions decided over the grid,
  where the first output is idle, and the staging and scratch buffers as memrefs.
-/
import proofs.«113216_j26164940767949_2_alg».proof.Proof.Gen.Kernel.Launch
import proofs.«113216_j26164940767949_2_alg».proof.Proof.Gen.Kernel.Skeleton
import proofs.«113216_j26164940767949_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point: it is fetched at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature window's staging buffer holds its block at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first contraction block": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last contraction block": the result is written out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Before the last contraction block nothing is stored into the first output, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body is handed -/

/-- One staging buffer of each output window, through which its contents are stated. -/
abbrev VO0_2 : View sig .tc .vmem S2048x64 .f32 := (Memref.whole cc0_stg2_0 : Memref sig .tc .vmem S2048x64 .f32).view
abbrev VO0_3 : View sig .tc .vmem S2048x1024 .bf16 := (Memref.whole cc0_stg3_0 : Memref sig .tc .vmem S2048x1024 .bf16).view
/-- Each window's current staging memref at point `t`, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x64 .f32 := Memref.whole cc0_scratch0
abbrev VS0_0 : View sig .tc .vmem S2048x64 .f32 := scM0_0.view

/-- The scoped buffers of the other two regions (their staging buffers and accumulators), each whole at some contents:
    region 0 never touches them. -/
abbrev restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- What the launch hands a region besides its windows: the scoped buffers no window of this region stages
    (the other regions' staging buffers and accumulators, and this region's accumulator) at some contents,
    and the generator register at some state. Spelt with the accumulator as a memref owned at some contents. -/
theorem PhiA0_eq (c : Dev nD) :
    (Pipeline.ΦA spec0 c : sProp 𝕄)
      = iprop(iprop((∃ d, owns (c : Thread nD τ) scM0_0 fullShare d) ∗ restOther0 (F := F) c) ∗ (∃ r, prngReg c r)) := by
  unfold Pipeline.ΦA; rw [scopedRest0_eq]; simp only [scM0_0, owns_whole]; try rfl

end Cert.Kernel.Hand

end
-- ==== Proof.BR0RunA.lean ====
/-
  The first layer's body at the FIRST contraction block of a row block (not the last): the accumulator is
  cleared, the adjacency block is narrowed into the second output, and the accumulator receives the block
  product. The first output is not touched. The lists of stores each buffer ends with are found by running the body.
-/
import proofs.«113216_j26164940767949_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a point where the accumulator is cleared and the result is not yet written: from the two input
    blocks `x0`, `x1`, the first output's buffer at any contents `xi2` (handed back untouched), the second
    output's buffer and the accumulator at anything, the body runs; the second output and the accumulator end as
    the listed stores (last first) leave them. -/
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    Σ' (L2 : List (View.Piece (Elt F) S2048x64 .f32)) (L3 : List (View.Piece (Elt F) S2048x1024 .bf16)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_layer1_kernel i arg2 harg2 arg3 harg3 arg4 harg4 arg5 harg5 arg6 harg6) K } := by
  refine ⟨[], ?_, ?_, fun xi2 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BR0RunB.lean ====
/-
  The first layer's body at a MIDDLE contraction block (neither first nor last): the adjacency block is narrowed
  into the second output and the block product is added to the accumulator the point before left.
-/
import proofs.«113216_j26164940767949_2_alg».proof.Proof.BR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a point that neither clears the accumulator nor writes the result: the accumulator comes in at
    the contents `xs0` the point before left. -/
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    Σ' (L2 : List (View.Piece (Elt F) S2048x64 .f32)) (L3 : List (View.Piece (Elt F) S2048x1024 .bf16)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_layer1_kernel i arg2 harg2 arg3 harg3 arg4 harg4 arg5 harg5 arg6 harg6) K } := by
  refine ⟨[], ?_, ?_, fun xi2 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BR0RunC.lean ====
/-
  The first layer's body at the LAST contraction block of a row block: the block product is added to the
  accumulator the point before left, and max(accumulator, 0) is stored into the first output.
-/
import proofs.«113216_j26164940767949_2_alg».proof.Proof.BR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a point that writes the result: the first output's buffer comes in at anything and ends as its
    listed store leaves it. -/
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) :
    Σ' (L2 : List (View.Piece (Elt F) S2048x64 .f32)) (L3 : List (View.Piece (Elt F) S2048x1024 .bf16)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_layer1_kernel i arg2 harg2 arg3 harg3 arg4 harg4 arg5 harg5 arg6 harg6) K } := by
  refine ⟨?_, ?_, ?_, fun E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.BR0Frame.lean ====
/-
  The first layer's proof data: what its two outputs' staging buffers and its accumulator hold after the body at
  every grid point, by recursion on the point (the accumulator is cleared at the first contraction block of a row
  block and otherwise continues from the point before), the invariant that carries the accumulator from point to
  point, and the body's obligation at every point: the body, run from the buffers as the pipeline hands them to
  it, leaves them as the proof data say.
-/
import proofs.«113216_j26164940767949_2_alg».proof.Proof.BR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ### Case A -/

/-- What case A leaves in the first output's staging buffer: its stores read back over unspecified contents (it stores nothing there: a placeholder nothing consults, since the block is neither written back nor read at these points). -/
def out0_A_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x64 .f32 :=
  VO0_2.read (Elt F) (VO0_2.writes (Elt F) VO0_2.junk (kernelRun0_A c i arg2 harg2 arg3 harg3 arg4 harg4 arg5 harg5 arg6 harg6 hc0 hc1 x0 x1).1)

/-- The store of case A into the second output covers its block. -/
theorem cover0_A_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) (y : S2048x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x1024.size (by sl_kernel_rfl) y

/-- What case A leaves in the second output's staging buffer. -/
def out0_A_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x1024 .bf16 :=
  VO0_3.read (Elt F) (VO0_3.writes (Elt F) VO0_3.junk (kernelRun0_A c i arg2 harg2 arg3 harg3 arg4 harg4 arg5 harg5 arg6 harg6 hc0 hc1 x0 x1).2.1)

/-- The stores of case A into the accumulator cover it. -/
theorem scover0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) (y : S2048x64.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x64.size (by sl_kernel_rfl) y

/-- What case A leaves in the accumulator. -/
def sout0_A_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) : Vec F S2048x64 .f32 :=
  VS0_0.read (Elt F) (VS0_0.writes (Elt F) VS0_0.junk (kernelRun0_A c i arg2 harg2 arg3 harg3 arg4 harg4 arg5 harg5 arg6 harg6 hc0 hc1 x0 x1).2.2.1)

/-! ### Case B -/

/-- What case B leaves in the first output's staging buffer: its stores read back over unspecified contents (it stores nothing there: a placeholder nothing consults, since the block is neither written back nor read at these points). -/
def out0_B_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x64 .f32 :=
  VO0_2.read (Elt F) (VO0_2.writes (Elt F) VO0_2.junk (kernelRun0_B c i arg2 harg2 arg3 harg3 arg4 harg4 arg5 harg5 arg6 harg6 hc0 hc1 x0 x1 xs0).1)

/-- The store of case B into the second output covers its block. -/
theorem cover0_B_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) (y : S2048x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S2048x1024.size (by sl_kernel_rfl) y

/-- What case B leaves in the second output's staging buffer. -/
def out0_B_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x1024 .bf16 :=
  VO0_3.read (Elt F) (VO0_3.writes (Elt F) VO0_3.junk (kernelRun0_B c i arg2 harg2 arg3 harg3 arg4 harg4 arg5 harg5 arg6 harg6 hc0 hc1 x0 x1 xs0).2.1)

/-- The stores of case B into the accumulator cover it. -/
theorem scover0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) (y : S2048x64.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S2048x64.size (by sl_kernel_rfl) y

/-- What case B leaves in the accumulator. -/
def sout0_B_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) : Vec F S2048x64 .f32 :=
  VS0_0.read (Elt F) (VS0_0.writes (Elt F) VS0_0.junk (kernelRun0_B c i arg2 harg2 arg3 harg3 arg4 harg4 arg5 harg5 arg6 harg6 hc0 hc1 x0 x1 xs0).2.2.1)

/-! ### Case C -/

/-- What case C leaves in the first output's staging buffer: its stores read back over unspecified contents. -/
def out0_C_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) : Vec F S2048x64 .f32 :=
  VO0_2.read (Elt F) (VO0_2.writes (Elt F) VO0_2.junk (kernelRun0_C c i arg2 harg2 arg3 harg3 arg4 harg4 arg5 harg5 arg6 harg6 hc0 hc1 x0 x1 xs0).1)

/-- The one store of case C into the first output covers its block. -/
theorem cover0_C_2 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) (y : S2048x64.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S2048x64.size (by sl_kernel_rfl) y

/-- The store of case C into the second output covers its block. -/
theorem cover0_C_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) (y : S2048x1024.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S2048x1024.size (by sl_kernel_rfl) y

/-- What case C leaves in the second output's staging buffer. -/
def out0_C_3 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) : Vec F S2048x1024 .bf16 :=
  VO0_3.read (Elt F) (VO0_3.writes (Elt F) VO0_3.junk (kernelRun0_C c i arg2 harg2 arg3 harg3 arg4 harg4 arg5 harg5 arg6 harg6 hc0 hc1 x0 x1 xs0).2.1)

/-- The stores of case C into the accumulator cover it. -/
theorem scover0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) (y : S2048x64.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S2048x64.size (by sl_kernel_rfl) y

/-- What case C leaves in the accumulator. -/
def sout0_C_0 (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) : Vec F S2048x64 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## What the buffers hold after each point -/

/-- The first output's buffer, the second output's buffer, the accumulator. -/
abbrev Outs0 (F : FTy → Type) [FloatOps F] : Type := Vec F S2048x64 .f32 × Vec F S2048x1024 .bf16 × Vec F S2048x64 .f32

/-- After a point that clears the accumulator. -/
def caseA0 (c : Dev nD) (t : Fin cfg0.N) (h0 : t.val % 16 = 0) (h1 : ¬t.val % 16 = 15) : Outs0 F :=
  (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t))
/-- After a middle point, the accumulator having come in at `xs`. -/
def caseB0 (c : Dev nD) (t : Fin cfg0.N) (h0 : ¬t.val % 16 = 0) (h1 : ¬t.val % 16 = 15) (xs : Vec F S2048x64 .f32) : Outs0 F :=
  (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) xs)
/-- After a point that writes the result, the accumulator having come in at `xs`. -/
def caseC0 (c : Dev nD) (t : Fin cfg0.N) (h0 : ¬t.val % 16 = 0) (h1 : t.val % 16 = 15) (xs : Vec F S2048x64 .f32) : Outs0 F :=
  (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) xs)

/-- THE ACCUMULATION: what the two outputs' buffers and the accumulator hold after the body at position `n`. -/
def outsAt0 (c : Dev nD) : (n : ℕ) → n < cfg0.N → Outs0 F
  | 0, hn => caseA0 V c ⟨0, hn⟩ (Nat.zero_mod 16) (fun h => by have e : 0 % 16 = 15 := h; omega)
  | n + 1, hn =>
    if h0 : (n + 1) % 16 = 0 then
      caseA0 V c ⟨n + 1, hn⟩ h0 (fun h1 => by have e : (n + 1) % 16 = 15 := h1; omega)
    else
      if h1 : (n + 1) % 16 = 15 then
        caseC0 V c ⟨n + 1, hn⟩ h0 h1 (outsAt0 c n (Nat.lt_of_succ_lt hn)).2.2
      else
        caseB0 V c ⟨n + 1, hn⟩ h0 h1 (outsAt0 c n (Nat.lt_of_succ_lt hn)).2.2

theorem outsAt0_A (c : Dev nD) (t : Fin cfg0.N) (h0 : t.val % 16 = 0) (h1 : ¬t.val % 16 = 15) :
    outsAt0 V c t.val t.isLt = caseA0 V c t h0 h1 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = caseB0 V c t h0 h1 (outsAt0 V c (t.val - 1) (Nat.lt_of_le_of_lt (Nat.sub_le _ _) t.isLt)).2.2 := by
  obtain ⟨n, hn⟩ := t
  cases n with
  | zero => exact (by exfalso; exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = caseC0 V c t h0 h1 (outsAt0 V c (t.val - 1) (Nat.lt_of_le_of_lt (Nat.sub_le _ _) t.isLt)).2.2 := by
  obtain ⟨n, hn⟩ := t
  cases n with
  | zero => exact (by exfalso; exact absurd (Nat.zero_mod _) h0)
  | succ n => exact (dif_neg h0).trans ((dif_pos h1).trans rfl)

/-! ## The invariant that carries the accumulator -/

/-- Before the first point: what the launch hands the region. Afterwards: the accumulator at what the point
    before left in it, the other regions' scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restOther0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ restOther0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restOther0 (F := F) c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_3 (c : Dev nD) (t : Fin cfg0.N) :
    (dat0 V c).leavesExact 3 t = owns (c : Thread nD τ) (ms0_3 t) fullShare ((outsAt0 V c t.val t.isLt).2.1) := by
  rw [show (dat0 V c).leavesExact 3 t = owns (c : Thread nD τ) (ms0_3 t) fullShare ((dat0 V c).after 3 t) from by
    unfold Dat.leavesExact; rw [liveAt0_3 t], after0_3]
theorem leaves0_2_live (c : Dev nD) (t : Fin cfg0.N) (h : cond0_1 (grid0.coords t)) :
    (dat0 V c).leavesExact 2 t = owns (c : Thread nD τ) (ms0_2 t) fullShare ((outsAt0 V c t.val t.isLt).1) := by
  rw [show (dat0 V c).leavesExact 2 t = owns (c : Thread nD τ) (ms0_2 t) fullShare ((dat0 V c).after 2 t) from by
    unfold Dat.leavesExact; rw [liveAt0_2 t h], after0_2]

set_option maxHeartbeats 4800000 in
/-- The body at any point. The inputs' buffers hold their blocks; the closed forms of the two conditions say which
    case the point is in; the invariant hands the body the accumulator at what the point before left (at anything
    before the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_3]
  have hN : t.val < 128 := lt_of_lt_of_eq t.isLt (show cfg0.N = 128 from N_0)
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold caseA0 out0_A_3 sout0_A_0; dsimp only
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _)
          iexact HR
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _)
          iexact HR
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
  · have hz : t.val ≠ 0 := fun e => h0 (by rw [e])
    by_cases h1 : t.val % 16 = 15
    · rw [leaves0_2_live V c t ((hcond0_1 t).mpr h1)]
      rw [outsAt0_C V c t h0 h1]
      unfold caseC0 out0_C_2 out0_C_3 sout0_C_0; dsimp only
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold caseB0 out0_B_3 sout0_B_0; dsimp only
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _)
          iexact HR
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's share back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.BR1Runs.lean ====
import proofs.«113216_j26164940767949_2_alg».proof.Proof.Gen.Kernel.Launch
import proofs.«113216_j26164940767949_2_alg».proof.Proof.Gen.Kernel.Skeleton
import proofs.«113216_j26164940767949_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 1: what its three whole-body runs share

The kernel of this region zeroes a scratch accumulator at the first step of the contraction axis, adds one
block product `A_blk · h_blk` into it at every step, and at the last step stores the accumulator into the output
window. The grid is 8 × 8, the contraction coordinate is `t % 8`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index
    has not moved, so the block kept from the point before is this point's. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional: the contraction coordinate is 0 (the scalar chain of the
    comparison, over the grid coordinates). -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid's 64 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional: the contraction coordinate is the last, 7. -/
abbrev cond1_1 (i : grid1.Coords) : Prop := k1_cond2 i = 1#1
/-- It holds at the points ≡ 7 (mod 8) — decided over the grid's 64 points. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first contraction step (case A) the output is idle: nothing is stored into it, -/
theorem idleAt1_2_A : ∀ t : Fin cfg1.N, cond1_0 (grid1.coords t) → ¬cond1_1 (grid1.coords t) → cfg1.idle 2 (grid1.coords t) = true := by decide +kernel
/-- and its block is not written back there. -/
theorem noFlush1_2_A : ∀ t : Fin cfg1.N, cond1_0 (grid1.coords t) → ¬cond1_1 (grid1.coords t) → (cfg1.win 2).flush t = false := by decide +kernel
/-- At a middle contraction step (case B) the output is idle, -/
theorem idleAt1_2_B : ∀ t : Fin cfg1.N, ¬cond1_0 (grid1.coords t) → ¬cond1_1 (grid1.coords t) → cfg1.idle 2 (grid1.coords t) = true := by decide +kernel
/-- and not written back. -/
theorem noFlush1_2_B : ∀ t : Fin cfg1.N, ¬cond1_0 (grid1.coords t) → ¬cond1_1 (grid1.coords t) → (cfg1.win 2).flush t = false := by decide +kernel
/-- At the last contraction step (case C) the output is live: the accumulator is stored into it. -/
theorem liveAt1_2_C : ∀ t : Fin cfg1.N, ¬cond1_0 (grid1.coords t) → cond1_1 (grid1.coords t) → cfg1.idle 2 (grid1.coords t) = false := by decide +kernel

/-! ## The memrefs the body is called on -/

/-- One staging buffer of the output window, through which its contents are stated (what is read back off covering
    pieces does not depend on the buffer they were written into). -/
abbrev VO1_2 : View sig .tc .vmem S2048x32 .f32 := (Memref.whole cc1_stg2_0 : Memref sig .tc .vmem S2048x32 .f32).view
/-- Each window's current staging memref at point `t`, spelled as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, passed beside the windows. -/
abbrev scM1_0 : Memref sig .tc .vmem S2048x32 .f32 := Memref.whole cc1_scratch0
/-- The same as a view: what the accumulator holds between points is stated through it. -/
abbrev VS1_0 : View sig .tc .vmem S2048x32 .f32 := scM1_0.view

/-! ## The region's invariant, buffer by buffer -/

/-- The core's scoped buffers that this region's pipeline does not stage, each whole at some contents, with the
    accumulator's place held by `X`: the other regions' staging buffers and accumulators are carried along untouched. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The invariant the launch hands the region, with the accumulator as a memref owned at some contents. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.Kernel.Hand

end
-- ==== Proof.BR1RunA.lean ====
import proofs.«113216_j26164940767949_2_alg».proof.Proof.BR1Runs

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE A: the first contraction step — the accumulator is zeroed, then the block product is added; the
    output window is left as found.
    What the body's stores leave in the output's staging memref and in the accumulator, as pieces (last store first),
    WITH the proof that on whole memrefs — the inputs' at their blocks `x0`, `x1`, the output's at contents `xi2` handed back untouched, the
    accumulator at anything — the body runs to a continuation holding the inputs' as they were and each buffer it stored
    into with its pieces written. The pieces are found by running the body's skeleton store by store. -/
noncomputable def kernelRun1_A (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gcn_kernel_bf16 i arg2 harg2 arg3 harg3 arg4 harg4 arg5 harg5) K } := by
  refine ⟨[], ?_, fun xi2 E K => ?run⟩
  case run =>
    simp only [cc1__gcn_kernel_bf16_eq_skeleton]; unfold cc1__gcn_kernel_bf16_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BR1RunB.lean ====
import proofs.«113216_j26164940767949_2_alg».proof.Proof.BR1RunA

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE B: a middle contraction step — the block product is added to the accumulator as the step before left it; the
    output window is left as found.
    What the body's stores leave in the output's staging memref and in the accumulator, as pieces (last store first),
    WITH the proof that on whole memrefs — the inputs' at their blocks `x0`, `x1`, the output's at contents `xi2` handed back untouched, the
    accumulator at the contents `xs0` the step before left — the body runs to a continuation holding the inputs' as they were and each buffer it stored
    into with its pieces written. The pieces are found by running the body's skeleton store by store. -/
noncomputable def kernelRun1_B (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gcn_kernel_bf16 i arg2 harg2 arg3 harg3 arg4 harg4 arg5 harg5) K } := by
  refine ⟨[], ?_, fun xi2 E K => ?run⟩
  case run =>
    simp only [cc1__gcn_kernel_bf16_eq_skeleton]; unfold cc1__gcn_kernel_bf16_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BR1RunC.lean ====
import proofs.«113216_j26164940767949_2_alg».proof.Proof.BR1RunB

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE C: the last contraction step — the block product is added to the accumulator as the step before left it, and
    the accumulator's positive part is stored into the output window.
    What the body's stores leave in the output's staging memref and in the accumulator, as pieces (last store first),
    WITH the proof that on whole memrefs — the inputs' at their blocks `x0`, `x1`, the output's at anything, the
    accumulator at the contents `xs0` the step before left — the body runs to a continuation holding the inputs' as they were and each buffer it stored
    into with its pieces written. The pieces are found by running the body's skeleton store by store. -/
noncomputable def kernelRun1_C (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__gcn_kernel_bf16 i arg2 harg2 arg3 harg3 arg4 harg4 arg5 harg5) K } := by
  refine ⟨?_, ?_, fun E K => ?run⟩
  case run =>
    simp only [cc1__gcn_kernel_bf16_eq_skeleton]; unfold cc1__gcn_kernel_bf16_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BR1Frame.lean ====
import proofs.«113216_j26164940767949_2_alg».proof.Proof.BR1RunC

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 1: what its buffers hold point by point, the proof data, and the body obligation

Along the contraction axis (`t % 8 = 0, …, 7`) the accumulator holds, after step `k`, the sum of the block products of
steps `0 … k` of the row block (each step's contents is the step's pieces read back over the contents the step
before left); the output window holds, after the last step, the positive part of the accumulator. -/

/-- Case A stores nothing into the output window (idle at its points and not written back there): no pieces — a
    placeholder that nothing consults. -/
def out1_A_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) : Vec F S2048x32 .f32 :=
  VO1_2.read (Elt F) (VO1_2.writes (Elt F) VO1_2.junk (kernelRun1_A c i arg2 harg2 arg3 harg3 arg4 harg4 arg5 harg5 hc0 hc1 x0 x1).1)

/-- Case A's pieces for the accumulator cover it (each is a whole-buffer store). -/
theorem scover1_A_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) (y : S2048x32.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x32.size (by sl_kernel_rfl) y

/-- What case A leaves in the accumulator: its pieces read back. -/
def sout1_A_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x2048 .bf16) (x1 : Vec F S2048x32 .f32) : Vec F S2048x32 .f32 :=
  VS1_0.read (Elt F) (VS1_0.writes (Elt F) VS1_0.junk (kernelRun1_A c i arg2 harg2 arg3 harg3 arg4 harg4 arg5 harg5 hc0 hc1 x0 x1).2.1)

/-- Case B stores nothing into the output window: a placeholder that nothing consults. -/
def out1_B_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) : Vec F S2048x32 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator cover it. -/
theorem scover1_B_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) (y : S2048x32.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x32.size (by sl_kernel_rfl) y

/-- What case B leaves in the accumulator. -/
def sout1_B_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x2048 .bf16) (x1 : Vec F S2048x32 .f32) (xs0 : Vec F S2048x32 .f32) : Vec F S2048x32 .f32 :=
  VS1_0.read (Elt F) (VS1_0.writes (Elt F) VS1_0.junk (kernelRun1_B c i arg2 harg2 arg3 harg3 arg4 harg4 arg5 harg5 hc0 hc1 x0 x1 xs0).2.1)

/-- Case C's one store into the output window covers its block. -/
theorem cover1_C_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) (y : S2048x32.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x32.size (by sl_kernel_rfl) y

/-- What case C leaves in the output window's staging buffer. -/
def out1_C_2 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) : Vec F S2048x32 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator cover it. -/
theorem scover1_C_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) (y : S2048x32.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x32.size (by sl_kernel_rfl) y

/-- What case C leaves in the accumulator. -/
def sout1_C_0 (c : Dev nD) (i : grid1.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x2048 .bf16) (x1 : Vec F S2048x32 .f32) (xs0 : Vec F S2048x32 .f32) : Vec F S2048x32 .f32 :=
  VS1_0.read (Elt F) (VS1_0.writes (Elt F) VS1_0.junk (kernelRun1_C c i arg2 harg2 arg3 harg3 arg4 harg4 arg5 harg5 hc0 hc1 x0 x1 xs0).2.1)

/-! ## What the buffers hold after each point -/

/-- THE ACCUMULATION. What the output window's staging buffer and the accumulator hold after the body at position `n`:
    the case the closed forms select at `n`, run at the point's memrefs and input blocks, the accumulator read at what
    position `n - 1` left in it. No position is both a first and a last contraction step. -/
def outsAt1 (c : Dev nD) : (n : ℕ) → n < cfg1.N → Vec F S2048x32 .f32 × Vec F S2048x32 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (every scoped
    buffer at anything); afterwards the same with the accumulator at what the point before left in it. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms say which case the point is in; the
    invariant hands the body the accumulator at what the point before left (at anything at the first point) and the
    other scoped buffers, and takes the accumulator back at this point's contents (its pieces cover it), the others as
    they were; the output window comes back untouched where the case stores nothing into it, and at the case's pieces
    read back at the last contraction step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by unfold Dat.leavesExact; rw [liveAt1_0 t], after1_0]
      rw [show (dat1 V c).leavesExact 1 t = owns (c : Thread nD τ) (ms1_1 t) fullShare ((dat1 V c).after 1 t) from by unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        iexists _; iexact H2
      · rw [PhiS1_castSucc V c t, PhiS1_pos V c _ _ hz]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by unfold Dat.leavesExact; rw [liveAt1_0 t], after1_0]
      rw [show (dat1 V c).leavesExact 1 t = owns (c : Thread nD τ) (ms1_1 t) fullShare ((dat1 V c).after 1 t) from by unfold Dat.leavesExact; rw [liveAt1_1 t], after1_1]
      rw [show (dat1 V c).leavesExact 2 t = owns (c : Thread nD τ) (ms1_2 t) fullShare ((dat1 V c).after 2 t) from by unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_C_0 c _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by unfold Dat.leavesExact; rw [liveAt1_0 t], after1_0]
      rw [show (dat1 V c).leavesExact 1 t = owns (c : Thread nD τ) (ms1_1 t) fullShare ((dat1 V c).after 1 t) from by unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold scoped1
        iintro ⟨⟨⟨HR0, HR1, HR2, HR3, HR4, HR5, HR6, HR7, HR8, HS0, HR10, HR11, HR12, HR13, HR14, HR15, HR16⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HS0 HR10 HR11 HR12 HR13 HR14 HR15 HR16 Hg]
        · isplitl [HR0 HR1 HR2 HR3 HR4 HR5 HR6 HR7 HR8 HS0 HR10 HR11 HR12 HR13 HR14 HR15 HR16]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_B_0 c _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            iexact HR16
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HR0, HR1, HR2, HR3, HR4, HR5, HR6, HR7, HR8, HS0, HR10, HR11, HR12, HR13, HR14, HR15, HR16⟩, Hg⟩
  isplitl [HR0 HR1 HR2 HR3 HR4 HR5 HR6 HR7 HR8 HS0 HR10 HR11 HR12 HR13 HR14 HR15 HR16]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HS0]
    · iexists _; iexact HS0
    isplitl [HR10]; · iexact HR10
    isplitl [HR11]; · iexact HR11
    isplitl [HR12]; · iexact HR12
    isplitl [HR13]; · iexact HR13
    isplitl [HR14]; · iexact HR14
    isplitl [HR15]; · iexact HR15
    iexact HR16
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.BR2Runs.lean ====
import proofs.«113216_j26164940767949_2_alg».proof.Proof.Gen.Kernel.Launch
import proofs.«113216_j26164940767949_2_alg».proof.Proof.Gen.Kernel.Skeleton
import proofs.«113216_j26164940767949_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 2: what its three whole-body runs share

The kernel of this region zeroes a scratch accumulator at the first step of the contraction axis, adds one
block product `A_blk · h_blk` into it at every step, and at the last step stores the accumulator into the output
window. The grid is 8 × 8, the contraction coordinate is `t % 8`. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: where the window is not fetched its block index
    has not moved, so the block kept from the point before is this point's. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional: the contraction coordinate is 0 (the scalar chain of the
    comparison, over the grid coordinates). -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid's 64 points. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional: the contraction coordinate is the last, 7. -/
abbrev cond2_1 (i : grid2.Coords) : Prop := k2_cond2 i = 1#1
/-- It holds at the points ≡ 7 (mod 8) — decided over the grid's 64 points. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- At the first contraction step (case A) the output is idle: nothing is stored into it, -/
theorem idleAt2_2_A : ∀ t : Fin cfg2.N, cond2_0 (grid2.coords t) → ¬cond2_1 (grid2.coords t) → cfg2.idle 2 (grid2.coords t) = true := by decide +kernel
/-- and its block is not written back there. -/
theorem noFlush2_2_A : ∀ t : Fin cfg2.N, cond2_0 (grid2.coords t) → ¬cond2_1 (grid2.coords t) → (cfg2.win 2).flush t = false := by decide +kernel
/-- At a middle contraction step (case B) the output is idle, -/
theorem idleAt2_2_B : ∀ t : Fin cfg2.N, ¬cond2_0 (grid2.coords t) → ¬cond2_1 (grid2.coords t) → cfg2.idle 2 (grid2.coords t) = true := by decide +kernel
/-- and not written back. -/
theorem noFlush2_2_B : ∀ t : Fin cfg2.N, ¬cond2_0 (grid2.coords t) → ¬cond2_1 (grid2.coords t) → (cfg2.win 2).flush t = false := by decide +kernel
/-- At the last contraction step (case C) the output is live: the accumulator is stored into it. -/
theorem liveAt2_2_C : ∀ t : Fin cfg2.N, ¬cond2_0 (grid2.coords t) → cond2_1 (grid2.coords t) → cfg2.idle 2 (grid2.coords t) = false := by decide +kernel

/-! ## The memrefs the body is called on -/

/-- One staging buffer of the output window, through which its contents are stated (what is read back off covering
    pieces does not depend on the buffer they were written into). -/
abbrev VO2_2 : View sig .tc .vmem S2048x32 .f32 := (Memref.whole cc2_stg2_0 : Memref sig .tc .vmem S2048x32 .f32).view
/-- Each window's current staging memref at point `t`, spelled as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x32 .f32 := win2_2.stage (cfg2.slots t 2)
abbrev hs2_2 (t : Fin cfg2.N) : (ms2_2 t).IsWhole := hstage2_2 ((cfg2.slots t 2).cast nbuf2_2)
/-- The scratch accumulator: a whole scoped buffer of the kernel's own, passed beside the windows. -/
abbrev scM2_0 : Memref sig .tc .vmem S2048x32 .f32 := Memref.whole cc2_scratch0
/-- The same as a view: what the accumulator holds between points is stated through it. -/
abbrev VS2_0 : View sig .tc .vmem S2048x32 .f32 := scM2_0.view

/-! ## The region's invariant, buffer by buffer -/

/-- The core's scoped buffers that this region's pipeline does not stage, each whole at some contents, with the
    accumulator's place held by `X`: the other regions' staging buffers and accumulators are carried along untouched. -/
def scoped2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ X)

/-- The invariant the launch hands the region, with the accumulator as a memref owned at some contents. -/
theorem PhiA2_eq (c : Dev nD) :
    (Pipeline.ΦA spec2 c : sProp 𝕄)
      = iprop(scoped2 c (iprop(∃ d, owns (c : Thread nD τ) scM2_0 fullShare d)) ∗ (∃ r, prngReg c r)) := by
  unfold Pipeline.ΦA scoped2; rw [scopedRest2_eq]; simp only [scM2_0, owns_whole]; try rfl

end Cert.Kernel.Hand

end
-- ==== Proof.BR2RunA.lean ====
import proofs.«113216_j26164940767949_2_alg».proof.Proof.BR2Runs

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE A: the first contraction step — the accumulator is zeroed, then the block product is added; the
    output window is left as found.
    What the body's stores leave in the output's staging memref and in the accumulator, as pieces (last store first),
    WITH the proof that on whole memrefs — the inputs' at their blocks `x0`, `x1`, the output's at contents `xi2` handed back untouched, the
    accumulator at anything — the body runs to a continuation holding the inputs' as they were and each buffer it stored
    into with its pieces written. The pieces are found by running the body's skeleton store by store. -/
noncomputable def kernelRun2_A (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__gcn_kernel_bf16 i arg2 harg2 arg3 harg3 arg4 harg4 arg5 harg5) K } := by
  refine ⟨[], ?_, fun xi2 E K => ?run⟩
  case run =>
    simp only [cc2__gcn_kernel_bf16_eq_skeleton]; unfold cc2__gcn_kernel_bf16_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BR2RunB.lean ====
import proofs.«113216_j26164940767949_2_alg».proof.Proof.BR2RunA

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE B: a middle contraction step — the block product is added to the accumulator as the step before left it; the
    output window is left as found.
    What the body's stores leave in the output's staging memref and in the accumulator, as pieces (last store first),
    WITH the proof that on whole memrefs — the inputs' at their blocks `x0`, `x1`, the output's at contents `xi2` handed back untouched, the
    accumulator at the contents `xs0` the step before left — the body runs to a continuation holding the inputs' as they were and each buffer it stored
    into with its pieces written. The pieces are found by running the body's skeleton store by store. -/
noncomputable def kernelRun2_B (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__gcn_kernel_bf16 i arg2 harg2 arg3 harg3 arg4 harg4 arg5 harg5) K } := by
  refine ⟨[], ?_, fun xi2 E K => ?run⟩
  case run =>
    simp only [cc2__gcn_kernel_bf16_eq_skeleton]; unfold cc2__gcn_kernel_bf16_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BR2RunC.lean ====
import proofs.«113216_j26164940767949_2_alg».proof.Proof.BR2RunB

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

set_option maxHeartbeats 1000000 in
/-- CASE C: the last contraction step — the block product is added to the accumulator as the step before left it, and
    the accumulator is stored into the output window.
    What the body's stores leave in the output's staging memref and in the accumulator, as pieces (last store first),
    WITH the proof that on whole memrefs — the inputs' at their blocks `x0`, `x1`, the output's at anything, the
    accumulator at the contents `xs0` the step before left — the body runs to a continuation holding the inputs' as they were and each buffer it stored
    into with its pieces written. The pieces are found by running the body's skeleton store by store. -/
noncomputable def kernelRun2_C (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) :
    Σ' (L2 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__gcn_kernel_bf16 i arg2 harg2 arg3 harg3 arg4 harg4 arg5 harg5) K } := by
  refine ⟨?_, ?_, fun E K => ?run⟩
  case run =>
    simp only [cc2__gcn_kernel_bf16_eq_skeleton]; unfold cc2__gcn_kernel_bf16_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BR2Frame.lean ====
import proofs.«113216_j26164940767949_2_alg».proof.Proof.BR2RunC

-- membership in a rectangle of full-size extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: every statement below is at this parameter
variable (V : (c : Dev nD) → (b : Ref sig .tc) → Buf (Elt F) ((c : Thread nD τ).loc b))

/-! # Region 2: what its buffers hold point by point, the proof data, and the body obligation

Along the contraction axis (`t % 8 = 0, …, 7`) the accumulator holds, after step `k`, the sum of the block products of
steps `0 … k` of the row block (each step's contents is the step's pieces read back over the contents the step
before left); the output window holds, after the last step, the accumulator. -/

/-- Case A stores nothing into the output window (idle at its points and not written back there): no pieces — a
    placeholder that nothing consults. -/
def out2_A_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) : Vec F S2048x32 .f32 :=
  VO2_2.read (Elt F) (VO2_2.writes (Elt F) VO2_2.junk (kernelRun2_A c i arg2 harg2 arg3 harg3 arg4 harg4 arg5 harg5 hc0 hc1 x0 x1).1)

/-- Case A's pieces for the accumulator cover it (each is a whole-buffer store). -/
theorem scover2_A_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) (y : S2048x32.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x32.size (by sl_kernel_rfl) y

/-- What case A leaves in the accumulator: its pieces read back. -/
def sout2_A_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : cond2_0 i) (hc1 : ¬cond2_1 i)
    (x0 : Vec F S2048x2048 .bf16) (x1 : Vec F S2048x32 .f32) : Vec F S2048x32 .f32 :=
  VS2_0.read (Elt F) (VS2_0.writes (Elt F) VS2_0.junk (kernelRun2_A c i arg2 harg2 arg3 harg3 arg4 harg4 arg5 harg5 hc0 hc1 x0 x1).2.1)

/-- Case B stores nothing into the output window: a placeholder that nothing consults. -/
def out2_B_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) : Vec F S2048x32 .f32 :=
  VO2_2.read (Elt F) (VO2_2.writes (Elt F) VO2_2.junk (kernelRun2_B c i arg2 harg2 arg3 harg3 arg4 harg4 arg5 harg5 hc0 hc1 x0 x1 xs0).1)

/-- Case B's pieces for the accumulator cover it. -/
theorem scover2_B_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) (y : S2048x32.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x32.size (by sl_kernel_rfl) y

/-- What case B leaves in the accumulator. -/
def sout2_B_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : ¬cond2_1 i)
    (x0 : Vec F S2048x2048 .bf16) (x1 : Vec F S2048x32 .f32) (xs0 : Vec F S2048x32 .f32) : Vec F S2048x32 .f32 :=
  VS2_0.read (Elt F) (VS2_0.writes (Elt F) VS2_0.junk (kernelRun2_B c i arg2 harg2 arg3 harg3 arg4 harg4 arg5 harg5 hc0 hc1 x0 x1 xs0).2.1)

/-- Case C's one store into the output window covers its block. -/
theorem cover2_C_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) (y : S2048x32.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x32.size (by sl_kernel_rfl) y

/-- What case C leaves in the output window's staging buffer. -/
def out2_C_2 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) : Vec F S2048x32 .f32 :=
  VO2_2.read (Elt F) (VO2_2.writes (Elt F) VO2_2.junk (kernelRun2_C c i arg2 harg2 arg3 harg3 arg4 harg4 arg5 harg5 hc0 hc1 x0 x1 xs0).1)

/-- Case C's pieces for the accumulator cover it. -/
theorem scover2_C_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) (y : S2048x32.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x32.size (by sl_kernel_rfl) y

/-- What case C leaves in the accumulator. -/
def sout2_C_0 (c : Dev nD) (i : grid2.Coords) (arg2 : Memref sig .tc .vmem S2048x2048 .bf16) (harg2 : arg2.IsWhole) (arg3 : Memref sig .tc .vmem S2048x32 .f32) (harg3 : arg3.IsWhole) (arg4 : Memref sig .tc .vmem S2048x32 .f32) (harg4 : arg4.IsWhole) (arg5 : Memref sig .tc .vmem S2048x32 .f32) (harg5 : arg5.IsWhole) (hc0 : ¬cond2_0 i) (hc1 : cond2_1 i)
    (x0 : Vec F S2048x2048 .bf16) (x1 : Vec F S2048x32 .f32) (xs0 : Vec F S2048x32 .f32) : Vec F S2048x32 .f32 :=
  VS2_0.read (Elt F) (VS2_0.writes (Elt F) VS2_0.junk (kernelRun2_C c i arg2 harg2 arg3 harg3 arg4 harg4 arg5 harg5 hc0 hc1 x0 x1 xs0).2.1)

/-! ## What the buffers hold after each point -/

/-- THE ACCUMULATION. What the output window's staging buffer and the accumulator hold after the body at position `n`:
    the case the closed forms select at `n`, run at the point's memrefs and input blocks, the accumulator read at what
    position `n - 1` left in it. No position is both a first and a last contraction step. -/
def outsAt2 (c : Dev nD) : (n : ℕ) → n < cfg2.N → Vec F S2048x32 .f32 × Vec F S2048x32 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (every scoped
    buffer at anything); afterwards the same with the accumulator at what the point before left in it. -/
def PhiS2 (c : Dev nD) : (n : ℕ) → n ≤ cfg2.N → sProp 𝕄
  | 0, _ => Pipeline.ΦA spec2 c
  | n + 1, hn => iprop(scoped2 c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(scoped2 c (owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(scoped2 c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at `outsAt2`; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms say which case the point is in; the
    invariant hands the body the accumulator at what the point before left (at anything at the first point) and the
    other scoped buffers, and takes the accumulator back at this point's contents (its pieces cover it), the others as
    they were; the output window comes back untouched where the case stores nothing into it, and at the case's pieces
    read back at the last contraction step. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [show (dat2 V c).leavesExact 2 t = owns (c : Thread nD τ) (ms2_2 t) fullShare ((dat2 V c).after 2 t) from by unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        unfold scoped2
        iintro ⟨⟨⟨HR0, HR1, HR2, HR3, HR4, HR5, HR6, HR7, HR8, HR9, HR10, HR11, HR12, HR13, HR14, HR15, HS0⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR0 HR1 HR2 HR3 HR4 HR5 HR6 HR7 HR8 HR9 HR10 HR11 HR12 HR13 HR14 HR15 HS0 Hg]
        · isplitl [HR0 HR1 HR2 HR3 HR4 HR5 HR6 HR7 HR8 HR9 HR10 HR11 HR12 HR13 HR14 HR15 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold scoped2
  iintro ⟨⟨HR0, HR1, HR2, HR3, HR4, HR5, HR6, HR7, HR8, HR9, HR10, HR11, HR12, HR13, HR14, HR15, HS0⟩, Hg⟩
  isplitl [HR0 HR1 HR2 HR3 HR4 HR5 HR6 HR7 HR8 HR9 HR10 HR11 HR12 HR13 HR14 HR15 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.BKRun.lean ====
/-
  The three layers in sequence. The contents of the core's unscoped buffers are followed through @main: the launch
  memory, then alternately a stretch of host operations (the small products with the transposed weights) and a
  kernel region (whose arrays end at what its write-backs leave, every other buffer untouched). Each region is
  entered from the contents the stretch before it left; the run of the whole program then ends with every
  unscoped buffer at the last of these contents. Read at the argument arrays this is the frame; read at the
  result array it is the value the third layer's write-backs leave.
-/
import proofs.«113216_j26164940767949_2_alg».proof.Proof.BR0Frame
import proofs.«113216_j26164940767949_2_alg».proof.Proof.BR1Frame
import proofs.«113216_j26164940767949_2_alg».proof.Proof.BR2Frame
import proofs.«113216_j26164940767949_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- After region 0: its arrays at what the write-backs leave, every other buffer as it was entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- After region 1: its arrays at what the write-backs leave, every other buffer as it was entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
theorem W5_of (c : Dev nD) (r : Ref sig .tc) (h : r ∉ hostOps2_W) : W5 m c (Proc.devRef .tc r) = W4 m c (Proc.devRef .tc r) :=
  StableHlo.after_of_writes_sub hostOps2 _ hostOps2_writes h

/-- After region 2: its arrays at what the write-backs leave, every other buffer as it was entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ### No stretch and no region writes an argument array -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-- The result array ends at what the third layer's write-backs leave. -/
theorem W6_main_v8 (c : Dev nD) : W6 m c (Proc.devRef .tc main_v8) = (dat2 (V5 m) c).arrAt 2 cfg2.N :=
  W6_arr m c 2

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 as a segment: entered from every unscoped buffer at the contents before it, left at the contents
    after it; its arrays are split out of the unscoped buffers and put back at what the write-backs leave; the
    generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at the contents before it, left at the contents
    after it; its arrays are split out of the unscoped buffers and put back at what the write-backs leave; the
    generator register goes into the invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered from every unscoped buffer at the contents before it, left at the contents
    after it; its arrays are split out of the unscoped buffers and put back at what the write-backs leave; the
    generator register goes into the invariant and comes out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faults,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

/-- THE RUN WITH ITS RESULT NAMED: the result array ends at what the third layer's write-backs leave, the
    argument arrays as launched. -/
theorem run_value : θ_run defs (onTc (τ := τ) (main (F := F))) ⟨m, fun _ => 0, ρ⟩ (fun r => ∀ c : Dev nD,
      r.2.mem ((c.tc : Thread nD τ).loc main_v8) = (dat2 (V5 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v8 (by decide))).trans (W6_main_v8 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.Kernel.Hand

end
-- ==== Proof.GcnSpec.lean ====
/-
  The mathematics of a three-layer graph convolution, free of any program.

  Arrays are functions from a rank-2 index set to the extended reals. Three stages make up both arrangements:
  a LINEAR stage against a transposed weight, p[r,j] = Σ_d h[r,d]·W[j,d]; an AGGREGATION by the operator A,
  s[i,j] = Σ_k A[i,k]·p[k,j]; and the positive part max(·,0).

  The "K-form" applies, in each layer, the linear stage first and aggregates afterwards, A·(h·Wᵀ); the "R-form"
  aggregates first, (A·h)·Wᵀ. On the extended reals the product does not distribute over the sum at ±∞, so the two
  differ in general; when every entry of every argument is a real number they agree, because matrix multiplication of
  real matrices is associative, and each stage takes real arrays to real arrays, so the hypothesis passes from one
  layer to the next.

  Last, a lemma about sums in any commutative monoid: a sum over b·n consecutive terms is the left-to-right
  accumulation of its b block sums of n terms each, started from zero.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-! ## The three stages -/

/-- The linear stage against a transposed weight: p[r,j] = Σ_d h[r,d]·W[j,d]. -/
def linT {N D J : ℕ} (h : (⟨2, ![N, D]⟩ : Shape).Idx → EReal) (W : (⟨2, ![J, D]⟩ : Shape).Idx → EReal) :
    (⟨2, ![N, J]⟩ : Shape).Idx → EReal :=
  fun i => ∑ d : Fin D, h (ix2 (n0 := N) (i 0) d) * W (ix2 (n0 := J) (i 1) d)

/-- The aggregation: s[i,j] = Σ_k A[i,k]·p[k,j]. -/
def aggr {N K J : ℕ} (A : (⟨2, ![N, K]⟩ : Shape).Idx → EReal) (p : (⟨2, ![K, J]⟩ : Shape).Idx → EReal) :
    (⟨2, ![N, J]⟩ : Shape).Idx → EReal :=
  fun i => ∑ k : Fin K, A (ix2 (n0 := N) (i 0) k) * p (ix2 (n1 := J) k (i 1))

/-- The positive part, entry by entry: max(x, 0) with the real zero. -/
def relu0 {N J : ℕ} (x : (⟨2, ![N, J]⟩ : Shape).Idx → EReal) : (⟨2, ![N, J]⟩ : Shape).Idx → EReal :=
  fun i => max (x i) (0 : EReal)

theorem linT_ix2 {N D J : ℕ} (h : (⟨2, ![N, D]⟩ : Shape).Idx → EReal) (W : (⟨2, ![J, D]⟩ : Shape).Idx → EReal)
    (r : Fin N) (j : Fin J) : linT h W (ix2 r j) = ∑ d : Fin D, h (ix2 r d) * W (ix2 j d) := rfl

theorem aggr_ix2 {N K J : ℕ} (A : (⟨2, ![N, K]⟩ : Shape).Idx → EReal) (p : (⟨2, ![K, J]⟩ : Shape).Idx → EReal)
    (r : Fin N) (j : Fin J) : aggr A p (ix2 r j) = ∑ k : Fin K, A (ix2 r k) * p (ix2 k j) := rfl

theorem relu0_apply {N J : ℕ} (x : (⟨2, ![N, J]⟩ : Shape).Idx → EReal) (i : (⟨2, ![N, J]⟩ : Shape).Idx) :
    relu0 x i = max (x i) 0 := rfl

/-! ## The two arrangements of the three layers -/

/-- Linear stage first, then aggregation, in each layer: relu(A·(X·W1ᵀ)), relu(A·(h1·W2ᵀ)), A·(h2·W3ᵀ). -/
def kform (A : (⟨2, ![16384, 16384]⟩ : Shape).Idx → EReal) (X : (⟨2, ![16384, 64]⟩ : Shape).Idx → EReal)
    (W1 : (⟨2, ![64, 64]⟩ : Shape).Idx → EReal) (W2 : (⟨2, ![32, 64]⟩ : Shape).Idx → EReal)
    (W3 : (⟨2, ![32, 32]⟩ : Shape).Idx → EReal) : (⟨2, ![16384, 32]⟩ : Shape).Idx → EReal :=
  aggr A (linT (relu0 (aggr A (linT (relu0 (aggr A (linT X W1))) W2))) W3)

/-- Aggregation first, then the linear stage, in each layer: relu((A·X)·W1ᵀ), relu((A·g1)·W2ᵀ), (A·g2)·W3ᵀ. -/
def rform (A : (⟨2, ![16384, 16384]⟩ : Shape).Idx → EReal) (X : (⟨2, ![16384, 64]⟩ : Shape).Idx → EReal)
    (W1 : (⟨2, ![64, 64]⟩ : Shape).Idx → EReal) (W2 : (⟨2, ![32, 64]⟩ : Shape).Idx → EReal)
    (W3 : (⟨2, ![32, 32]⟩ : Shape).Idx → EReal) : (⟨2, ![16384, 32]⟩ : Shape).Idx → EReal :=
  linT (aggr A (relu0 (linT (aggr A (relu0 (linT (aggr A X) W1))) W2))) W3

/-! ## Real entries: coercions leave finite sums, and associativity -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the matrix product, one entry: Σ_d (Σ_k a_k x_{k,d}) w_d = Σ_k a_k (Σ_d x_{k,d} w_d) for reals. -/
theorem assoc_real {ι κ : Type*} [Fintype ι] [Fintype κ] (a : ι → ℝ) (x : ι → κ → ℝ) (w : κ → ℝ) :
    ∑ d, (∑ k, (a k : EReal) * (x k d : EReal)) * (w d : EReal)
      = ∑ k, (a k : EReal) * ∑ d, (x k d : EReal) * (w d : EReal) := by
  have L : ∀ d, (∑ k, (a k : EReal) * (x k d : EReal)) * (w d : EReal) = (((∑ k, a k * x k d) * w d : ℝ) : EReal) := by
    intro d
    rw [EReal.coe_mul, coe_sum]
    simp only [EReal.coe_mul]
  have R : ∀ k, (a k : EReal) * ∑ d, (x k d : EReal) * (w d : EReal) = ((a k * ∑ d, x k d * w d : ℝ) : EReal) := by
    intro k
    rw [EReal.coe_mul, coe_sum]
    simp only [EReal.coe_mul]
  simp only [L, R]
  rw [← coe_sum, ← coe_sum]
  congr 1
  simp only [Finset.sum_mul, Finset.mul_sum]
  rw [Finset.sum_comm]
  refine Finset.sum_congr rfl fun k _ => Finset.sum_congr rfl fun d _ => ?_
  ring

/-! ## Each stage takes real arrays to real arrays -/

/-- A finite sum of products of reals is a real. -/
theorem sum_mul_real {ι : Type*} (s : Finset ι) (f g : ι → EReal) (hf : ∀ i, f i ≠ ⊤ ∧ f i ≠ ⊥)
    (hg : ∀ i, g i ≠ ⊤ ∧ g i ≠ ⊥) : (∑ i ∈ s, f i * g i) ≠ ⊤ ∧ (∑ i ∈ s, f i * g i) ≠ ⊥ := by
  lift f to ι → ℝ using hf
  lift g to ι → ℝ using hg
  simp only [← EReal.coe_mul]
  rw [← coe_sum]
  exact ⟨EReal.coe_ne_top _, EReal.coe_ne_bot _⟩

theorem linT_real {N D J : ℕ} {h : (⟨2, ![N, D]⟩ : Shape).Idx → EReal} {W : (⟨2, ![J, D]⟩ : Shape).Idx → EReal}
    (hh : ∀ i, h i ≠ ⊤ ∧ h i ≠ ⊥) (hW : ∀ i, W i ≠ ⊤ ∧ W i ≠ ⊥) : ∀ i, linT h W i ≠ ⊤ ∧ linT h W i ≠ ⊥ := by
  intro i
  exact sum_mul_real Finset.univ (fun d => h (ix2 (n0 := N) (i 0) d)) (fun d => W (ix2 (n0 := J) (i 1) d))
    (fun d => hh _) (fun d => hW _)

theorem aggr_real {N K J : ℕ} {A : (⟨2, ![N, K]⟩ : Shape).Idx → EReal} {p : (⟨2, ![K, J]⟩ : Shape).Idx → EReal}
    (hA : ∀ i, A i ≠ ⊤ ∧ A i ≠ ⊥) (hp : ∀ i, p i ≠ ⊤ ∧ p i ≠ ⊥) : ∀ i, aggr A p i ≠ ⊤ ∧ aggr A p i ≠ ⊥ := by
  intro i
  exact sum_mul_real Finset.univ (fun k => A (ix2 (n0 := N) (i 0) k)) (fun k => p (ix2 (n1 := J) k (i 1)))
    (fun k => hA _) (fun k => hp _)

theorem relu0_real {N J : ℕ} {x : (⟨2, ![N, J]⟩ : Shape).Idx → EReal}
    (hx : ∀ i, x i ≠ ⊤ ∧ x i ≠ ⊥) : ∀ i, relu0 x i ≠ ⊤ ∧ relu0 x i ≠ ⊥ := by
  intro i
  show max (x i) 0 ≠ ⊤ ∧ max (x i) 0 ≠ ⊥
  rcases max_choice (x i) (0 : EReal) with h | h <;> rw [h]
  · exact hx i
  · exact ⟨EReal.zero_ne_top, EReal.zero_ne_bot⟩

/-- One layer's law: on real arrays, (A·h)·Wᵀ = A·(h·Wᵀ). -/
theorem linT_aggr {N K D J : ℕ} {A : (⟨2, ![N, K]⟩ : Shape).Idx → EReal} {h : (⟨2, ![K, D]⟩ : Shape).Idx → EReal}
    {W : (⟨2, ![J, D]⟩ : Shape).Idx → EReal}
    (hA : ∀ i, A i ≠ ⊤ ∧ A i ≠ ⊥) (hh : ∀ i, h i ≠ ⊤ ∧ h i ≠ ⊥) (hW : ∀ i, W i ≠ ⊤ ∧ W i ≠ ⊥) :
    linT (aggr A h) W = aggr A (linT h W) := by
  funext i
  obtain ⟨r, j, rfl⟩ : ∃ (r : Fin N) (j : Fin J), i = ix2 r j := ⟨i 0, i 1, eq_ix2 i⟩
  rw [linT_ix2, aggr_ix2]
  simp only [aggr_ix2, linT_ix2]
  lift A to (⟨2, ![N, K]⟩ : Shape).Idx → ℝ using hA
  lift h to (⟨2, ![K, D]⟩ : Shape).Idx → ℝ using hh
  lift W to (⟨2, ![J, D]⟩ : Shape).Idx → ℝ using hW
  exact assoc_real (fun k => A (ix2 r k)) (fun k d => h (ix2 k d)) (fun d => W (ix2 j d))

/-- THE LAW: on real arguments the two arrangements of the three layers are one function. -/
theorem kform_eq_rform {A : (⟨2, ![16384, 16384]⟩ : Shape).Idx → EReal} {X : (⟨2, ![16384, 64]⟩ : Shape).Idx → EReal}
    {W1 : (⟨2, ![64, 64]⟩ : Shape).Idx → EReal} {W2 : (⟨2, ![32, 64]⟩ : Shape).Idx → EReal}
    {W3 : (⟨2, ![32, 32]⟩ : Shape).Idx → EReal}
    (hA : ∀ i, A i ≠ ⊤ ∧ A i ≠ ⊥) (hX : ∀ i, X i ≠ ⊤ ∧ X i ≠ ⊥) (hW1 : ∀ i, W1 i ≠ ⊤ ∧ W1 i ≠ ⊥)
    (hW2 : ∀ i, W2 i ≠ ⊤ ∧ W2 i ≠ ⊥) (hW3 : ∀ i, W3 i ≠ ⊤ ∧ W3 i ≠ ⊥) :
    kform A X W1 W2 W3 = rform A X W1 W2 W3 := by
  unfold kform rform
  have f1 := relu0_real (aggr_real hA (linT_real hX hW1))
  have f2 := relu0_real (aggr_real hA (linT_real f1 hW2))
  rw [linT_aggr hA hX hW1, linT_aggr hA f1 hW2, linT_aggr hA f2 hW3]

/-! ## A sum over b·n consecutive terms as the accumulation of its block sums -/

/-- Left-to-right accumulation from zero: acc 0 = 0 + S 0, acc (t+1) = acc t + S (t+1). -/
def accBlocks {M : Type*} [AddCommMonoid M] (S : ℕ → M) : ℕ → M
  | 0 => 0 + S 0
  | t + 1 => accBlocks S t + S (t + 1)

theorem accBlocks_zero {M : Type*} [AddCommMonoid M] (S : ℕ → M) : accBlocks S 0 = 0 + S 0 := rfl
theorem accBlocks_succ {M : Type*} [AddCommMonoid M] (S : ℕ → M) (t : ℕ) :
    accBlocks S (t + 1) = accBlocks S t + S (t + 1) := rfl

/-- The accumulation only looks at the block sums it has met. -/
theorem accBlocks_congr {M : Type*} [AddCommMonoid M] {S S' : ℕ → M} (b : ℕ) (h : ∀ t, t ≤ b → S t = S' t) :
    accBlocks S b = accBlocks S' b := by
  induction b with
  | zero => rw [accBlocks_zero, accBlocks_zero, h 0 le_rfl]
  | succ b ih =>
    rw [accBlocks_succ, accBlocks_succ, ih (fun t ht => h t (by omega)), h (b + 1) le_rfl]

/-- Over the naturals: the sum of the first (b+1)·n terms is the accumulation of the b+1 block sums. -/
theorem sum_range_blocks {M : Type*} [AddCommMonoid M] (f : ℕ → M) (n b : ℕ) :
    ∑ k ∈ Finset.range ((b + 1) * n), f k = accBlocks (fun t => ∑ q ∈ Finset.range n, f (t * n + q)) b := by
  induction b with
  | zero => simp [accBlocks_zero]
  | succ b ih =>
    rw [show (b + 1 + 1) * n = (b + 1) * n + n by ring, Finset.sum_range_add, ih, accBlocks_succ]

/-- The general lemma: (b+1)·n terms indexed by `Fin`, block sums S t = Σ_{q<n} g (t·n + q) for t ≤ b. -/
theorem sum_blocks_acc {M : Type*} [AddCommMonoid M] (b n : ℕ) (g : Fin ((b + 1) * n) → M) (S : ℕ → M)
    (hS : ∀ t (ht : t ≤ b), S t = ∑ q : Fin n, g ⟨t * n + q.val, by
      have := q.isLt
      calc t * n + q.val < t * n + n := by omega
        _ = (t + 1) * n := by ring
        _ ≤ (b + 1) * n := Nat.mul_le_mul_right n (by omega)⟩) :
    ∑ k, g k = accBlocks S b := by
  let f : ℕ → M := fun k => if h : k < (b + 1) * n then g ⟨k, h⟩ else 0
  have hg : ∀ k : Fin ((b + 1) * n), g k = f k.val := fun k => by
    show g k = if h : k.val < (b + 1) * n then g ⟨k.val, h⟩ else 0
    rw [dif_pos k.isLt]
  calc ∑ k, g k = ∑ k : Fin ((b + 1) * n), f k.val := Finset.sum_congr rfl (fun k _ => hg k)
    _ = ∑ k ∈ Finset.range ((b + 1) * n), f k := Fin.sum_univ_eq_sum_range f _
    _ = accBlocks (fun t => ∑ q ∈ Finset.range n, f (t * n + q)) b := sum_range_blocks f n b
    _ = accBlocks S b := accBlocks_congr b (fun t ht => by
        rw [hS t ht, ← Fin.sum_univ_eq_sum_range (fun q => f (t * n + q)) n]
        refine Finset.sum_congr rfl fun q _ => ?_
        exact (hg ⟨t * n + q.val, _⟩).symm)

/-- 16 blocks of 1024 terms. -/
theorem sum_blocks_acc_16_1024 {M : Type*} [AddCommMonoid M] (g : Fin 16384 → M) (S : ℕ → M)
    (hS : ∀ t (ht : t < 16), S t = ∑ q : Fin 1024, g ⟨t * 1024 + q.val, by have := q.isLt; omega⟩) :
    ∑ k, g k = accBlocks S 15 := by
  exact sum_blocks_acc 15 1024 g S (fun t ht => hS t (by omega))

/-- 8 blocks of 2048 terms. -/
theorem sum_blocks_acc_8_2048 {M : Type*} [AddCommMonoid M] (g : Fin 16384 → M) (S : ℕ → M)
    (hS : ∀ t (ht : t < 8), S t = ∑ q : Fin 2048, g ⟨t * 2048 + q.val, by have := q.isLt; omega⟩) :
    ∑ k, g k = accBlocks S 7 := by
  exact sum_blocks_acc 7 2048 g S (fun t ht => hS t (by omega))

end Cert.Gcn

end
-- ==== Proof.GcnHost.lean ====
/-
  The kernel program's three small products on the host are the specification's linear stage.

  Before each aggregation the program multiplies the activations, on the host, by a transposed weight: a product
  contracting the activations' second coordinate with the transposed weight's first. Entry (r, j) of the result is the
  sum over the contracted coordinate d of the activations at (r, d) times the transposed weight at (d, j), and the
  transpose reads the weight at (j, d): the sum Σ_d l[r,d]·w[j,d], whatever precision the product asks for, since on
  the extended reals there is no rounding to choose.
-/
import proofs.«113216_j26164940767949_2_alg».proof.Proof.GcnSpec
import proofs.«113216_j26164940767949_2_alg».proof.KernelIdeal
import Idealize.ShloMosaic.Lib.Pipeline.Value
import Idealize.ShloMosaic.Lib.ValueIdx
import Idealize.ShloMosaic.PureOps.Ideal.Laws

noncomputable section

open scoped BigOperators

namespace Cert.Gcn.KHost

open Cert.KernelIdeal Idealize.ShloMosaic Idealize.ShloMosaic.TcCoe Idealize.SL.Sem Idealize.ShloMosaic.StableHlo
  Idealize.ShloMosaic.ValueIdx

variable [Cert.KernelIdeal.Facts]
open Cert.KernelIdeal.Facts₀ Cert.KernelIdeal.Facts

/-! ### Layer 1: features [16384,64] against the first weight [64,64] -/

theorem lin1_lhs0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch from List.not_mem_nil),
    dif_pos (show (0 : Fin S16384x64.rank) ∈ dot_S16384x64_S64x64_S16384x64_1_0_0_1_n_n.lhsNonContracting from List.mem_singleton.mpr rfl)]
  rfl
theorem lin1_lhs1 (i : S16384x64.Idx) (q : dot_S16384x64_S64x64_S16384x64_1_0_0_1_n_n.contr.Idx) :
    (dot_S16384x64_S64x64_S16384x64_1_0_0_1_n_n.lhsIdx i q 1).val = (q ⟨0, Nat.one_pos⟩).val :=
  dot_S16384x64_S64x64_S16384x64_1_0_0_1_n_n.lhsIdx_val_of_single rfl i q
theorem lin1_rhs0 (i : S16384x64.Idx) (q : dot_S16384x64_S64x64_S16384x64_1_0_0_1_n_n.contr.Idx) :
    (dot_S16384x64_S64x64_S16384x64_1_0_0_1_n_n.rhsIdx i q 0).val = (q ⟨0, Nat.one_pos⟩).val :=
  dot_S16384x64_S64x64_S16384x64_1_0_0_1_n_n.rhsIdx_val_of_single rfl i q
theorem lin1_rhs1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch from List.not_mem_nil),
    dif_pos (show (1 : Fin S64x64.rank) ∈ dot_S16384x64_S64x64_S16384x64_1_0_0_1_n_n.rhsNonContracting from List.mem_singleton.mpr rfl)]
  rfl

/-- The host product of the activations with the transposed weight is the linear stage:
    entry (r, j) is Σ_d l[r,d]·w[j,d]. -/
theorem lin1 (l : FVec Ideal S16384x64 .f32) (w : FVec Ideal S64x64 .f32) :
    Host.dotGeneral dot_S16384x64_S64x64_S16384x64_1_0_0_1_n_n (some .fp32) l (transpose S64x64 [1, 0] w transposes_S64x64_S64x64_1_0)
      = Cert.Gcn.linT l w := by
  funext i
  obtain ⟨r, j, rfl⟩ : ∃ (r : Fin 16384) (j : Fin 64), i = ix2 r j := ⟨i 0, i 1, eq_ix2 i⟩
  simp only [Host.dotGeneral]
  rw [Ideal.dotGeneral_apply, ← Equiv.sum_comp (contrEquiv1 dot_S16384x64_S64x64_S16384x64_1_0_0_1_n_n 64 rfl rfl).symm, linT_ix2]
  refine Finset.sum_congr rfl fun d _ => ?_
  have hk := contrEquiv1_symm_val dot_S16384x64_S64x64_S16384x64_1_0_0_1_n_n 64 rfl rfl d
  have el : dot_S16384x64_S64x64_S16384x64_1_0_0_1_n_n.lhsIdx (ix2 r j) ((contrEquiv1 dot_S16384x64_S64x64_S16384x64_1_0_0_1_n_n 64 rfl rfl).symm d) = ix2 r d :=
    funext fun a => Fin.ext (by
      match a with
      | ⟨0, _⟩ => exact lin1_lhs0 _ _
      | ⟨1, _⟩ => exact (lin1_lhs1 _ _).trans hk)
  have er : dot_S16384x64_S64x64_S16384x64_1_0_0_1_n_n.rhsIdx (ix2 r j) ((contrEquiv1 dot_S16384x64_S64x64_S16384x64_1_0_0_1_n_n 64 rfl rfl).symm d) = ix2 d j :=
    funext fun a => Fin.ext (by
      match a with
      | ⟨0, _⟩ => exact (lin1_rhs0 _ _).trans hk
      | ⟨1, _⟩ => exact lin1_rhs1 _ _)
  rw [el, er, transpose_apply [1, 0] w transposes_S64x64_S64x64_1_0 (ix2 d j) (ix2 j d) (fun b => match b with
    | ⟨0, _⟩ => rfl
    | ⟨1, _⟩ => rfl)]

/-! ### Layer 2: activations [16384,64] against the second weight [32,64] -/

theorem lin2_lhs0 (i : S16384x32.Idx) (q : dot_S16384x64_S64x32_S16384x32_1_0_0_1_n_n.contr.Idx) :
    (dot_S16384x64_S64x32_S16384x32_1_0_0_1_n_n.lhsIdx i q 0).val = (i 0).val := by
  unfold DotDims.lhsIdx
  rw [dif_neg (show ¬(0 : Fin S16384x64.rank) ∈ dot_S16384x64_S64x32_S16384x32_1_0_0_1_n_n.lhsBatch from List.not_mem_nil),
    dif_pos (show (0 : Fin S16384x64.rank) ∈ dot_S16384x64_S64x32_S16384x32_1_0_0_1_n_n.lhsNonContracting from List.mem_singleton.mpr rfl)]
  rfl
theorem lin2_lhs1 (i : S16384x32.Idx) (q : dot_S16384x64_S64x32_S16384x32_1_0_0_1_n_n.contr.Idx) :
    (dot_S16384x64_S64x32_S16384x32_1_0_0_1_n_n.lhsIdx i q 1).val = (q ⟨0, Nat.one_pos⟩).val :=
  dot_S16384x64_S64x32_S16384x32_1_0_0_1_n_n.lhsIdx_val_of_single rfl i q
theorem lin2_rhs0 (i : S16384x32.Idx) (q : dot_S16384x64_S64x32_S16384x32_1_0_0_1_n_n.contr.Idx) :
    (dot_S16384x64_S64x32_S16384x32_1_0_0_1_n_n.rhsIdx i q 0).val = (q ⟨0, Nat.one_pos⟩).val :=
  dot_S16384x64_S64x32_S16384x32_1_0_0_1_n_n.rhsIdx_val_of_single rfl i q
theorem lin2_rhs1 (i : S16384x32.Idx) (q : dot_S16384x64_S64x32_S16384x32_1_0_0_1_n_n.contr.Idx) :
    (dot_S16384x64_S64x32_S16384x32_1_0_0_1_n_n.rhsIdx i q 1).val = (i 1).val := by
  unfold DotDims.rhsIdx
  rw [dif_neg (show ¬(1 : Fin S64x32.rank) ∈ dot_S16384x64_S64x32_S16384x32_1_0_0_1_n_n.rhsBatch from List.not_mem_nil),
    dif_pos (show (1 : Fin S64x32.rank) ∈ dot_S16384x64_S64x32_S16384x32_1_0_0_1_n_n.rhsNonContracting from List.mem_singleton.mpr rfl)]
  rfl

/-- The host product of the activations with the transposed weight is the linear stage:
    entry (r, j) is Σ_d l[r,d]·w[j,d]. -/
theorem lin2 (l : FVec Ideal S16384x64 .f32) (w : FVec Ideal S32x64 .f32) :
    Host.dotGeneral dot_S16384x64_S64x32_S16384x32_1_0_0_1_n_n (some .fp32) l (transpose S64x32 [1, 0] w transposes_S32x64_S64x32_1_0)
      = Cert.Gcn.linT l w := by
  funext i
  obtain ⟨r, j, rfl⟩ : ∃ (r : Fin 16384) (j : Fin 32), i = ix2 r j := ⟨i 0, i 1, eq_ix2 i⟩
  simp only [Host.dotGeneral]
  rw [Ideal.dotGeneral_apply, ← Equiv.sum_comp (contrEquiv1 dot_S16384x64_S64x32_S16384x32_1_0_0_1_n_n 64 rfl rfl).symm, linT_ix2]
  refine Finset.sum_congr rfl fun d _ => ?_
  have hk := contrEquiv1_symm_val dot_S16384x64_S64x32_S16384x32_1_0_0_1_n_n 64 rfl rfl d
  have el : dot_S16384x64_S64x32_S16384x32_1_0_0_1_n_n.lhsIdx (ix2 r j) ((contrEquiv1 dot_S16384x64_S64x32_S16384x32_1_0_0_1_n_n 64 rfl rfl).symm d) = ix2 r d :=
    funext fun a => Fin.ext (by
      match a with
      | ⟨0, _⟩ => exact lin2_lhs0 _ _
      | ⟨1, _⟩ => exact (lin2_lhs1 _ _).trans hk)
  have er : dot_S16384x64_S64x32_S16384x32_1_0_0_1_n_n.rhsIdx (ix2 r j) ((contrEquiv1 dot_S16384x64_S64x32_S16384x32_1_0_0_1_n_n 64 rfl rfl).symm d) = ix2 d j :=
    funext fun a => Fin.ext (by
      match a with
      | ⟨0, _⟩ => exact (lin2_rhs0 _ _).trans hk
      | ⟨1, _⟩ => exact lin2_rhs1 _ _)
  rw [el, er, transpose_apply [1, 0] w transposes_S32x64_S64x32_1_0 (ix2 d j) (ix2 j d) (fun b => match b with
    | ⟨0, _⟩ => rfl
    | ⟨1, _⟩ => rfl)]

/-! ### Layer 3: activations [16384,32] against the third weight [32,32] -/

theorem lin3_lhs0 (i : S16384x32.Idx) (q : dot_S16384x32_S32x32_S16384x32_1_0_0_1_n_n.contr.Idx) :
    (dot_S16384x32_S32x32_S16384x32_1_0_0_1_n_n.lhsIdx i q 0).val = (i 0).val := by
  unfold DotDims.lhsIdx
  rw [dif_neg (show ¬(0 : Fin S16384x32.rank) ∈ dot_S16384x32_S32x32_S16384x32_1_0_0_1_n_n.lhsBatch from List.not_mem_nil),
    dif_pos (show (0 : Fin S16384x32.rank) ∈ dot_S16384x32_S32x32_S16384x32_1_0_0_1_n_n.lhsNonContracting from List.mem_singleton.mpr rfl)]
  rfl
theorem lin3_lhs1 (i : S16384x32.Idx) (q : dot_S16384x32_S32x32_S16384x32_1_0_0_1_n_n.contr.Idx) :
    (dot_S16384x32_S32x32_S16384x32_1_0_0_1_n_n.lhsIdx i q 1).val = (q ⟨0, Nat.one_pos⟩).val :=
  dot_S16384x32_S32x32_S16384x32_1_0_0_1_n_n.lhsIdx_val_of_single rfl i q
theorem lin3_rhs0 (i : S16384x32.Idx) (q : dot_S16384x32_S32x32_S16384x32_1_0_0_1_n_n.contr.Idx) :
    (dot_S16384x32_S32x32_S16384x32_1_0_0_1_n_n.rhsIdx i q 0).val = (q ⟨0, Nat.one_pos⟩).val :=
  dot_S16384x32_S32x32_S16384x32_1_0_0_1_n_n.rhsIdx_val_of_single rfl i q
theorem lin3_rhs1 (i : S16384x32.Idx) (q : dot_S16384x32_S32x32_S16384x32_1_0_0_1_n_n.contr.Idx) :
    (dot_S16384x32_S32x32_S16384x32_1_0_0_1_n_n.rhsIdx i q 1).val = (i 1).val := by
  unfold DotDims.rhsIdx
  rw [dif_neg (show ¬(1 : Fin S32x32.rank) ∈ dot_S16384x32_S32x32_S16384x32_1_0_0_1_n_n.rhsBatch from List.not_mem_nil),
    dif_pos (show (1 : Fin S32x32.rank) ∈ dot_S16384x32_S32x32_S16384x32_1_0_0_1_n_n.rhsNonContracting from List.mem_singleton.mpr rfl)]
  rfl

/-- The host product of the activations with the transposed weight is the linear stage:
    entry (r, j) is Σ_d l[r,d]·w[j,d]. -/
theorem lin3 (l : FVec Ideal S16384x32 .f32) (w : FVec Ideal S32x32 .f32) :
    Host.dotGeneral dot_S16384x32_S32x32_S16384x32_1_0_0_1_n_n (some .fp32) l (transpose S32x32 [1, 0] w transposes_S32x32_S32x32_1_0)
      = Cert.Gcn.linT l w := by
  funext i
  obtain ⟨r, j, rfl⟩ : ∃ (r : Fin 16384) (j : Fin 32), i = ix2 r j := ⟨i 0, i 1, eq_ix2 i⟩
  simp only [Host.dotGeneral]
  rw [Ideal.dotGeneral_apply, ← Equiv.sum_comp (contrEquiv1 dot_S16384x32_S32x32_S16384x32_1_0_0_1_n_n 32 rfl rfl).symm, linT_ix2]
  refine Finset.sum_congr rfl fun d _ => ?_
  have hk := contrEquiv1_symm_val dot_S16384x32_S32x32_S16384x32_1_0_0_1_n_n 32 rfl rfl d
  have el : dot_S16384x32_S32x32_S16384x32_1_0_0_1_n_n.lhsIdx (ix2 r j) ((contrEquiv1 dot_S16384x32_S32x32_S16384x32_1_0_0_1_n_n 32 rfl rfl).symm d) = ix2 r d :=
    funext fun a => Fin.ext (by
      match a with
      | ⟨0, _⟩ => exact lin3_lhs0 _ _
      | ⟨1, _⟩ => exact (lin3_lhs1 _ _).trans hk)
  have er : dot_S16384x32_S32x32_S16384x32_1_0_0_1_n_n.rhsIdx (ix2 r j) ((contrEquiv1 dot_S16384x32_S32x32_S16384x32_1_0_0_1_n_n 32 rfl rfl).symm d) = ix2 d j :=
    funext fun a => Fin.ext (by
      match a with
      | ⟨0, _⟩ => exact (lin3_rhs0 _ _).trans hk
      | ⟨1, _⟩ => exact lin3_rhs1 _ _)
  rw [el, er, transpose_apply [1, 0] w transposes_S32x32_S32x32_1_0 (ix2 d j) (ix2 j d) (fun b => match b with
    | ⟨0, _⟩ => rfl
    | ⟨1, _⟩ => rfl)]

end Cert.Gcn.KHost

end
-- ==== Proof.PayIdx.lean ====
/-
  The kernels' pure values, read at one entry.

  Each of the three kernels keeps an accumulator for a block of 2048 rows. Its first value is zero. One step adds to
  it the product of a [2048, n] block of the operator with an [n, J] block of the activations: entry (r, j) of the
  product is the sum over the n shared coordinates q of the operator's block at (r, q) times the activations' block at
  (q, j). On the extended reals the narrowing of both factors to sixteen bits is the identity, and a cast of a vector
  to its own shape is the identity too. The first two kernels end by taking the maximum with zero.
-/
import proofs.«113216_j26164940767949_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.HandValue

open Cert.KernelIdeal Cert.KernelIdeal.Gen Idealize.ShloMosaic Idealize.SL.Sem Idealize.ShloMosaic.ValueIdx

variable [Cert.KernelIdeal.Facts]
open Cert.KernelIdeal.Facts₀ Cert.KernelIdeal.Facts

/-! ## The two block products at an entry -/

theorem mm0_lhs0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch from List.not_mem_nil),
    dif_pos (show (0 : Fin S2048x1024.rank) ∈ dot_S2048x1024_S1024x64_S2048x64_1_0_0_1_n_n.lhsNonContracting from List.mem_singleton.mpr rfl)]
  rfl
theorem mm0_lhs1 (i : S2048x64.Idx) (q : dot_S2048x1024_S1024x64_S2048x64_1_0_0_1_n_n.contr.Idx) :
    (dot_S2048x1024_S1024x64_S2048x64_1_0_0_1_n_n.lhsIdx i q 1).val = (q ⟨0, Nat.one_pos⟩).val :=
  dot_S2048x1024_S1024x64_S2048x64_1_0_0_1_n_n.lhsIdx_val_of_single rfl i q
theorem mm0_rhs0 (i : S2048x64.Idx) (q : dot_S2048x1024_S1024x64_S2048x64_1_0_0_1_n_n.contr.Idx) :
    (dot_S2048x1024_S1024x64_S2048x64_1_0_0_1_n_n.rhsIdx i q 0).val = (q ⟨0, Nat.one_pos⟩).val :=
  dot_S2048x1024_S1024x64_S2048x64_1_0_0_1_n_n.rhsIdx_val_of_single rfl i q
theorem mm0_rhs1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch from List.not_mem_nil),
    dif_pos (show (1 : Fin S1024x64.rank) ∈ dot_S2048x1024_S1024x64_S2048x64_1_0_0_1_n_n.rhsNonContracting from List.mem_singleton.mpr rfl)]
  rfl

/-- A product of a row block with a column block, read at (r, j): the sum over the shared coordinate. -/
theorem mm0_apply (a : FVec Ideal S2048x1024 .bf16) (b : FVec Ideal S1024x64 .bf16) (r : Fin 2048) (j : Fin 64) :
    FloatOps.matmul dot_S2048x1024_S1024x64_S2048x64_1_0_0_1_n_n none a b (constant (F := Ideal) S2048x64 .f32 0x00000000#32) (ix2 r j)
      = ∑ q : Fin 1024, a (ix2 r q) * b (ix2 q j) := by
  rw [Ideal.matmul_constant_zero_apply, ← Equiv.sum_comp (contrEquiv1 dot_S2048x1024_S1024x64_S2048x64_1_0_0_1_n_n 1024 rfl rfl).symm]
  refine Finset.sum_congr rfl fun q _ => ?_
  have hk := contrEquiv1_symm_val dot_S2048x1024_S1024x64_S2048x64_1_0_0_1_n_n 1024 rfl rfl q
  have el : dot_S2048x1024_S1024x64_S2048x64_1_0_0_1_n_n.lhsIdx (ix2 r j) ((contrEquiv1 dot_S2048x1024_S1024x64_S2048x64_1_0_0_1_n_n 1024 rfl rfl).symm q) = ix2 r q :=
    funext fun c => Fin.ext (by
      match c with
      | ⟨0, _⟩ => exact mm0_lhs0 _ _
      | ⟨1, _⟩ => exact (mm0_lhs1 _ _).trans hk)
  have er : dot_S2048x1024_S1024x64_S2048x64_1_0_0_1_n_n.rhsIdx (ix2 r j) ((contrEquiv1 dot_S2048x1024_S1024x64_S2048x64_1_0_0_1_n_n 1024 rfl rfl).symm q) = ix2 q j :=
    funext fun c => Fin.ext (by
      match c with
      | ⟨0, _⟩ => exact (mm0_rhs0 _ _).trans hk
      | ⟨1, _⟩ => exact mm0_rhs1 _ _)
  rw [el, er]

theorem mm1_lhs0 (i : S2048x32.Idx) (q : dot_S2048x2048_S2048x32_S2048x32_1_0_0_1_n_n.contr.Idx) :
    (dot_S2048x2048_S2048x32_S2048x32_1_0_0_1_n_n.lhsIdx i q 0).val = (i 0).val := by
  unfold DotDims.lhsIdx
  rw [dif_neg (show ¬(0 : Fin S2048x2048.rank) ∈ dot_S2048x2048_S2048x32_S2048x32_1_0_0_1_n_n.lhsBatch from List.not_mem_nil),
    dif_pos (show (0 : Fin S2048x2048.rank) ∈ dot_S2048x2048_S2048x32_S2048x32_1_0_0_1_n_n.lhsNonContracting from List.mem_singleton.mpr rfl)]
  rfl
theorem mm1_lhs1 (i : S2048x32.Idx) (q : dot_S2048x2048_S2048x32_S2048x32_1_0_0_1_n_n.contr.Idx) :
    (dot_S2048x2048_S2048x32_S2048x32_1_0_0_1_n_n.lhsIdx i q 1).val = (q ⟨0, Nat.one_pos⟩).val :=
  dot_S2048x2048_S2048x32_S2048x32_1_0_0_1_n_n.lhsIdx_val_of_single rfl i q
theorem mm1_rhs0 (i : S2048x32.Idx) (q : dot_S2048x2048_S2048x32_S2048x32_1_0_0_1_n_n.contr.Idx) :
    (dot_S2048x2048_S2048x32_S2048x32_1_0_0_1_n_n.rhsIdx i q 0).val = (q ⟨0, Nat.one_pos⟩).val :=
  dot_S2048x2048_S2048x32_S2048x32_1_0_0_1_n_n.rhsIdx_val_of_single rfl i q
theorem mm1_rhs1 (i : S2048x32.Idx) (q : dot_S2048x2048_S2048x32_S2048x32_1_0_0_1_n_n.contr.Idx) :
    (dot_S2048x2048_S2048x32_S2048x32_1_0_0_1_n_n.rhsIdx i q 1).val = (i 1).val := by
  unfold DotDims.rhsIdx
  rw [dif_neg (show ¬(1 : Fin S2048x32.rank) ∈ dot_S2048x2048_S2048x32_S2048x32_1_0_0_1_n_n.rhsBatch from List.not_mem_nil),
    dif_pos (show (1 : Fin S2048x32.rank) ∈ dot_S2048x2048_S2048x32_S2048x32_1_0_0_1_n_n.rhsNonContracting from List.mem_singleton.mpr rfl)]
  rfl

/-- A product of a row block with a column block, read at (r, j): the sum over the shared coordinate. -/
theorem mm1_apply (a : FVec Ideal S2048x2048 .bf16) (b : FVec Ideal S2048x32 .bf16) (r : Fin 2048) (j : Fin 32) :
    FloatOps.matmul dot_S2048x2048_S2048x32_S2048x32_1_0_0_1_n_n none a b (constant (F := Ideal) S2048x32 .f32 0x00000000#32) (ix2 r j)
      = ∑ q : Fin 2048, a (ix2 r q) * b (ix2 q j) := by
  rw [Ideal.matmul_constant_zero_apply, ← Equiv.sum_comp (contrEquiv1 dot_S2048x2048_S2048x32_S2048x32_1_0_0_1_n_n 2048 rfl rfl).symm]
  refine Finset.sum_congr rfl fun q _ => ?_
  have hk := contrEquiv1_symm_val dot_S2048x2048_S2048x32_S2048x32_1_0_0_1_n_n 2048 rfl rfl q
  have el : dot_S2048x2048_S2048x32_S2048x32_1_0_0_1_n_n.lhsIdx (ix2 r j) ((contrEquiv1 dot_S2048x2048_S2048x32_S2048x32_1_0_0_1_n_n 2048 rfl rfl).symm q) = ix2 r q :=
    funext fun c => Fin.ext (by
      match c with
      | ⟨0, _⟩ => exact mm1_lhs0 _ _
      | ⟨1, _⟩ => exact (mm1_lhs1 _ _).trans hk)
  have er : dot_S2048x2048_S2048x32_S2048x32_1_0_0_1_n_n.rhsIdx (ix2 r j) ((contrEquiv1 dot_S2048x2048_S2048x32_S2048x32_1_0_0_1_n_n 2048 rfl rfl).symm q) = ix2 q j :=
    funext fun c => Fin.ext (by
      match c with
      | ⟨0, _⟩ => exact (mm1_rhs0 _ _).trans hk
      | ⟨1, _⟩ => exact mm1_rhs1 _ _)
  rw [el, er]

/-! ## The first kernel (blocks of 1024 columns of the operator, 64 features) -/

/-- The accumulator's first value: zero everywhere. -/
theorem pay0_1_apply (r : Fin 2048) (j : Fin 64) : k0_pay1 (F := Ideal) (ix2 r j) = 0 := by
  show shapeCast S2048x64 (broadcast S2048x64 (Scalar.ofBits (F := Ideal) .f32 0x00000000#32)) Facts₀.shapeCasts_S2048x64_S2048x64 (ix2 r j) = 0
  rw [shapeCast_self]
  exact Ideal.ofBits_zero_f32

/-- The operator's block narrowed to sixteen bits is the block itself. -/
theorem pay0_2_apply (x0 : Vec Ideal S2048x1024 .f32) (i : S2048x1024.Idx) : k0_pay2 (F := Ideal) x0 i = x0 i := rfl

/-- One accumulation step: the accumulator plus the product of the operator's block with the activations' block. -/
theorem pay0_3_apply (x0 : Vec Ideal S2048x1024 .f32) (x1 : Vec Ideal S1024x64 .f32) (acc : Vec Ideal S2048x64 .f32)
    (r : Fin 2048) (j : Fin 64) :
    k0_pay3 (F := Ideal) x0 x1 acc (ix2 r j) = acc (ix2 r j) + ∑ q : Fin 1024, x0 (ix2 r q) * x1 (ix2 q j) := by
  show shapeCast S2048x64 (addf (F := Ideal) (φ := .f32) acc (matmul dot_S2048x1024_S1024x64_S2048x64_1_0_0_1_n_n none
      (k0_pay2 (F := Ideal) x0)
      (truncf (F := Ideal) .bf16 (shapeCast S1024x64 (x1 : FVec Ideal S1024x64 .f32) Facts₀.shapeCasts_S1024x64_S1024x64) Facts₀.bitsLt_bf16_f32)
      (constant S2048x64 .f32 0x00000000#32))) Facts₀.shapeCasts_S2048x64_S2048x64 (ix2 r j) = _
  rw [shapeCast_self, shapeCast_self]
  show acc (ix2 r j) + FloatOps.matmul dot_S2048x1024_S1024x64_S2048x64_1_0_0_1_n_n none (k0_pay2 (F := Ideal) x0)
      (truncf (F := Ideal) .bf16 (x1 : FVec Ideal S1024x64 .f32) Facts₀.bitsLt_bf16_f32)
      (constant (F := Ideal) S2048x64 .f32 0x00000000#32) (ix2 r j) = _
  rw [mm0_apply]
  rfl

/-- The positive part of the accumulated value. -/
theorem pay0_4_apply (v : Vec Ideal S2048x64 .f32) (r : Fin 2048) (j : Fin 64) :
    k0_pay4 (F := Ideal) v (ix2 r j) = max (v (ix2 r j)) 0 := by
  show max (v (ix2 r j)) (Ideal.ofBits .f32 0x00000000#32) = max (v (ix2 r j)) 0
  rw [Ideal.ofBits_zero_f32]

/-! ## The second kernel (blocks of 2048 columns, 32 features) -/

/-- The accumulator's first value: zero everywhere. -/
theorem pay1_1_apply (r : Fin 2048) (j : Fin 32) : k1_pay1 (F := Ideal) (ix2 r j) = 0 := by
  show shapeCast S2048x32 (broadcast S2048x32 (Scalar.ofBits (F := Ideal) .f32 0x00000000#32)) Facts₀.shapeCasts_S2048x32_S2048x32 (ix2 r j) = 0
  rw [shapeCast_self]
  exact Ideal.ofBits_zero_f32

/-- One accumulation step: the accumulator plus the product of the operator's block with the activations' block. -/
theorem pay1_2_apply (x0 : Vec Ideal S2048x2048 .bf16) (x1 : Vec Ideal S2048x32 .f32) (acc : Vec Ideal S2048x32 .f32)
    (r : Fin 2048) (j : Fin 32) :
    k1_pay2 (F := Ideal) x0 x1 acc (ix2 r j) = acc (ix2 r j) + ∑ q : Fin 2048, x0 (ix2 r q) * x1 (ix2 q j) := by
  show shapeCast S2048x32 (addf (F := Ideal) (φ := .f32) acc (matmul dot_S2048x2048_S2048x32_S2048x32_1_0_0_1_n_n none
      (shapeCast S2048x2048 (x0 : FVec Ideal S2048x2048 .bf16) Facts₀.shapeCasts_S2048x2048_S2048x2048)
      (truncf (F := Ideal) .bf16 (shapeCast S2048x32 (x1 : FVec Ideal S2048x32 .f32) Facts₀.shapeCasts_S2048x32_S2048x32) Facts₀.bitsLt_bf16_f32)
      (constant S2048x32 .f32 0x00000000#32))) Facts₀.shapeCasts_S2048x32_S2048x32 (ix2 r j) = _
  rw [shapeCast_self, shapeCast_self, shapeCast_self]
  show acc (ix2 r j) + FloatOps.matmul dot_S2048x2048_S2048x32_S2048x32_1_0_0_1_n_n none (x0 : FVec Ideal S2048x2048 .bf16)
      (truncf (F := Ideal) .bf16 (x1 : FVec Ideal S2048x32 .f32) Facts₀.bitsLt_bf16_f32)
      (constant (F := Ideal) S2048x32 .f32 0x00000000#32) (ix2 r j) = _
  rw [mm1_apply]
  rfl

/-- The positive part of the accumulated value. -/
theorem pay1_3_apply (v : Vec Ideal S2048x32 .f32) (r : Fin 2048) (j : Fin 32) :
    k1_pay3 (F := Ideal) v (ix2 r j) = max (v (ix2 r j)) 0 := by
  show max (v (ix2 r j)) (Ideal.ofBits .f32 0x00000000#32) = max (v (ix2 r j)) 0
  rw [Ideal.ofBits_zero_f32]

/-! ## The third kernel (blocks of 2048 columns, 32 features, no maximum) -/

/-- The accumulator's first value: zero everywhere. -/
theorem pay2_1_apply (r : Fin 2048) (j : Fin 32) : k2_pay1 (F := Ideal) (ix2 r j) = 0 := by
  show shapeCast S2048x32 (broadcast S2048x32 (Scalar.ofBits (F := Ideal) .f32 0x00000000#32)) Facts₀.shapeCasts_S2048x32_S2048x32 (ix2 r j) = 0
  rw [shapeCast_self]
  exact Ideal.ofBits_zero_f32

/-- One accumulation step: the accumulator plus the product of the operator's block with the activations' block. -/
theorem pay2_2_apply (x0 : Vec Ideal S2048x2048 .bf16) (x1 : Vec Ideal S2048x32 .f32) (acc : Vec Ideal S2048x32 .f32)
    (r : Fin 2048) (j : Fin 32) :
    k2_pay2 (F := Ideal) x0 x1 acc (ix2 r j) = acc (ix2 r j) + ∑ q : Fin 2048, x0 (ix2 r q) * x1 (ix2 q j) := by
  show shapeCast S2048x32 (addf (F := Ideal) (φ := .f32) acc (matmul dot_S2048x2048_S2048x32_S2048x32_1_0_0_1_n_n none
      (shapeCast S2048x2048 (x0 : FVec Ideal S2048x2048 .bf16) Facts₀.shapeCasts_S2048x2048_S2048x2048)
      (truncf (F := Ideal) .bf16 (shapeCast S2048x32 (x1 : FVec Ideal S2048x32 .f32) Facts₀.shapeCasts_S2048x32_S2048x32) Facts₀.bitsLt_bf16_f32)
      (constant S2048x32 .f32 0x00000000#32))) Facts₀.shapeCasts_S2048x32_S2048x32 (ix2 r j) = _
  rw [shapeCast_self, shapeCast_self, shapeCast_self]
  show acc (ix2 r j) + FloatOps.matmul dot_S2048x2048_S2048x32_S2048x32_1_0_0_1_n_n none (x0 : FVec Ideal S2048x2048 .bf16)
      (truncf (F := Ideal) .bf16 (x1 : FVec Ideal S2048x32 .f32) Facts₀.bitsLt_bf16_f32)
      (constant (F := Ideal) S2048x32 .f32 0x00000000#32) (ix2 r j) = _
  rw [mm1_apply]
  rfl

end Cert.KernelIdeal.HandValue

end
-- ==== Proof.ValueR0.lean ====
/-
  The value of the first graph-convolution layer, on the extended reals.

  The layer runs over 8 row blocks by 16 contraction blocks. At each point it adds to a 2048 x 64 accumulator the
  product of a 2048 x 1024 block of the adjacency with a 1024 x 64 block of the features (both narrowed to sixteen
  bits, which on the extended reals changes nothing), having cleared the accumulator at the first contraction block
  of a row block. At the last contraction block it writes max(accumulator, 0) to its first output; at every point it
  writes the narrowed adjacency block to its second output.

  So after the region the first output is the positive part of the aggregation, entry (r, j) being
  max(Σ_{k < 16384} A[r,k]·p[k,j], 0), and the second output is the adjacency A itself. The steps: what each control
  case leaves in each buffer is a payload of the blocks; along a row block the accumulator at an entry is the
  left-to-right accumulation of sixteen block sums, which is the whole sum cut into blocks of 1024; a block's entry
  is its array's entry at the block's offset; and the blocks the points write back tile the output arrays.
-/
import proofs.«113216_j26164940767949_2_alg».proof.Proof.R0Frame
import proofs.«113216_j26164940767949_2_alg».proof.Proof.GcnSpec
import proofs.«113216_j26164940767949_2_alg».proof.Proof.PayIdx
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each control case leaves, as payloads of the blocks

Each buffer's list of stores ends with one store through the whole buffer, so the buffer reads back as that store's
payload; the payload's operands are whole-buffer loads of the input blocks and of the accumulator, which read the
contents themselves. -/

section Pieces

variable {F : FTy → Type} [FloatOps F]

theorem hz0 : (![0, 0] : Fin 2 → Nat) = fun _ => 0 := funext fun a => by fin_cases a <;> rfl

/-- At the first contraction block the accumulator ends as the block product added to the zero block it was just cleared to. -/
theorem acc0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    sout0_A_0 c i arg2 harg2 arg3 harg3 arg4 harg4 arg5 harg5 arg6 harg6 hc0 hc1 x0 x1 = k0_pay3 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x64) hz0, View.readCov_unit_zero (S := S2048x64) _ hz0]
  simp only [View.readAt_eq_ld, harg2.read_unread, harg3.read_unread, harg6.read_unread, View.ld_unit_zero (S := S2048x1024) hz0, View.ld_unit_zero (S := S1024x64) hz0, View.ld_unit_zero (S := S2048x64) hz0]

/-- At a middle contraction block the accumulator ends as the block product added to what it held. -/
theorem acc0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    sout0_B_0 c i arg2 harg2 arg3 harg3 arg4 harg4 arg5 harg5 arg6 harg6 hc0 hc1 x0 x1 xs0 = k0_pay3 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero hz0]
  simp only [View.readAt_eq_ld, harg2.read_unread, harg3.read_unread, harg6.read_unread, View.ld_unit_zero (S := S2048x1024) hz0, View.ld_unit_zero (S := S1024x64) hz0, View.ld_unit_zero (S := S2048x64) hz0]

/-- At the last contraction block likewise. -/
theorem acc0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) :
    sout0_C_0 c i arg2 harg2 arg3 harg3 arg4 harg4 arg5 harg5 arg6 harg6 hc0 hc1 x0 x1 xs0 = k0_pay3 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz0]
  simp only [View.readAt_eq_ld, harg2.read_unread, harg3.read_unread, harg6.read_unread, View.ld_unit_zero (S := S2048x1024) hz0, View.ld_unit_zero (S := S1024x64) hz0, View.ld_unit_zero (S := S2048x64) hz0]

/-- At the last contraction block the first output's buffer ends as the positive part of the accumulator just completed. -/
theorem out0_2_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) :
    out0_C_2 c i arg2 harg2 arg3 harg3 arg4 harg4 arg5 harg5 arg6 harg6 hc0 hc1 x0 x1 xs0 = k0_pay4 (k0_pay3 x0 x1 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz0, View.readCov_unit_zero (S := S2048x64) _ hz0]
  simp only [View.readAt_eq_ld, harg2.read_unread, harg3.read_unread, harg6.read_unread, View.ld_unit_zero (S := S2048x1024) hz0, View.ld_unit_zero (S := S1024x64) hz0, View.ld_unit_zero (S := S2048x64) hz0]

/-- In every case the second output's buffer ends as the narrowed adjacency block. -/
theorem out0_3_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : cond0_0 i) (hc1 : ¬cond0_1 i)
    (x0 : Vec F S2048x1024 .f32) (x1 : Vec F S1024x64 .f32) :
    out0_A_3 c i arg2 harg2 arg3 harg3 arg4 harg4 arg5 harg5 arg6 harg6 hc0 hc1 x0 x1 = k0_pay2 x0 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  rw [View.canon_unit_zero hz0]
  simp only [View.readAt_eq_ld, harg2.read_unread, harg3.read_unread, harg6.read_unread, View.ld_unit_zero (S := S2048x1024) hz0, View.ld_unit_zero (S := S1024x64) hz0, View.ld_unit_zero (S := S2048x64) hz0]

/-- The second output, middle case. -/
theorem out0_3_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : ¬cond0_1 i)
    (x0 : Vec F S2048x1024 .f32) (x1 : Vec F S1024x64 .f32) (xs0 : Vec F S2048x64 .f32) :
    out0_B_3 c i arg2 harg2 arg3 harg3 arg4 harg4 arg5 harg5 arg6 harg6 hc0 hc1 x0 x1 xs0 = k0_pay2 x0 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  rw [View.canon_unit_zero hz0]
  simp only [View.readAt_eq_ld, harg2.read_unread, harg3.read_unread, harg6.read_unread, View.ld_unit_zero (S := S2048x1024) hz0, View.ld_unit_zero (S := S1024x64) hz0, View.ld_unit_zero (S := S2048x64) hz0]

/-- The second output, last case. -/
theorem out0_3_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1024 .bf16) (harg5 : arg5.IsWhole) (arg6 : Memref sig .tc .vmem S2048x64 .f32) (harg6 : arg6.IsWhole) (hc0 : ¬cond0_0 i) (hc1 : cond0_1 i)
    (x0 : Vec F S2048x1024 .f32) (x1 : Vec F S1024x64 .f32) (xs0 : Vec F S2048x64 .f32) :
    out0_C_3 c i arg2 harg2 arg3 harg3 arg4 harg4 arg5 harg5 arg6 harg6 hc0 hc1 x0 x1 xs0 = k0_pay2 x0 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  rw [View.canon_unit_zero hz0]
  simp only [View.readAt_eq_ld, harg2.read_unread, harg3.read_unread, harg6.read_unread, View.ld_unit_zero (S := S2048x1024) hz0, View.ld_unit_zero (S := S1024x64) hz0, View.ld_unit_zero (S := S2048x64) hz0]

end Pieces

/-! ## The buffers after a point, case by case

At a point that starts a row block the accumulator is the block product added to the zero block; at any other point
it is the block product added to what the point before left. At a point that ends a row block the first output's
buffer is the positive part of the accumulator, and at every point the second output's buffer is the narrowed
adjacency block. -/

section Steps

variable {F : FTy → Type} [FloatOps F]
variable (V : (c : Dev nD) → (b : Ref sig .tc) → Buf (Elt F) ((c : Thread nD τ).loc b))

/-- The accumulator after a point that starts a row block. -/
theorem acc0_reset (c : Dev nD) (t : Fin cfg0.N) (h0 : t.val % 16 = 0) :
    (outsAt0 V c t.val t.isLt).2.2 = k0_pay3 (iblk0 V c 0 t) (iblk0 V c 1 t) (k0_pay1 (F := F)) := by
  have h1 : ¬t.val % 16 = 15 := by omega
  rw [outsAt0_A V c t h0 h1]
  unfold caseA0
  dsimp only
  exact acc0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)

/-- The accumulator after any other point, from the accumulator after the point before. -/
theorem acc0_step (c : Dev nD) (t : Fin cfg0.N) (h0 : ¬t.val % 16 = 0) :
    (outsAt0 V c t.val t.isLt).2.2 = k0_pay3 (iblk0 V c 0 t) (iblk0 V c 1 t) (outsAt0 V c (t.val - 1) (Nat.lt_of_le_of_lt (Nat.sub_le _ _) t.isLt)).2.2 := by
  by_cases h1 : t.val % 16 = 15
  · rw [outsAt0_C V c t h0 h1]
    unfold caseC0
    dsimp only
    exact acc0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2
  · rw [outsAt0_B V c t h0 h1]
    unfold caseB0
    dsimp only
    exact acc0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2

/-- The first output's buffer after a point that ends a row block: the positive part of the block product added to
    what the point before left in the accumulator. -/
theorem out0_2_last (c : Dev nD) (t : Fin cfg0.N) (h0 : ¬t.val % 16 = 0) (h1 : t.val % 16 = 15) :
    (outsAt0 V c t.val t.isLt).1 = k0_pay4 (k0_pay3 (iblk0 V c 0 t) (iblk0 V c 1 t) (outsAt0 V c (t.val - 1) (Nat.lt_of_le_of_lt (Nat.sub_le _ _) t.isLt)).2.2) := by
  rw [outsAt0_C V c t h0 h1]
  unfold caseC0
  dsimp only
  exact out0_2_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2

/-- The second output's buffer after any point: the narrowed adjacency block. -/
theorem out0_3_all (c : Dev nD) (t : Fin cfg0.N) :
    (outsAt0 V c t.val t.isLt).2.1 = k0_pay2 (iblk0 V c 0 t) := by
  by_cases h0 : t.val % 16 = 0
  · have h1 : ¬t.val % 16 = 15 := by omega
    rw [outsAt0_A V c t h0 h1]
    unfold caseA0
    dsimp only
    exact out0_3_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)
  · by_cases h1 : t.val % 16 = 15
    · rw [outsAt0_C V c t h0 h1]
      unfold caseC0
      dsimp only
      exact out0_3_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2
    · rw [outsAt0_B V c t h0 h1]
      unfold caseB0
      dsimp only
      exact out0_3_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2

/-- The buffers after a point depend on the point's position only, not on the proof that it is in the grid. -/
theorem outsAt0_congr (c : Dev nD) (n n' : ℕ) (hn : n < cfg0.N) (hn' : n' < cfg0.N) (e : n = n') :
    outsAt0 V c n hn = outsAt0 V c n' hn' := by
  subst e; rfl

end Steps

/-! ## The accumulator at an element, on the extended reals

Along the sixteen points of a row block the accumulator at row r, column j of the block is zero plus the first
point's block product, plus the second's, and so on: the left-to-right accumulation of the sixteen block products,
each the sum over its 1024 contraction indices. -/

section AtIdeal

variable (V : (c : Dev nD) → (b : Ref sig .tc) → Buf (Elt Ideal) ((c : Thread nD τ).loc b))

/-- The adjacency window's block at point t, and the feature window's, as vectors of extended reals. -/
abbrev blkA0 (c : Dev nD) (t : Fin cfg0.N) : Vec Ideal S2048x1024 .f32 := iblk0 V c 0 t
abbrev blkP0 (c : Dev nD) (t : Fin cfg0.N) : Vec Ideal S1024x64 .f32 := iblk0 V c 1 t
/-- The adjacency and the features as the region finds them, as arrays of extended reals. -/
abbrev arrA0 (c : Dev nD) : FVec Ideal S16384x16384 .f32 := V c main_arg0
abbrev arrP0 (c : Dev nD) : FVec Ideal S16384x64 .f32 := V c main_v1

/-- The block product of point n at row r and column j: the sum over the block's contraction indices of the
    adjacency block's entry times the feature block's entry. Past the grid it is zero, and never used. -/
def blockDot0 (c : Dev nD) (r : Fin 2048) (j : Fin 64) (n : ℕ) : EReal :=
  if h : n < cfg0.N then
    ∑ q : Fin 1024, blkA0 V c ⟨n, h⟩ (ix2 r q) * blkP0 V c ⟨n, h⟩ (ix2 q j)
  else 0

theorem blockDot0_eq (c : Dev nD) (r : Fin 2048) (j : Fin 64) (t : Fin cfg0.N) :
    blockDot0 V c r j t.val
      = ∑ q : Fin 1024, blkA0 V c t (ix2 r q) * blkP0 V c t (ix2 q j) := by
  unfold blockDot0
  rw [dif_pos t.isLt]

/-- At an element, the accumulator after a point that starts a row block is zero plus that point's block product. -/
theorem acc0_reset_at (c : Dev nD) (t : Fin cfg0.N) (h0 : t.val % 16 = 0) (r : Fin 2048) (j : Fin 64) :
    ((outsAt0 V c t.val t.isLt).2.2 (ix2 r j) : EReal) = 0 + blockDot0 V c r j t.val := by
  refine (congrFun (acc0_reset V c t h0) (ix2 r j)).trans ?_
  refine (pay0_3_apply (iblk0 V c 0 t) (iblk0 V c 1 t) (k0_pay1 (F := Ideal)) r j).trans ?_
  rw [pay0_1_apply r j, blockDot0_eq]

/-- At an element, the accumulator after any other point is what the point before left plus this point's block product. -/
theorem acc0_step_at (c : Dev nD) (t : Fin cfg0.N) (h0 : ¬t.val % 16 = 0) (r : Fin 2048) (j : Fin 64) :
    ((outsAt0 V c t.val t.isLt).2.2 (ix2 r j) : EReal)
      = ((outsAt0 V c (t.val - 1) (Nat.lt_of_le_of_lt (Nat.sub_le _ _) t.isLt)).2.2 (ix2 r j) : EReal) + blockDot0 V c r j t.val := by
  refine (congrFun (acc0_step V c t h0) (ix2 r j)).trans ?_
  refine (pay0_3_apply (iblk0 V c 0 t) (iblk0 V c 1 t) (outsAt0 V c (t.val - 1) (Nat.lt_of_le_of_lt (Nat.sub_le _ _) t.isLt)).2.2 r j).trans ?_
  rw [blockDot0_eq]

/-- Along row block b: after the point at offset k the accumulator is the accumulation of the block products of
    the points at offsets 0 … k. -/
theorem acc0_at (c : Dev nD) (r : Fin 2048) (j : Fin 64) (b : ℕ) : ∀ (k : ℕ) (_ : k < 16) (h : 16 * b + k < cfg0.N),
    ((outsAt0 V c (16 * b + k) h).2.2 (ix2 r j) : EReal)
      = Cert.Gcn.accBlocks (fun s => blockDot0 V c r j (16 * b + s)) k
  | 0, _, h => by
    rw [Cert.Gcn.accBlocks_zero]
    exact acc0_reset_at V c ⟨16 * b + 0, h⟩ (by show (16 * b + 0) % 16 = 0; omega) r j
  | k + 1, hk, h => by
    rw [Cert.Gcn.accBlocks_succ, ← acc0_at c r j b k (Nat.lt_of_succ_lt hk) (Nat.lt_of_succ_lt h)]
    exact acc0_step_at V c ⟨16 * b + (k + 1), h⟩ (by show ¬(16 * b + (k + 1)) % 16 = 0; omega) r j

/-! ## The windows' blocks in their arrays

Point t = 16·i + k works on row block i and contraction block k: the adjacency window's block is rows
2048·i …, columns 1024·k … of the adjacency; the feature window's block is rows 1024·k … of the features; the first
output's block is rows 2048·i … of its array; the second output's block sits where the adjacency block does. -/

/-- The printed index maps, decided once over the grid. -/
theorem idx_facts0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = t.val % 16 :=
  (by decide +kernel : ∀ t : Fin grid0.N, _)

/-- An entry of the adjacency block of point t is the adjacency's entry at row 2048·(t / 16) + its row and column
    1024·(t % 16) + its column. -/
theorem blk0_0_apply (c : Dev nD) (t : Fin cfg0.N) (x : S2048x1024.Idx) (k : S16384x16384.Idx)
    (hk0 : (k 0).val = 2048 * (t.val / 16) + (x 0).val) (hk1 : (k 1).val = 1024 * (t.val % 16) + (x 1).val) :
    blkA0 V c t x = arrA0 V c k := by
  obtain ⟨e0, e1, -⟩ := idx_facts0 t
  show iblk0 V c 0 t x = V c main_arg0 k
  unfold iblk0
  rw [View.read_apply]
  show V c main_arg0 _ = V c main_arg0 _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 1024 + 1 * (x 1).val = (k 1).val; rw [e1, hk1]; omega

/-- An entry of the feature block of point t is the features' entry at row 1024·(t % 16) + its row, same column. -/
theorem blk0_1_apply (c : Dev nD) (t : Fin cfg0.N) (x : S1024x64.Idx) (k : S16384x64.Idx)
    (hk0 : (k 0).val = 1024 * (t.val % 16) + (x 0).val) (hk1 : (k 1).val = (x 1).val) :
    blkP0 V c t x = arrP0 V c k := by
  obtain ⟨-, -, e0, e1, -⟩ := idx_facts0 t
  show iblk0 V c 1 t x = V c main_v1 k
  unfold iblk0
  rw [View.read_apply]
  show V c main_v1 _ = V c main_v1 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 64 + 1 * (x 1).val = (k 1).val; rw [e1, hk1]; omega

/-! ## The first output: the positive part of the aggregation -/

/-- After the last point of a row block the accumulator at (r, j) is the whole contraction: the sum over all 16384
    indices of the adjacency's row times the features' column, cut into its sixteen blocks of 1024. -/
theorem acc0_full (c : Dev nD) (t : Fin cfg0.N) (h15 : t.val % 16 = 15) (r : Fin 2048) (j : Fin 64) (R : Fin 16384)
    (hR : R.val = 2048 * (t.val / 16) + r.val) :
    ((outsAt0 V c t.val t.isLt).2.2 (ix2 r j) : EReal)
      = Cert.Gcn.aggr (arrA0 V c) (arrP0 V c) (ix2 R j) := by
  have hN : cfg0.N = 128 := N_0
  have ht : t.val < 128 := lt_of_lt_of_eq t.isLt hN
  have e : t.val = 16 * (t.val / 16) + 15 := by omega
  have h' : 16 * (t.val / 16) + 15 < cfg0.N := lt_of_eq_of_lt e.symm t.isLt
  refine (congrFun (congrArg (fun o : Outs0 Ideal => o.2.2) (outsAt0_congr V c _ _ t.isLt h' e)) (ix2 r j)).trans ?_
  refine (acc0_at V c r j (t.val / 16) 15 (by omega) h').trans ?_
  rw [Cert.Gcn.aggr_ix2]
  refine (Cert.Gcn.sum_blocks_acc_16_1024
    (fun kk : Fin 16384 => arrA0 V c (ix2 R kk) * arrP0 V c (ix2 kk j))
    _ (fun s hs => ?_)).symm
  have hs' : 16 * (t.val / 16) + s < cfg0.N := lt_of_lt_of_eq (by omega : 16 * (t.val / 16) + s < 128) hN.symm
  refine (blockDot0_eq V c r j ⟨16 * (t.val / 16) + s, hs'⟩).trans ?_
  refine Finset.sum_congr rfl fun q _ => ?_
  have hq : q.val < 1024 := q.isLt
  refine congr (congrArg (fun a b : EReal => a * b)
      (blk0_0_apply V c ⟨16 * (t.val / 16) + s, hs'⟩ (ix2 r q) (ix2 R ⟨s * 1024 + q.val, by omega⟩) ?_ ?_))
    (blk0_1_apply V c ⟨16 * (t.val / 16) + s, hs'⟩ (ix2 q j) (ix2 ⟨s * 1024 + q.val, by omega⟩ j) ?_ ?_)
  · show R.val = 2048 * ((16 * (t.val / 16) + s) / 16) + r.val; omega
  · show s * 1024 + q.val = 1024 * ((16 * (t.val / 16) + s) % 16) + q.val; omega
  · show s * 1024 + q.val = 1024 * ((16 * (t.val / 16) + s) % 16) + q.val; omega
  · rfl

/-- The whole-array value of the first output. -/
abbrev G0_2 (c : Dev nD) : FVec Ideal S16384x64 .f32 :=
  Cert.Gcn.relu0 (Cert.Gcn.aggr (arrA0 V c) (arrP0 V c))

/-- An entry of the first output's buffer after a point that ends a row block is the positive part of the
    aggregation at the entry's place in the array. -/
theorem out0_2_at (c : Dev nD) (t : Fin cfg0.N) (h15 : t.val % 16 = 15) (y : S2048x64.Idx) (k : S16384x64.Idx)
    (hk0 : (k 0).val = 2048 * (t.val / 16) + (y 0).val) (hk1 : (k 1).val = (y 1).val) :
    ((outsAt0 V c t.val t.isLt).1 y : EReal) = G0_2 V c k := by
  have h0 : ¬t.val % 16 = 0 := by omega
  obtain ⟨r, j, rfl⟩ : ∃ (r : Fin 2048) (j : Fin 64), y = ix2 r j := ⟨y 0, y 1, eq_ix2 y⟩
  obtain ⟨R, J, rfl⟩ : ∃ (R : Fin 16384) (J : Fin 64), k = ix2 R J := ⟨k 0, k 1, eq_ix2 k⟩
  have hR : R.val = 2048 * (t.val / 16) + r.val := hk0
  obtain rfl : j = J := (Fin.ext hk1).symm
  refine (congrFun (out0_2_last V c t h0 h15) (ix2 r j)).trans ?_
  refine (pay0_4_apply (k0_pay3 (iblk0 V c 0 t) (iblk0 V c 1 t) (outsAt0 V c (t.val - 1) (Nat.lt_of_le_of_lt (Nat.sub_le _ _) t.isLt)).2.2) r j).trans ?_
  show max _ (0 : EReal) = max _ (0 : EReal)
  refine congrArg (fun z : EReal => max z 0) ?_
  refine (congrFun (acc0_step V c t h0) (ix2 r j)).symm.trans ?_
  exact acc0_full V c t h15 r j R hR

/-- WHAT A POINT THAT ENDS A ROW BLOCK WRITES BACK is its block of the positive part of the aggregation. -/
theorem flushed0_2_eq (c : Dev nD) (t : Fin cfg0.N) (hf : (cfg0.win 2).flush t = true) :
    (dat0 V c).flushed 2 t = ((cfg0.win 2).blk t).view.read (Elt Ideal) (G0_2 V c) := by
  have h15 : t.val % 16 = 15 := (flush0_2 t).mp hf
  obtain ⟨-, -, -, -, e0, e1, -⟩ := idx_facts0 t
  show (cfg0.win 2).cut (grid0.coords t) ((dat0 V c).after 2 t) = _
  rw [after0_2]
  refine funext fun (y : S2048x64.Idx) => ?_
  refine out0_2_at V c t h15 y (((cfg0.win 2).blk t).view.emb y) ?_ ?_
  · show win0_2.index t (0 : Fin 2) * 2048 + 1 * (y 0).val = 2048 * (t.val / 16) + (y 0).val
    rw [e0]; omega
  · show win0_2.index t (1 : Fin 2) * 64 + 1 * (y 1).val = (y 1).val
    rw [e1]; omega

/-- An index of the first output's array is in point t's block iff each coordinate is in the block's range. -/
theorem mem_blk0_2 (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v2_0).slice (win0_2.rect t)).set ↔ _
  rw [View.set_slice_whole, Rect.mem_set_unit]
  exact Iff.rfl

/-- Row r of the first output is written back by the last point of its row block, 16·(r / 2048) + 15. -/
theorem cover0_2 (i : S16384x64.Idx) :
    ∃ t : Fin cfg0.N, (cfg0.win 2).flush t = true ∧ i ∈ ((cfg0.win 2).blk t).view.set := by
  have hN : cfg0.N = 128 := N_0
  have hi0 : (i 0).val < 16384 := idx2_lt0 i
  have hi1 : (i 1).val < 64 := idx2_lt1 i
  obtain ⟨t, ht⟩ : ∃ t : Fin cfg0.N, t.val = 16 * ((i 0).val / 2048) + 15 := ⟨⟨16 * ((i 0).val / 2048) + 15, lt_of_lt_of_eq (by omega : 16 * ((i 0).val / 2048) + 15 < 128) hN.symm⟩, rfl⟩
  obtain ⟨-, -, -, -, e0, e1, -⟩ := idx_facts0 t
  refine ⟨t, (flush0_2 t).mpr (by omega), ?_⟩
  rw [mem_blk0_2]
  intro a
  match a with
  | ⟨0, _⟩ => show win0_2.index t (0 : Fin 2) * 2048 ≤ (i 0).val ∧ (i 0).val < win0_2.index t (0 : Fin 2) * 2048 + 2048
              rw [e0]; omega
  | ⟨1, _⟩ => show win0_2.index t (1 : Fin 2) * 64 ≤ (i 1).val ∧ (i 1).val < win0_2.index t (1 : Fin 2) * 64 + 64
              rw [e1]; omega

/-- THE FIRST OUTPUT after the region: the positive part of the aggregation of the features by the adjacency, as the
    region found them. -/
theorem final0_2 (c : Dev nD) :
    @Eq (FVec Ideal S16384x64 .f32) ((dat0 (F := Ideal) V c).arrAt 2 cfg0.N)
      (Cert.Gcn.relu0 (Cert.Gcn.aggr (show FVec Ideal S16384x16384 .f32 from V c main_arg0) (show FVec Ideal S16384x64 .f32 from V c main_v1))) :=
  (dat0 V c).arrAt_eq_of_cover 2 (G0_2 V c) (flushed0_2_eq V c) cover0_2

/-! ## The second output: the adjacency itself -/

/-- WHAT EVERY POINT WRITES BACK to the second output is its block of the adjacency. -/
theorem flushed0_3_eq (c : Dev nD) (t : Fin cfg0.N) :
    (dat0 V c).flushed 3 t = ((cfg0.win 3).blk t).view.read (Elt Ideal) (arrA0 V c) := by
  obtain ⟨-, -, -, -, -, -, e0, e1⟩ := idx_facts0 t
  show (cfg0.win 3).cut (grid0.coords t) ((dat0 V c).after 3 t) = _
  rw [after0_3]
  refine funext fun (y : S2048x1024.Idx) => ?_
  refine (congrFun (out0_3_all V c t) y).trans ?_
  refine (pay0_2_apply (iblk0 V c 0 t) y).trans ?_
  refine blk0_0_apply V c t y (((cfg0.win 3).blk t).view.emb y) ?_ ?_
  · show win0_3.index t (0 : Fin 2) * 2048 + 1 * (y 0).val = 2048 * (t.val / 16) + (y 0).val
    rw [e0]; omega
  · show win0_3.index t (1 : Fin 2) * 1024 + 1 * (y 1).val = 1024 * (t.val % 16) + (y 1).val
    rw [e1]; omega

theorem mem_blk0_3 (t : Fin cfg0.N) (i : S16384x16384.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v2_1).slice (win0_3.rect t)).set ↔ _
  rw [View.set_slice_whole, Rect.mem_set_unit]
  exact Iff.rfl

/-- Entry (r, q) of the second output is written back by point 16·(r / 2048) + q / 1024. -/
theorem cover0_3 (i : S16384x16384.Idx) :
    ∃ t : Fin cfg0.N, (cfg0.win 3).flush t = true ∧ i ∈ ((cfg0.win 3).blk t).view.set := by
  have hN : cfg0.N = 128 := N_0
  have hi0 : (i 0).val < 16384 := idx2_lt0 i
  have hi1 : (i 1).val < 16384 := idx2_lt1 i
  obtain ⟨t, ht⟩ : ∃ t : Fin cfg0.N, t.val = 16 * ((i 0).val / 2048) + (i 1).val / 1024 :=
    ⟨⟨16 * ((i 0).val / 2048) + (i 1).val / 1024, lt_of_lt_of_eq (by omega : 16 * ((i 0).val / 2048) + (i 1).val / 1024 < 128) hN.symm⟩, rfl⟩
  obtain ⟨-, -, -, -, -, -, e0, e1⟩ := idx_facts0 t
  refine ⟨t, flush0_3 t, ?_⟩
  rw [mem_blk0_3]
  intro a
  match a with
  | ⟨0, _⟩ => show win0_3.index t (0 : Fin 2) * 2048 ≤ (i 0).val ∧ (i 0).val < win0_3.index t (0 : Fin 2) * 2048 + 2048
              rw [e0]; omega
  | ⟨1, _⟩ => show win0_3.index t (1 : Fin 2) * 1024 ≤ (i 1).val ∧ (i 1).val < win0_3.index t (1 : Fin 2) * 1024 + 1024
              rw [e1]; omega

/-- THE SECOND OUTPUT after the region: the adjacency as the region found it. -/
theorem final0_3 (c : Dev nD) :
    @Eq (FVec Ideal S16384x16384 .f32) ((dat0 (F := Ideal) V c).arrAt 3 cfg0.N) (V c main_arg0) :=
  (dat0 V c).arrAt_eq_of_cover 3 (arrA0 V c) (fun t _ => flushed0_3_eq V c t) cover0_3

end AtIdeal

end Cert.KernelIdeal.HandValue

end
-- ==== Proof.ValueR1.lean ====
import proofs.«113216_j26164940767949_2_alg».proof.Proof.R1Frame
import proofs.«113216_j26164940767949_2_alg».proof.Proof.GcnSpec
import proofs.«113216_j26164940767949_2_alg».proof.Proof.PayIdx
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat)
open scoped BigOperators

/-! # Region 1 on the extended reals: its result array is the positive part of the aggregation A · p

Eight consecutive grid positions share a row block of 2048 rows. The accumulator restarts at the first of them and
adds one block product per position, so after the eighth it holds, at row r and column j, the contraction over all
16384 shared coordinates, summed as eight consecutive blocks of 2048; only additions are re-associated. The output
window then takes its positive part and is written back to rows (t / 8)·2048 … of the result. -/

section Pieces

variable {F : FTy → Type} [FloatOps F]

theorem hz2_1 : (![0, 0] : Fin 2 → Nat) = fun _ => 0 := funext fun a => by fin_cases a <;> rfl

/-- First contraction step: the accumulator is left at the zero block plus the step's block product. -/
theorem sout1_A_eq (c : Dev nD) (i : grid1.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : cond1_0 i) (hc1 : ¬cond1_1 i) (x0 : Vec F S2048x2048 .bf16) (x1 : Vec F S2048x32 .f32) :
    sout1_A_0 c i a2 h2 a3 h3 a4 h4 a5 h5 hc0 hc1 x0 x1 = k1_pay2 x0 x1 (k1_pay1 (F := F)) := by
  have hz2 := hz2_1
  unfold sout1_A_0
  rw [View.read_writes_eq_canon _ _ _ (scover1_A_0 c i a2 h2 a3 h3 a4 h4 a5 h5 hc0 hc1 x0 x1)]
  unfold kernelRun1_A
  dsimp only
  sl_unfold_words
  rw [View.canon_cons_unit_zero (S := S2048x32) hz2, View.readCov_unit_zero (S := S2048x32) _ hz2]
  simp only [View.readAt_eq_ld, h2.read_unread, h3.read_unread, h5.read_unread, View.ld_unit_zero (S := S2048x2048) hz2, View.ld_unit_zero (S := S2048x32) hz2]

/-- A middle contraction step: the accumulator is left at what it held plus the step's block product. -/
theorem sout1_B_eq (c : Dev nD) (i : grid1.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : ¬cond1_0 i) (hc1 : ¬cond1_1 i) (x0 : Vec F S2048x2048 .bf16) (x1 : Vec F S2048x32 .f32) (xs0 : Vec F S2048x32 .f32) :
    sout1_B_0 c i a2 h2 a3 h3 a4 h4 a5 h5 hc0 hc1 x0 x1 xs0 = k1_pay2 x0 x1 xs0 := by
  have hz2 := hz2_1
  unfold sout1_B_0
  rw [View.read_writes_eq_canon _ _ _ (scover1_B_0 c i a2 h2 a3 h3 a4 h4 a5 h5 hc0 hc1 x0 x1 xs0)]
  unfold kernelRun1_B
  dsimp only
  try sl_unfold_words
  rw [View.canon_unit_zero hz2]
  simp only [View.readAt_eq_ld, h2.read_unread, h3.read_unread, h5.read_unread, View.ld_unit_zero (S := S2048x2048) hz2, View.ld_unit_zero (S := S2048x32) hz2]

/-- The last contraction step: the same for the accumulator, -/
theorem sout1_C_eq (c : Dev nD) (i : grid1.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : ¬cond1_0 i) (hc1 : cond1_1 i) (x0 : Vec F S2048x2048 .bf16) (x1 : Vec F S2048x32 .f32) (xs0 : Vec F S2048x32 .f32) :
    sout1_C_0 c i a2 h2 a3 h3 a4 h4 a5 h5 hc0 hc1 x0 x1 xs0 = k1_pay2 x0 x1 xs0 := by
  have hz2 := hz2_1
  unfold sout1_C_0
  rw [View.read_writes_eq_canon _ _ _ (scover1_C_0 c i a2 h2 a3 h3 a4 h4 a5 h5 hc0 hc1 x0 x1 xs0)]
  unfold kernelRun1_C
  dsimp only
  try sl_unfold_words
  rw [View.canon_unit_zero hz2]
  simp only [View.readAt_eq_ld, h2.read_unread, h3.read_unread, h5.read_unread, View.ld_unit_zero (S := S2048x2048) hz2, View.ld_unit_zero (S := S2048x32) hz2]

/-- and the output window receives the positive part of the accumulator's new contents. -/
theorem out1_C_eq (c : Dev nD) (i : grid1.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : ¬cond1_0 i) (hc1 : cond1_1 i) (x0 : Vec F S2048x2048 .bf16) (x1 : Vec F S2048x32 .f32) (xs0 : Vec F S2048x32 .f32) :
    out1_C_2 c i a2 h2 a3 h3 a4 h4 a5 h5 hc0 hc1 x0 x1 xs0 = k1_pay3 (k1_pay2 x0 x1 xs0) := by
  have hz2 := hz2_1
  unfold out1_C_2
  rw [View.read_writes_eq_canon _ _ _ (cover1_C_2 c i a2 h2 a3 h3 a4 h4 a5 h5 hc0 hc1 x0 x1 xs0)]
  unfold kernelRun1_C
  dsimp only
  sl_unfold_words
  rw [View.canon_unit_zero hz2, View.readCov_unit_zero (S := S2048x32) _ hz2]
  simp only [View.readAt_eq_ld, h2.read_unread, h3.read_unread, h5.read_unread, View.ld_unit_zero (S := S2048x2048) hz2, View.ld_unit_zero (S := S2048x32) hz2]

end Pieces

section Fold

-- the TensorCore's buffer contents when the region is entered, on the extended reals
variable (V : (c : Dev nD) → (b : Ref sig .tc) → Buf (Elt Ideal) ((c : Thread nD τ).loc b))

/-- The operator's block and the activations' block at position `n`. -/
abbrev xa1 (c : Dev nD) (n : ℕ) (h : n < cfg1.N) : Vec Ideal S2048x2048 .bf16 := iblk1 (F := Ideal) V c 0 ⟨n, h⟩
abbrev xh1 (c : Dev nD) (n : ℕ) (h : n < cfg1.N) : Vec Ideal S2048x32 .f32 := iblk1 (F := Ideal) V c 1 ⟨n, h⟩

/-- The accumulator after position `n`. -/
abbrev acc1 (c : Dev nD) (n : ℕ) (h : n < cfg1.N) : Vec Ideal S2048x32 .f32 := (outsAt1 (F := Ideal) V c n h).2

/-- At the first contraction step the accumulator restarts from the zero block. -/
theorem acc1_reset (c : Dev nD) (n : ℕ) (h : n < cfg1.N) (h0 : n % 8 = 0) :
    acc1 V c n h = k1_pay2 (xa1 V c n h) (xh1 V c n h) (k1_pay1 (F := Ideal)) := by
  have h1 : ¬ n % 8 = 7 := by omega
  have e := outsAt1_A (F := Ideal) V c ⟨n, h⟩ h0 h1
  dsimp only at e
  show (outsAt1 (F := Ideal) V c n h).2 = _
  rw [e]
  dsimp only
  exact sout1_A_eq (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) scM1_0 (Memref.isWhole_whole _) ((hcond1_0 ⟨n, h⟩).mpr h0) (fun h' => h1 ((hcond1_1 ⟨n, h⟩).mp h')) (iblk1 V c 0 ⟨n, h⟩) (iblk1 V c 1 ⟨n, h⟩)

/-- At every other step it adds the step's block product to what the step before left. -/
theorem acc1_step (c : Dev nD) (n : ℕ) (h : n + 1 < cfg1.N) (hne : ¬(n + 1) % 8 = 0) :
    acc1 V c (n + 1) h = k1_pay2 (xa1 V c (n + 1) h) (xh1 V c (n + 1) h) (acc1 V c n (Nat.lt_of_succ_lt h)) := by
  by_cases h1 : (n + 1) % 8 = 7
  · have e := outsAt1_C (F := Ideal) V c ⟨n + 1, h⟩ hne h1
    dsimp only at e
    show (outsAt1 (F := Ideal) V c (n + 1) h).2 = _
    rw [e]
    dsimp only
    exact sout1_C_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) (fun h' => hne ((hcond1_0 ⟨n + 1, h⟩).mp h')) ((hcond1_1 ⟨n + 1, h⟩).mpr h1) (iblk1 V c 0 ⟨n + 1, h⟩) (iblk1 V c 1 ⟨n + 1, h⟩) (acc1 V c n (Nat.lt_of_succ_lt h))
  · have e := outsAt1_B (F := Ideal) V c ⟨n + 1, h⟩ hne h1
    dsimp only at e
    show (outsAt1 (F := Ideal) V c (n + 1) h).2 = _
    rw [e]
    dsimp only
    exact sout1_B_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) (fun h' => hne ((hcond1_0 ⟨n + 1, h⟩).mp h')) (fun h' => h1 ((hcond1_1 ⟨n + 1, h⟩).mp h')) (iblk1 V c 0 ⟨n + 1, h⟩) (iblk1 V c 1 ⟨n + 1, h⟩) (acc1 V c n (Nat.lt_of_succ_lt h))

/-- At the last contraction step the output window holds the positive part of the accumulator. -/
theorem out1_last (c : Dev nD) (t : Fin cfg1.N) (h7 : t.val % 8 = 7) :
    (outsAt1 (F := Ideal) V c t.val t.isLt).1 = k1_pay3 (acc1 V c t.val t.isLt) := by
  have h0 : ¬ t.val % 8 = 0 := by omega
  have e := outsAt1_C (F := Ideal) V c t h0 h7
  show (outsAt1 (F := Ideal) V c t.val t.isLt).1 = k1_pay3 (outsAt1 (F := Ideal) V c t.val t.isLt).2
  rw [e]
  dsimp only
  exact (out1_C_eq (F := Ideal) c (grid1.coords t) (ms1_0 t) (hs1_0 t) (ms1_1 t) (hs1_1 t) (ms1_2 t) (hs1_2 t) scM1_0 (Memref.isWhole_whole _) (fun h' => h0 ((hcond1_0 t).mp h')) ((hcond1_1 t).mpr h7) (iblk1 V c 0 t) (iblk1 V c 1 t) (outsAt1 V c (t.val - 1) (Nat.lt_of_le_of_lt (Nat.sub_le _ _) t.isLt)).2).trans
    (congrArg k1_pay3 (sout1_C_eq (F := Ideal) c (grid1.coords t) (ms1_0 t) (hs1_0 t) (ms1_1 t) (hs1_1 t) (ms1_2 t) (hs1_2 t) scM1_0 (Memref.isWhole_whole _) (fun h' => h0 ((hcond1_0 t).mp h')) ((hcond1_1 t).mpr h7) (iblk1 V c 0 t) (iblk1 V c 1 t) (outsAt1 V c (t.val - 1) (Nat.lt_of_le_of_lt (Nat.sub_le _ _) t.isLt)).2).symm)

/-- The block product position `n` adds, at an entry (zero past the grid, where it is never read). -/
def M1 (c : Dev nD) (n : ℕ) (i : S2048x32.Idx) : EReal :=
  if h : n < cfg1.N then ∑ q : Fin 2048, (xa1 V c n h (ix2 (i 0) q) : EReal) * (xh1 V c n h (ix2 q (i 1)) : EReal) else 0

theorem M1_ix2 (c : Dev nD) (n : ℕ) (h : n < cfg1.N) (r : Fin 2048) (j : Fin 32) :
    M1 V c n (ix2 r j) = ∑ q : Fin 2048, (xa1 V c n h (ix2 r q) : EReal) * (xh1 V c n h (ix2 q j) : EReal) := by
  unfold M1; rw [dif_pos h]

/-- THE ACCUMULATOR, UNROLLED: after position `t` it holds, at every entry, zero plus the block products of the
    positions of its row block's run up to `t`. -/
theorem acc1_apply (c : Dev nD) (t : ℕ) (ht : t < cfg1.N) (i : S2048x32.Idx) :
    acc1 V c t ht i = 0 + ∑ s ∈ Finset.range (t % 8 + 1), M1 V c (8 * (t / 8) + s) i := by
  have hN : cfg1.N = 64 := N_1
  have h' : 8 * (t / 8) + t % 8 < cfg1.N := by omega
  have hfold := Pipeline.eq_accAt_of_mod (N := cfg1.N) (α := Vec Ideal S2048x32 .f32) (fun n h => acc1 V c n h) 8
    (fun n h => k1_pay2 (xa1 V c n h) (xh1 V c n h) (k1_pay1 (F := Ideal)))
    (fun n h a => k1_pay2 (xa1 V c n h) (xh1 V c n h) a)
    (fun n h h0 => acc1_reset V c n h h0) (fun n h hne => acc1_step V c n h hne) (by decide) t ht h'
  rw [hfold]
  refine Pipeline.accAt_add_apply (N := cfg1.N) (ι := S2048x32.Idx) (β := EReal) _ _ (fun _ => 0) (M1 V c) (8 * (t / 8)) 7 ?_ ?_ (t % 8) (by omega) h' i
  · intro h i
    obtain ⟨r, j, rfl⟩ : ∃ (r : Fin 2048) (j : Fin 32), i = ix2 r j := ⟨i 0, i 1, eq_ix2 i⟩
    rw [M1_ix2 V c _ h]
    exact (pay1_2_apply _ _ _ r j).trans (congrArg (· + _) (pay1_1_apply r j))
  · intro n h a i _ _
    obtain ⟨r, j, rfl⟩ : ∃ (r : Fin 2048) (j : Fin 32), i = ix2 r j := ⟨i 0, i 1, eq_ix2 i⟩
    rw [M1_ix2 V c _ h]
    exact pay1_2_apply _ _ _ r j

end Fold

section Final

variable (V : (c : Dev nD) → (b : Ref sig .tc) → Buf (Elt Ideal) ((c : Thread nD τ).loc b))

/-! ## Where each window's block sits in its array -/

/-- The operator's block at position `t` is block (t / 8, t % 8) of its array; -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
/-- the activations' block is row block t % 8; -/
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
/-- the output's block is row block t / 8. -/
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)

/-- The operator and the activations as the region finds them. -/
abbrev opA1 (c : Dev nD) : FVec Ideal S16384x16384 .f32 := V c main_v2_1
abbrev actP1 (c : Dev nD) : FVec Ideal S16384x32 .f32 := V c main_v4

/-- An entry of the operator's block at position `n` is the operator's entry at row (n / 8)·2048 + r, column (n % 8)·2048 + q. -/
theorem xa1_apply (c : Dev nD) (n : ℕ) (h : n < cfg1.N) (r q : Fin 2048) (R C : Fin 16384)
    (hR : R.val = n / 8 * 2048 + r.val) (hC : C.val = n % 8 * 2048 + q.val) :
    (xa1 V c n h (ix2 r q) : EReal) = opA1 V c (ix2 R C) := by
  have hi : win1_0.index ⟨n, h⟩ 0 = n / 8 ∧ win1_0.index ⟨n, h⟩ 1 = n % 8 := idx1_0 ⟨n, h⟩
  show iblk1 (F := Ideal) V c 0 ⟨n, h⟩ (ix2 r q) = _
  unfold iblk1
  rw [View.read_apply]
  show V c main_v2_1 _ = V c main_v2_1 _
  congr 1
  funext a
  apply Fin.ext
  match a with
  | ⟨0, _⟩ => show win1_0.index ⟨n, h⟩ 0 * 2048 + 1 * r.val = R.val; rw [hi.1, hR]; omega
  | ⟨1, _⟩ => show win1_0.index ⟨n, h⟩ 1 * 2048 + 1 * q.val = C.val; rw [hi.2, hC]; omega

/-- An entry of the activations' block at position `n` is the activations' entry at row (n % 8)·2048 + q. -/
theorem xh1_apply (c : Dev nD) (n : ℕ) (h : n < cfg1.N) (q : Fin 2048) (j : Fin 32) (C : Fin 16384)
    (hC : C.val = n % 8 * 2048 + q.val) :
    (xh1 V c n h (ix2 q j) : EReal) = actP1 V c (ix2 C j) := by
  have hi : win1_1.index ⟨n, h⟩ 0 = n % 8 ∧ win1_1.index ⟨n, h⟩ 1 = 0 := idx1_1 ⟨n, h⟩
  show iblk1 (F := Ideal) V c 1 ⟨n, h⟩ (ix2 q j) = _
  unfold iblk1
  rw [View.read_apply]
  show V c main_v4 _ = V c main_v4 _
  congr 1
  funext a
  apply Fin.ext
  match a with
  | ⟨0, _⟩ => show win1_1.index ⟨n, h⟩ 0 * 2048 + 1 * q.val = C.val; rw [hi.1, hC]; omega
  | ⟨1, _⟩ => show win1_1.index ⟨n, h⟩ 1 * 32 + 1 * j.val = j.val; rw [hi.2]; omega

/-- The left-to-right accumulation of block sums from zero is zero plus their sum. -/
theorem accBlocks_range1 (S : ℕ → EReal) : ∀ n, Cert.Gcn.accBlocks S n = 0 + ∑ s ∈ Finset.range (n + 1), S s
  | 0 => by rw [Cert.Gcn.accBlocks_zero, Finset.sum_range_one]
  | n + 1 => by rw [Cert.Gcn.accBlocks_succ, accBlocks_range1 S n, Finset.sum_range_succ _ (n + 1), add_assoc]

/-- What the region leaves in its result array: the positive part of the aggregation of the activations by the operator. -/
abbrev G1 (c : Dev nD) : FVec Ideal S16384x32 .f32 := Cert.Gcn.relu0 (Cert.Gcn.aggr (opA1 V c) (actP1 V c))

/-- The accumulator after the last contraction step of row block `t / 8`, at entry (r, j): the whole contraction
    Σ_k A[(t/8)·2048 + r, k] · p[k, j], its 16384 terms summed as 8 consecutive blocks of 2048. -/
theorem acc1_last (c : Dev nD) (t : Fin cfg1.N) (h7 : t.val % 8 = 7) (r : Fin 2048) (j : Fin 32) (R : Fin 16384)
    (hR : R.val = t.val / 8 * 2048 + r.val) :
    acc1 V c t.val t.isLt (ix2 r j) = Cert.Gcn.aggr (opA1 V c) (actP1 V c) (ix2 R j) := by
  have hN : cfg1.N = 64 := N_1
  have htN : t.val < 64 := lt_of_lt_of_eq t.isLt hN
  rw [acc1_apply V c t.val t.isLt (ix2 r j), h7, Cert.Gcn.aggr_ix2]
  have hS : ∀ s (hs : s < 8), M1 V c (8 * (t.val / 8) + s) (ix2 r j)
      = ∑ q : Fin 2048, (fun k : Fin 16384 => opA1 V c (ix2 R k) * actP1 V c (ix2 k j)) ⟨s * 2048 + q.val, by have := q.isLt; omega⟩ := by
    intro s hs
    have hp : 8 * (t.val / 8) + s < cfg1.N := by omega
    rw [M1_ix2 V c _ hp]
    refine Finset.sum_congr rfl fun q _ => ?_
    have hq := q.isLt
    rw [xa1_apply V c _ hp r q R ⟨s * 2048 + q.val, by omega⟩ (by rw [hR]; omega) (by show s * 2048 + q.val = _; omega),
      xh1_apply V c _ hp q j ⟨s * 2048 + q.val, by omega⟩ (by show s * 2048 + q.val = _; omega)]
  rw [Cert.Gcn.sum_blocks_acc_8_2048 (fun k : Fin 16384 => opA1 V c (ix2 R k) * actP1 V c (ix2 k j)) (fun s => M1 V c (8 * (t.val / 8) + s) (ix2 r j)) hS,
    accBlocks_range1]

/-- Every write-back of the result window writes the block of `G1` it covers. -/
theorem flushed1_eq (c : Dev nD) (t : Fin cfg1.N) (hf : (cfg1.win 2).flush t = true) :
    (dat1 (F := Ideal) V c).flushed 2 t = ((cfg1.win 2).blk t).view.read (Elt Ideal) (G1 V c) := by
  have h7 : t.val % 8 = 7 := (flush1_2 t).mp hf
  have hi : win1_2.index t 0 = t.val / 8 ∧ win1_2.index t 1 = 0 := idx1_2 t
  have hN : cfg1.N = 64 := N_1
  have htN : t.val < 64 := lt_of_lt_of_eq t.isLt hN
  show (cfg1.win 2).cut (grid1.coords t) ((dat1 (F := Ideal) V c).after 2 t) = _
  rw [after1_2, out1_last V c t h7]
  funext y
  obtain ⟨r, j, rfl⟩ : ∃ (r : Fin 2048) (j : Fin 32), y = ix2 r j := ⟨y 0, y 1, eq_ix2 y⟩
  have hr := r.isLt
  rw [View.read_apply]
  have hemb : ((cfg1.win 2).blk t).view.emb (ix2 r j) = (ix2 (⟨t.val / 8 * 2048 + r.val, by omega⟩ : Fin 16384) j : S16384x32.Idx) := by
    funext a
    apply Fin.ext
    match a with
    | ⟨0, _⟩ => show win1_2.index t 0 * 2048 + 1 * r.val = t.val / 8 * 2048 + r.val; rw [hi.1]; omega
    | ⟨1, _⟩ => show win1_2.index t 1 * 32 + 1 * j.val = j.val; rw [hi.2]; omega
  show k1_pay3 (acc1 V c t.val t.isLt) (ix2 r j) = G1 V c (((cfg1.win 2).blk t).view.emb (ix2 r j))
  rw [hemb, pay1_3_apply, acc1_last V c t h7 r j ⟨t.val / 8 * 2048 + r.val, by omega⟩ rfl]
  rfl

/-- Every entry of the result array is in the block some write-back covers: row R is written at the last contraction
    step of row block R / 2048. -/
theorem cover1 (i : S16384x32.Idx) : ∃ t : Fin cfg1.N, (cfg1.win 2).flush t = true ∧ i ∈ ((cfg1.win 2).blk t).view.set := by
  have hN : cfg1.N = 64 := N_1
  have h0 : (i 0).val < 16384 := (i 0).isLt
  have h1 : (i 1).val < 32 := (i 1).isLt
  have ht : 8 * ((i 0).val / 2048) + 7 < cfg1.N := by omega
  have hi : win1_2.index ⟨8 * ((i 0).val / 2048) + 7, ht⟩ 0 = (8 * ((i 0).val / 2048) + 7) / 8 ∧ win1_2.index ⟨8 * ((i 0).val / 2048) + 7, ht⟩ 1 = 0 := idx1_2 ⟨_, ht⟩
  refine ⟨⟨8 * ((i 0).val / 2048) + 7, ht⟩, (flush1_2 _).mpr (by show (8 * ((i 0).val / 2048) + 7) % 8 = 7; omega), ?_⟩
  show i ∈ ((View.whole main_v5).slice (win1_2.rect ⟨8 * ((i 0).val / 2048) + 7, ht⟩)).set
  rw [View.set_slice_whole, Rect.mem_set_unit]
  intro a
  match a with
  | ⟨0, _⟩ =>
    show win1_2.index ⟨8 * ((i 0).val / 2048) + 7, ht⟩ 0 * 2048 ≤ (i 0).val ∧ (i 0).val < win1_2.index ⟨8 * ((i 0).val / 2048) + 7, ht⟩ 0 * 2048 + 2048
    rw [hi.1]; omega
  | ⟨1, _⟩ =>
    show win1_2.index ⟨8 * ((i 0).val / 2048) + 7, ht⟩ 1 * 32 ≤ (i 1).val ∧ (i 1).val < win1_2.index ⟨8 * ((i 0).val / 2048) + 7, ht⟩ 1 * 32 + 32
    rw [hi.2]; omega

/-- THE REGION'S VALUE: its result array ends holding `G1`. -/
theorem final1_2_G (c : Dev nD) : (dat1 (F := Ideal) V c).arrAt 2 cfg1.N = G1 V c :=
  (dat1 (F := Ideal) V c).arrAt_eq_of_cover 2 (G1 V c) (flushed1_eq V c) cover1

theorem final1_2 (c : Dev nD) : @Eq (FVec Ideal S16384x32 .f32) ((dat1 (F := Ideal) V c).arrAt 2 cfg1.N)
    (Cert.Gcn.relu0 (Cert.Gcn.aggr (show FVec Ideal S16384x16384 .f32 from V c main_v2_1) (show FVec Ideal S16384x32 .f32 from V c main_v4))) :=
  final1_2_G V c

end Final

end Cert.KernelIdeal.HandValue

end
-- ==== Proof.ValueR2.lean ====
import proofs.«113216_j26164940767949_2_alg».proof.Proof.R2Frame
import proofs.«113216_j26164940767949_2_alg».proof.Proof.GcnSpec
import proofs.«113216_j26164940767949_2_alg».proof.Proof.PayIdx
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat)
open scoped BigOperators

/-! # Region 2 on the extended reals: its result array is the aggregation A · p

Eight consecutive grid positions share a row block of 2048 rows. The accumulator restarts at the first of them and
adds one block product per position, so after the eighth it holds, at row r and column j, the contraction over all
16384 shared coordinates, summed as eight consecutive blocks of 2048; only additions are re-associated. The output
window then takes it as it is and is written back to rows (t / 8)·2048 … of the result. -/

section Pieces

variable {F : FTy → Type} [FloatOps F]

theorem hz2_2 : (![0, 0] : Fin 2 → Nat) = fun _ => 0 := funext fun a => by fin_cases a <;> rfl

/-- First contraction step: the accumulator is left at the zero block plus the step's block product. -/
theorem sout2_A_eq (c : Dev nD) (i : grid2.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : cond2_0 i) (hc1 : ¬cond2_1 i) (x0 : Vec F S2048x2048 .bf16) (x1 : Vec F S2048x32 .f32) :
    sout2_A_0 c i a2 h2 a3 h3 a4 h4 a5 h5 hc0 hc1 x0 x1 = k2_pay2 x0 x1 (k2_pay1 (F := F)) := by
  have hz2 := hz2_2
  unfold sout2_A_0
  rw [View.read_writes_eq_canon _ _ _ (scover2_A_0 c i a2 h2 a3 h3 a4 h4 a5 h5 hc0 hc1 x0 x1)]
  unfold kernelRun2_A
  dsimp only
  sl_unfold_words
  rw [View.canon_cons_unit_zero (S := S2048x32) hz2, View.readCov_unit_zero (S := S2048x32) _ hz2]
  simp only [View.readAt_eq_ld, h2.read_unread, h3.read_unread, h5.read_unread, View.ld_unit_zero (S := S2048x2048) hz2, View.ld_unit_zero (S := S2048x32) hz2]

/-- A middle contraction step: the accumulator is left at what it held plus the step's block product. -/
theorem sout2_B_eq (c : Dev nD) (i : grid2.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : ¬cond2_0 i) (hc1 : ¬cond2_1 i) (x0 : Vec F S2048x2048 .bf16) (x1 : Vec F S2048x32 .f32) (xs0 : Vec F S2048x32 .f32) :
    sout2_B_0 c i a2 h2 a3 h3 a4 h4 a5 h5 hc0 hc1 x0 x1 xs0 = k2_pay2 x0 x1 xs0 := by
  have hz2 := hz2_2
  unfold sout2_B_0
  rw [View.read_writes_eq_canon _ _ _ (scover2_B_0 c i a2 h2 a3 h3 a4 h4 a5 h5 hc0 hc1 x0 x1 xs0)]
  unfold kernelRun2_B
  dsimp only
  try sl_unfold_words
  rw [View.canon_unit_zero hz2]
  simp only [View.readAt_eq_ld, h2.read_unread, h3.read_unread, h5.read_unread, View.ld_unit_zero (S := S2048x2048) hz2, View.ld_unit_zero (S := S2048x32) hz2]

/-- The last contraction step: the same for the accumulator, -/
theorem sout2_C_eq (c : Dev nD) (i : grid2.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : ¬cond2_0 i) (hc1 : cond2_1 i) (x0 : Vec F S2048x2048 .bf16) (x1 : Vec F S2048x32 .f32) (xs0 : Vec F S2048x32 .f32) :
    sout2_C_0 c i a2 h2 a3 h3 a4 h4 a5 h5 hc0 hc1 x0 x1 xs0 = k2_pay2 x0 x1 xs0 := by
  have hz2 := hz2_2
  unfold sout2_C_0
  rw [View.read_writes_eq_canon _ _ _ (scover2_C_0 c i a2 h2 a3 h3 a4 h4 a5 h5 hc0 hc1 x0 x1 xs0)]
  unfold kernelRun2_C
  dsimp only
  try sl_unfold_words
  rw [View.canon_unit_zero hz2]
  simp only [View.readAt_eq_ld, h2.read_unread, h3.read_unread, h5.read_unread, View.ld_unit_zero (S := S2048x2048) hz2, View.ld_unit_zero (S := S2048x32) hz2]

/-- and the output window receives the accumulator's new contents. -/
theorem out2_C_eq (c : Dev nD) (i : grid2.Coords) (a2 : Memref sig .tc .vmem S2048x2048 .bf16) (h2 : a2.IsWhole) (a3 : Memref sig .tc .vmem S2048x32 .f32) (h3 : a3.IsWhole) (a4 : Memref sig .tc .vmem S2048x32 .f32) (h4 : a4.IsWhole) (a5 : Memref sig .tc .vmem S2048x32 .f32) (h5 : a5.IsWhole) (hc0 : ¬cond2_0 i) (hc1 : cond2_1 i) (x0 : Vec F S2048x2048 .bf16) (x1 : Vec F S2048x32 .f32) (xs0 : Vec F S2048x32 .f32) :
    out2_C_2 c i a2 h2 a3 h3 a4 h4 a5 h5 hc0 hc1 x0 x1 xs0 = k2_pay2 x0 x1 xs0 := by
  have hz2 := hz2_2
  unfold out2_C_2
  rw [View.read_writes_eq_canon _ _ _ (cover2_C_2 c i a2 h2 a3 h3 a4 h4 a5 h5 hc0 hc1 x0 x1 xs0)]
  unfold kernelRun2_C
  dsimp only
  sl_unfold_words
  rw [View.canon_unit_zero hz2, View.readCov_unit_zero (S := S2048x32) _ hz2]
  simp only [View.readAt_eq_ld, h2.read_unread, h3.read_unread, h5.read_unread, View.ld_unit_zero (S := S2048x2048) hz2, View.ld_unit_zero (S := S2048x32) hz2]

end Pieces

section Fold

-- the TensorCore's buffer contents when the region is entered, on the extended reals
variable (V : (c : Dev nD) → (b : Ref sig .tc) → Buf (Elt Ideal) ((c : Thread nD τ).loc b))

/-- The operator's block and the activations' block at position `n`. -/
abbrev xa2 (c : Dev nD) (n : ℕ) (h : n < cfg2.N) : Vec Ideal S2048x2048 .bf16 := iblk2 (F := Ideal) V c 0 ⟨n, h⟩
abbrev xh2 (c : Dev nD) (n : ℕ) (h : n < cfg2.N) : Vec Ideal S2048x32 .f32 := iblk2 (F := Ideal) V c 1 ⟨n, h⟩

/-- The accumulator after position `n`. -/
abbrev acc2 (c : Dev nD) (n : ℕ) (h : n < cfg2.N) : Vec Ideal S2048x32 .f32 := (outsAt2 (F := Ideal) V c n h).2

/-- At the first contraction step the accumulator restarts from the zero block. -/
theorem acc2_reset (c : Dev nD) (n : ℕ) (h : n < cfg2.N) (h0 : n % 8 = 0) :
    acc2 V c n h = k2_pay2 (xa2 V c n h) (xh2 V c n h) (k2_pay1 (F := Ideal)) := by
  have h1 : ¬ n % 8 = 7 := by omega
  have e := outsAt2_A (F := Ideal) V c ⟨n, h⟩ h0 h1
  dsimp only at e
  show (outsAt2 (F := Ideal) V c n h).2 = _
  rw [e]
  dsimp only
  exact sout2_A_eq (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩) scM2_0 (Memref.isWhole_whole _) ((hcond2_0 ⟨n, h⟩).mpr h0) (fun h' => h1 ((hcond2_1 ⟨n, h⟩).mp h')) (iblk2 V c 0 ⟨n, h⟩) (iblk2 V c 1 ⟨n, h⟩)

/-- At every other step it adds the step's block product to what the step before left. -/
theorem acc2_step (c : Dev nD) (n : ℕ) (h : n + 1 < cfg2.N) (hne : ¬(n + 1) % 8 = 0) :
    acc2 V c (n + 1) h = k2_pay2 (xa2 V c (n + 1) h) (xh2 V c (n + 1) h) (acc2 V c n (Nat.lt_of_succ_lt h)) := by
  by_cases h1 : (n + 1) % 8 = 7
  · have e := outsAt2_C (F := Ideal) V c ⟨n + 1, h⟩ hne h1
    dsimp only at e
    show (outsAt2 (F := Ideal) V c (n + 1) h).2 = _
    rw [e]
    dsimp only
    exact sout2_C_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) scM2_0 (Memref.isWhole_whole _) (fun h' => hne ((hcond2_0 ⟨n + 1, h⟩).mp h')) ((hcond2_1 ⟨n + 1, h⟩).mpr h1) (iblk2 V c 0 ⟨n + 1, h⟩) (iblk2 V c 1 ⟨n + 1, h⟩) (acc2 V c n (Nat.lt_of_succ_lt h))
  · have e := outsAt2_B (F := Ideal) V c ⟨n + 1, h⟩ hne h1
    dsimp only at e
    show (outsAt2 (F := Ideal) V c (n + 1) h).2 = _
    rw [e]
    dsimp only
    exact sout2_B_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) scM2_0 (Memref.isWhole_whole _) (fun h' => hne ((hcond2_0 ⟨n + 1, h⟩).mp h')) (fun h' => h1 ((hcond2_1 ⟨n + 1, h⟩).mp h')) (iblk2 V c 0 ⟨n + 1, h⟩) (iblk2 V c 1 ⟨n + 1, h⟩) (acc2 V c n (Nat.lt_of_succ_lt h))

/-- At the last contraction step the output window holds the accumulator. -/
theorem out2_last (c : Dev nD) (t : Fin cfg2.N) (h7 : t.val % 8 = 7) :
    (outsAt2 (F := Ideal) V c t.val t.isLt).1 = acc2 V c t.val t.isLt := by
  have h0 : ¬ t.val % 8 = 0 := by omega
  have e := outsAt2_C (F := Ideal) V c t h0 h7
  show (outsAt2 (F := Ideal) V c t.val t.isLt).1 = (outsAt2 (F := Ideal) V c t.val t.isLt).2
  rw [e]
  dsimp only
  exact (out2_C_eq (F := Ideal) c (grid2.coords t) (ms2_0 t) (hs2_0 t) (ms2_1 t) (hs2_1 t) (ms2_2 t) (hs2_2 t) scM2_0 (Memref.isWhole_whole _) (fun h' => h0 ((hcond2_0 t).mp h')) ((hcond2_1 t).mpr h7) (iblk2 V c 0 t) (iblk2 V c 1 t) (outsAt2 V c (t.val - 1) (Nat.lt_of_le_of_lt (Nat.sub_le _ _) t.isLt)).2).trans
    ((sout2_C_eq (F := Ideal) c (grid2.coords t) (ms2_0 t) (hs2_0 t) (ms2_1 t) (hs2_1 t) (ms2_2 t) (hs2_2 t) scM2_0 (Memref.isWhole_whole _) (fun h' => h0 ((hcond2_0 t).mp h')) ((hcond2_1 t).mpr h7) (iblk2 V c 0 t) (iblk2 V c 1 t) (outsAt2 V c (t.val - 1) (Nat.lt_of_le_of_lt (Nat.sub_le _ _) t.isLt)).2).symm)

/-- The block product position `n` adds, at an entry (zero past the grid, where it is never read). -/
def M2 (c : Dev nD) (n : ℕ) (i : S2048x32.Idx) : EReal :=
  if h : n < cfg2.N then ∑ q : Fin 2048, (xa2 V c n h (ix2 (i 0) q) : EReal) * (xh2 V c n h (ix2 q (i 1)) : EReal) else 0

theorem M2_ix2 (c : Dev nD) (n : ℕ) (h : n < cfg2.N) (r : Fin 2048) (j : Fin 32) :
    M2 V c n (ix2 r j) = ∑ q : Fin 2048, (xa2 V c n h (ix2 r q) : EReal) * (xh2 V c n h (ix2 q j) : EReal) := by
  unfold M2; rw [dif_pos h]

/-- THE ACCUMULATOR, UNROLLED: after position `t` it holds, at every entry, zero plus the block products of the
    positions of its row block's run up to `t`. -/
theorem acc2_apply (c : Dev nD) (t : ℕ) (ht : t < cfg2.N) (i : S2048x32.Idx) :
    acc2 V c t ht i = 0 + ∑ s ∈ Finset.range (t % 8 + 1), M2 V c (8 * (t / 8) + s) i := by
  have hN : cfg2.N = 64 := N_2
  have h' : 8 * (t / 8) + t % 8 < cfg2.N := by omega
  have hfold := Pipeline.eq_accAt_of_mod (N := cfg2.N) (α := Vec Ideal S2048x32 .f32) (fun n h => acc2 V c n h) 8
    (fun n h => k2_pay2 (xa2 V c n h) (xh2 V c n h) (k2_pay1 (F := Ideal)))
    (fun n h a => k2_pay2 (xa2 V c n h) (xh2 V c n h) a)
    (fun n h h0 => acc2_reset V c n h h0) (fun n h hne => acc2_step V c n h hne) (by decide) t ht h'
  rw [hfold]
  refine Pipeline.accAt_add_apply (N := cfg2.N) (ι := S2048x32.Idx) (β := EReal) _ _ (fun _ => 0) (M2 V c) (8 * (t / 8)) 7 ?_ ?_ (t % 8) (by omega) h' i
  · intro h i
    obtain ⟨r, j, rfl⟩ : ∃ (r : Fin 2048) (j : Fin 32), i = ix2 r j := ⟨i 0, i 1, eq_ix2 i⟩
    rw [M2_ix2 V c _ h]
    exact (pay2_2_apply _ _ _ r j).trans (congrArg (· + _) (pay2_1_apply r j))
  · intro n h a i _ _
    obtain ⟨r, j, rfl⟩ : ∃ (r : Fin 2048) (j : Fin 32), i = ix2 r j := ⟨i 0, i 1, eq_ix2 i⟩
    rw [M2_ix2 V c _ h]
    exact pay2_2_apply _ _ _ r j

end Fold

section Final

variable (V : (c : Dev nD) → (b : Ref sig .tc) → Buf (Elt Ideal) ((c : Thread nD τ).loc b))

/-! ## Where each window's block sits in its array -/

/-- The operator's block at position `t` is block (t / 8, t % 8) of its array; -/
theorem idx2_0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
/-- the activations' block is row block t % 8; -/
theorem idx2_1 : ∀ t : Fin cfg2.N, win2_1.index t 0 = t.val % 8 ∧ win2_1.index t 1 = 0 :=
  (by decide +kernel : ∀ t : Fin grid2.N, win2_1.index t 0 = t.val % 8 ∧ win2_1.index t 1 = 0)
/-- the output's block is row block t / 8. -/
theorem idx2_2 : ∀ t : Fin cfg2.N, win2_2.index t 0 = t.val / 8 ∧ win2_2.index t 1 = 0 :=
  (by decide +kernel : ∀ t : Fin grid2.N, win2_2.index t 0 = t.val / 8 ∧ win2_2.index t 1 = 0)

/-- The operator and the activations as the region finds them. -/
abbrev opA2 (c : Dev nD) : FVec Ideal S16384x16384 .f32 := V c main_v2_1
abbrev actP2 (c : Dev nD) : FVec Ideal S16384x32 .f32 := V c main_v7

/-- An entry of the operator's block at position `n` is the operator's entry at row (n / 8)·2048 + r, column (n % 8)·2048 + q. -/
theorem xa2_apply (c : Dev nD) (n : ℕ) (h : n < cfg2.N) (r q : Fin 2048) (R C : Fin 16384)
    (hR : R.val = n / 8 * 2048 + r.val) (hC : C.val = n % 8 * 2048 + q.val) :
    (xa2 V c n h (ix2 r q) : EReal) = opA2 V c (ix2 R C) := by
  have hi : win2_0.index ⟨n, h⟩ 0 = n / 8 ∧ win2_0.index ⟨n, h⟩ 1 = n % 8 := idx2_0 ⟨n, h⟩
  show iblk2 (F := Ideal) V c 0 ⟨n, h⟩ (ix2 r q) = _
  unfold iblk2
  rw [View.read_apply]
  show V c main_v2_1 _ = V c main_v2_1 _
  congr 1
  funext a
  apply Fin.ext
  match a with
  | ⟨0, _⟩ => show win2_0.index ⟨n, h⟩ 0 * 2048 + 1 * r.val = R.val; rw [hi.1, hR]; omega
  | ⟨1, _⟩ => show win2_0.index ⟨n, h⟩ 1 * 2048 + 1 * q.val = C.val; rw [hi.2, hC]; omega

/-- An entry of the activations' block at position `n` is the activations' entry at row (n % 8)·2048 + q. -/
theorem xh2_apply (c : Dev nD) (n : ℕ) (h : n < cfg2.N) (q : Fin 2048) (j : Fin 32) (C : Fin 16384)
    (hC : C.val = n % 8 * 2048 + q.val) :
    (xh2 V c n h (ix2 q j) : EReal) = actP2 V c (ix2 C j) := by
  have hi : win2_1.index ⟨n, h⟩ 0 = n % 8 ∧ win2_1.index ⟨n, h⟩ 1 = 0 := idx2_1 ⟨n, h⟩
  show iblk2 (F := Ideal) V c 1 ⟨n, h⟩ (ix2 q j) = _
  unfold iblk2
  rw [View.read_apply]
  show V c main_v7 _ = V c main_v7 _
  congr 1
  funext a
  apply Fin.ext
  match a with
  | ⟨0, _⟩ => show win2_1.index ⟨n, h⟩ 0 * 2048 + 1 * q.val = C.val; rw [hi.1, hC]; omega
  | ⟨1, _⟩ => show win2_1.index ⟨n, h⟩ 1 * 32 + 1 * j.val = j.val; rw [hi.2]; omega

/-- The left-to-right accumulation of block sums from zero is zero plus their sum. -/
theorem accBlocks_range2 (S : ℕ → EReal) : ∀ n, Cert.Gcn.accBlocks S n = 0 + ∑ s ∈ Finset.range (n + 1), S s
  | 0 => by rw [Cert.Gcn.accBlocks_zero, Finset.sum_range_one]
  | n + 1 => by rw [Cert.Gcn.accBlocks_succ, accBlocks_range2 S n, Finset.sum_range_succ _ (n + 1), add_assoc]

/-- What the region leaves in its result array: the aggregation of the activations by the operator. -/
abbrev G2 (c : Dev nD) : FVec Ideal S16384x32 .f32 := Cert.Gcn.aggr (opA2 V c) (actP2 V c)

/-- The accumulator after the last contraction step of row block `t / 8`, at entry (r, j): the whole contraction
    Σ_k A[(t/8)·2048 + r, k] · p[k, j], its 16384 terms summed as 8 consecutive blocks of 2048. -/
theorem acc2_last (c : Dev nD) (t : Fin cfg2.N) (h7 : t.val % 8 = 7) (r : Fin 2048) (j : Fin 32) (R : Fin 16384)
    (hR : R.val = t.val / 8 * 2048 + r.val) :
    acc2 V c t.val t.isLt (ix2 r j) = Cert.Gcn.aggr (opA2 V c) (actP2 V c) (ix2 R j) := by
  have hN : cfg2.N = 64 := N_2
  have htN : t.val < 64 := lt_of_lt_of_eq t.isLt hN
  rw [acc2_apply V c t.val t.isLt (ix2 r j), h7, Cert.Gcn.aggr_ix2]
  have hS : ∀ s (hs : s < 8), M2 V c (8 * (t.val / 8) + s) (ix2 r j)
      = ∑ q : Fin 2048, (fun k : Fin 16384 => opA2 V c (ix2 R k) * actP2 V c (ix2 k j)) ⟨s * 2048 + q.val, by have := q.isLt; omega⟩ := by
    intro s hs
    have hp : 8 * (t.val / 8) + s < cfg2.N := by omega
    rw [M2_ix2 V c _ hp]
    refine Finset.sum_congr rfl fun q _ => ?_
    have hq := q.isLt
    rw [xa2_apply V c _ hp r q R ⟨s * 2048 + q.val, by omega⟩ (by rw [hR]; omega) (by show s * 2048 + q.val = _; omega),
      xh2_apply V c _ hp q j ⟨s * 2048 + q.val, by omega⟩ (by show s * 2048 + q.val = _; omega)]
  rw [Cert.Gcn.sum_blocks_acc_8_2048 (fun k : Fin 16384 => opA2 V c (ix2 R k) * actP2 V c (ix2 k j)) (fun s => M2 V c (8 * (t.val / 8) + s) (ix2 r j)) hS,
    accBlocks_range2]

/-- Every write-back of the result window writes the block of `G2` it covers. -/
theorem flushed2_eq (c : Dev nD) (t : Fin cfg2.N) (hf : (cfg2.win 2).flush t = true) :
    (dat2 (F := Ideal) V c).flushed 2 t = ((cfg2.win 2).blk t).view.read (Elt Ideal) (G2 V c) := by
  have h7 : t.val % 8 = 7 := (flush2_2 t).mp hf
  have hi : win2_2.index t 0 = t.val / 8 ∧ win2_2.index t 1 = 0 := idx2_2 t
  have hN : cfg2.N = 64 := N_2
  have htN : t.val < 64 := lt_of_lt_of_eq t.isLt hN
  show (cfg2.win 2).cut (grid2.coords t) ((dat2 (F := Ideal) V c).after 2 t) = _
  rw [after2_2, out2_last V c t h7]
  have hacc := acc2_last V c t h7
  generalize acc2 V c t.val t.isLt = Acc at hacc ⊢
  funext y
  obtain ⟨r, j, rfl⟩ : ∃ (r : Fin 2048) (j : Fin 32), y = ix2 r j := ⟨y 0, y 1, eq_ix2 y⟩
  have hr := r.isLt
  rw [View.read_apply]
  have hemb : ((cfg2.win 2).blk t).view.emb (ix2 r j) = (ix2 (⟨t.val / 8 * 2048 + r.val, by omega⟩ : Fin 16384) j : S16384x32.Idx) := by
    funext a
    apply Fin.ext
    match a with
    | ⟨0, _⟩ => show win2_2.index t 0 * 2048 + 1 * r.val = t.val / 8 * 2048 + r.val; rw [hi.1]; omega
    | ⟨1, _⟩ => show win2_2.index t 1 * 32 + 1 * j.val = j.val; rw [hi.2]; omega
  generalize hG : G2 V c = G
  show Acc (ix2 r j) = G (((cfg2.win 2).blk t).view.emb (ix2 r j))
  rw [hemb, ← hG]
  exact hacc r j ⟨t.val / 8 * 2048 + r.val, by omega⟩ rfl

/-- Every entry of the result array is in the block some write-back covers: row R is written at the last contraction
    step of row block R / 2048. -/
theorem cover2 (i : S16384x32.Idx) : ∃ t : Fin cfg2.N, (cfg2.win 2).flush t = true ∧ i ∈ ((cfg2.win 2).blk t).view.set := by
  have hN : cfg2.N = 64 := N_2
  have h0 : (i 0).val < 16384 := (i 0).isLt
  have h1 : (i 1).val < 32 := (i 1).isLt
  have ht : 8 * ((i 0).val / 2048) + 7 < cfg2.N := by omega
  have hi : win2_2.index ⟨8 * ((i 0).val / 2048) + 7, ht⟩ 0 = (8 * ((i 0).val / 2048) + 7) / 8 ∧ win2_2.index ⟨8 * ((i 0).val / 2048) + 7, ht⟩ 1 = 0 := idx2_2 ⟨_, ht⟩
  refine ⟨⟨8 * ((i 0).val / 2048) + 7, ht⟩, (flush2_2 _).mpr (by show (8 * ((i 0).val / 2048) + 7) % 8 = 7; omega), ?_⟩
  show i ∈ ((View.whole main_v8).slice (win2_2.rect ⟨8 * ((i 0).val / 2048) + 7, ht⟩)).set
  rw [View.set_slice_whole, Rect.mem_set_unit]
  intro a
  match a with
  | ⟨0, _⟩ =>
    show win2_2.index ⟨8 * ((i 0).val / 2048) + 7, ht⟩ 0 * 2048 ≤ (i 0).val ∧ (i 0).val < win2_2.index ⟨8 * ((i 0).val / 2048) + 7, ht⟩ 0 * 2048 + 2048
    rw [hi.1]; omega
  | ⟨1, _⟩ =>
    show win2_2.index ⟨8 * ((i 0).val / 2048) + 7, ht⟩ 1 * 32 ≤ (i 1).val ∧ (i 1).val < win2_2.index ⟨8 * ((i 0).val / 2048) + 7, ht⟩ 1 * 32 + 32
    rw [hi.2]; omega

/-- THE REGION'S VALUE: its result array ends holding `G2`. -/
theorem final2_2_G (c : Dev nD) : (dat2 (F := Ideal) V c).arrAt 2 cfg2.N = G2 V c :=
  (dat2 (F := Ideal) V c).arrAt_eq_of_cover 2 (G2 V c) (flushed2_eq V c) cover2

theorem final2_2 (c : Dev nD) : @Eq (FVec Ideal S16384x32 .f32) ((dat2 (F := Ideal) V c).arrAt 2 cfg2.N)
    (Cert.Gcn.aggr (show FVec Ideal S16384x16384 .f32 from V c main_v2_1) (show FVec Ideal S16384x32 .f32 from V c main_v7)) :=
  final2_2_G V c

end Final

end Cert.KernelIdeal.HandValue

end
-- ==== Proof.KValue.lean ====
/-
  The kernel's result as a function of its arguments, at the ideal instance. Each host stretch leaves the
  activations times a transposed weight; each region leaves [max(·, 0) of] the adjacency matrix times what it
  was handed (the first region also a narrowed copy of the adjacency matrix, which at the ideal instance is the
  matrix itself); no stretch and no region touches what a later one reads besides. Following the contents from
  boundary to boundary gives the three layers with each small product taken first.
-/
import proofs.«113216_j26164940767949_2_alg».proof.Proof.KRun
import proofs.«113216_j26164940767949_2_alg».proof.Proof.GcnHost
import proofs.«113216_j26164940767949_2_alg».proof.Proof.GcnSpec
import proofs.«113216_j26164940767949_2_alg».proof.Proof.ValueR0
import proofs.«113216_j26164940767949_2_alg».proof.Proof.ValueR1
import proofs.«113216_j26164940767949_2_alg».proof.Proof.ValueR2
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable [Cert.KernelIdeal.Facts]

/-! ## The host stretches at any contents -/

/-- The first stretch leaves the features times the transposed first weight. -/
theorem stretch0_lin (W : Valuation τ sig (Elt Ideal)) :
    @Eq (FVec Ideal S16384x64 .f32) (StableHlo.after hostOps0 W (Proc.devRef .tc main_v1))
      (Cert.Gcn.linT (show FVec Ideal S16384x64 .f32 from W (Proc.devRef .tc main_arg1)) (show FVec Ideal S64x64 .f32 from W (Proc.devRef .tc main_arg2))) := by
  have e : @Eq (FVec Ideal S16384x64 .f32) (StableHlo.after hostOps0 W (Proc.devRef .tc main_v1))
      (Host.dotGeneral (F := Ideal) (φ₁ := .f32) (φ₂ := .f32) dot_S16384x64_S64x64_S16384x64_1_0_0_1_n_n (some .fp32) (W (Proc.devRef .tc main_arg1)) (transpose S64x64 [1, 0] (show FVec Ideal S64x64 .f32 from W (Proc.devRef .tc main_arg2)) Facts₀.transposes_S64x64_S64x64_1_0)) := by
    after_results
  exact e.trans (Cert.Gcn.KHost.lin1 _ _)

/-- The second stretch leaves the first layer's result times the transposed second weight. -/
theorem stretch1_lin (W : Valuation τ sig (Elt Ideal)) :
    @Eq (FVec Ideal S16384x32 .f32) (StableHlo.after hostOps1 W (Proc.devRef .tc main_v4))
      (Cert.Gcn.linT (show FVec Ideal S16384x64 .f32 from W (Proc.devRef .tc main_v2_0)) (show FVec Ideal S32x64 .f32 from W (Proc.devRef .tc main_arg3))) := by
  have e : @Eq (FVec Ideal S16384x32 .f32) (StableHlo.after hostOps1 W (Proc.devRef .tc main_v4))
      (Host.dotGeneral (F := Ideal) (φ₁ := .f32) (φ₂ := .f32) dot_S16384x64_S64x32_S16384x32_1_0_0_1_n_n (some .fp32) (W (Proc.devRef .tc main_v2_0)) (transpose S64x32 [1, 0] (show FVec Ideal S32x64 .f32 from W (Proc.devRef .tc main_arg3)) Facts₀.transposes_S32x64_S64x32_1_0)) := by
    after_results
  exact e.trans (Cert.Gcn.KHost.lin2 _ _)

/-- The third stretch leaves the second layer's result times the transposed third weight. -/
theorem stretch2_lin (W : Valuation τ sig (Elt Ideal)) :
    @Eq (FVec Ideal S16384x32 .f32) (StableHlo.after hostOps2 W (Proc.devRef .tc main_v7))
      (Cert.Gcn.linT (show FVec Ideal S16384x32 .f32 from W (Proc.devRef .tc main_v5)) (show FVec Ideal S32x32 .f32 from W (Proc.devRef .tc main_arg4))) := by
  have e : @Eq (FVec Ideal S16384x32 .f32) (StableHlo.after hostOps2 W (Proc.devRef .tc main_v7))
      (Host.dotGeneral (F := Ideal) (φ₁ := .f32) (φ₂ := .f32) dot_S16384x32_S32x32_S16384x32_1_0_0_1_n_n (some .fp32) (W (Proc.devRef .tc main_v5)) (transpose S32x32 [1, 0] (show FVec Ideal S32x32 .f32 from W (Proc.devRef .tc main_arg4)) Facts₀.transposes_S32x32_S32x32_1_0)) := by
    after_results
  exact e.trans (Cert.Gcn.KHost.lin3 _ _)

/-! ## The contents followed through the three layers -/

variable (m : (ℓ : Loc nD τ sig) → Buf (Elt Ideal) ℓ) (c : Dev nD)

/-- The five argument arrays on core `c`. -/
abbrev aA : FVec Ideal S16384x16384 .f32 := m ((c : Thread nD τ).loc main_arg0)
abbrev aX : FVec Ideal S16384x64 .f32 := m ((c : Thread nD τ).loc main_arg1)
abbrev aW1 : FVec Ideal S64x64 .f32 := m ((c : Thread nD τ).loc main_arg2)
abbrev aW2 : FVec Ideal S32x64 .f32 := m ((c : Thread nD τ).loc main_arg3)
abbrev aW3 : FVec Ideal S32x32 .f32 := m ((c : Thread nD τ).loc main_arg4)
/-- The three layers' results. -/
abbrev h1 : FVec Ideal S16384x64 .f32 := Cert.Gcn.relu0 (Cert.Gcn.aggr (aA m c) (Cert.Gcn.linT (aX m c) (aW1 m c)))
abbrev h2 : FVec Ideal S16384x32 .f32 := Cert.Gcn.relu0 (Cert.Gcn.aggr (aA m c) (Cert.Gcn.linT (h1 m c) (aW2 m c)))

/-- Entering the first region: the adjacency matrix as launched, the first small product. -/
theorem V1_arg0 : @Eq (FVec Ideal S16384x16384 .f32) (Hand.V1 m c main_arg0) (aA m c) := W1_of m c main_arg0 (by decide)
theorem V1_v1 : @Eq (FVec Ideal S16384x64 .f32) (Hand.V1 m c main_v1) (Cert.Gcn.linT (aX m c) (aW1 m c)) := stretch0_lin (W0 m c)

/-- Leaving it: the first layer's result, and the adjacency matrix again (narrowed, which changes nothing). -/
theorem V2_v2_0 : @Eq (FVec Ideal S16384x64 .f32) (Hand.V2 m c main_v2_0) (h1 m c) :=
  (W2_arr m c 2).trans ((final0_2 (Hand.V1 m) c).trans (by rw [V1_arg0 m c, V1_v1 m c]))
theorem V2_v2_1 : @Eq (FVec Ideal S16384x16384 .f32) (Hand.V2 m c main_v2_1) (aA m c) :=
  (W2_arr m c 3).trans ((final0_3 (Hand.V1 m) c).trans (V1_arg0 m c))
theorem V2_arg3 : @Eq (FVec Ideal S32x64 .f32) (Hand.V2 m c main_arg3) (aW2 m c) :=
  (W2_of_ne m c main_arg3 (by decide)).trans (W1_of m c main_arg3 (by decide))
theorem V2_arg4 : @Eq (FVec Ideal S32x32 .f32) (Hand.V2 m c main_arg4) (aW3 m c) :=
  (W2_of_ne m c main_arg4 (by decide)).trans (W1_of m c main_arg4 (by decide))

/-- Entering the second region. -/
theorem V3_v2_1 : @Eq (FVec Ideal S16384x16384 .f32) (Hand.V3 m c main_v2_1) (aA m c) :=
  (W3_of m c main_v2_1 (by decide)).trans (V2_v2_1 m c)
theorem V3_v4 : @Eq (FVec Ideal S16384x32 .f32) (Hand.V3 m c main_v4) (Cert.Gcn.linT (h1 m c) (aW2 m c)) :=
  (stretch1_lin (W2 m c)).trans (by rw [show (W2 m c (Proc.devRef .tc main_v2_0)) = h1 m c from V2_v2_0 m c, show (W2 m c (Proc.devRef .tc main_arg3)) = aW2 m c from V2_arg3 m c])

/-- Leaving it. -/
theorem V4_v5 : @Eq (FVec Ideal S16384x32 .f32) (Hand.V4 m c main_v5) (h2 m c) :=
  (W4_arr m c 2).trans ((final1_2 (Hand.V3 m) c).trans (by rw [V3_v2_1 m c, V3_v4 m c]))
theorem V4_v2_1 : @Eq (FVec Ideal S16384x16384 .f32) (Hand.V4 m c main_v2_1) (aA m c) :=
  (W4_arr m c 0).trans ((((dat1 (Hand.V3 m) c).arrAt_in 0 rfl _).trans (A_eq1 (Hand.V3 m) c 0)).trans (V3_v2_1 m c))
theorem V4_arg4 : @Eq (FVec Ideal S32x32 .f32) (Hand.V4 m c main_arg4) (aW3 m c) :=
  (W4_of_ne m c main_arg4 (by decide)).trans ((W3_of m c main_arg4 (by decide)).trans (V2_arg4 m c))

/-- Entering the third region. -/
theorem V5_v2_1 : @Eq (FVec Ideal S16384x16384 .f32) (Hand.V5 m c main_v2_1) (aA m c) :=
  (W5_of m c main_v2_1 (by decide)).trans (V4_v2_1 m c)
theorem V5_v7 : @Eq (FVec Ideal S16384x32 .f32) (Hand.V5 m c main_v7) (Cert.Gcn.linT (h2 m c) (aW3 m c)) :=
  (stretch2_lin (W4 m c)).trans (by rw [show (W4 m c (Proc.devRef .tc main_v5)) = h2 m c from V4_v5 m c, show (W4 m c (Proc.devRef .tc main_arg4)) = aW3 m c from V4_arg4 m c])

/-- THE KERNEL'S RESULT: what the third region's write-backs leave is the three layers, each small product taken
    before the product with the adjacency matrix. -/
theorem result : @Eq (FVec Ideal S16384x32 .f32) ((dat2 (F := Ideal) (Hand.V5 m) c).arrAt 2 cfg2.N)
    (Cert.Gcn.kform (aA m c) (aX m c) (aW1 m c) (aW2 m c) (aW3 m c)) :=
  (final2_2 (Hand.V5 m) c).trans (by rw [V5_v2_1 m c, V5_v7 m c]; rfl)

end Cert.KernelIdeal.HandValue

end
-- ==== Proof.GcnRef.lean ====
/-
  The reference program's result, read entry by entry, is the R-form of the specification.

  Each host product of the reference is a sum over one contracted coordinate: the aggregation by the operator reads
  A at (row, k) and the activations at (k, column); the product with a transposed weight reads the activations at
  (row, d) and, through the transpose, the weight at (column, d). The activation between layers is the maximum with
  a broadcast zero. Stage by stage these are the specification's aggregation, linear stage and positive part.
-/
import proofs.«113216_j26164940767949_2_alg».proof.Proof.GcnSpec
import proofs.«113216_j26164940767949_2_alg».proof.Proof.Gen.ReferenceIdeal.Read

noncomputable section

open scoped BigOperators

namespace Cert.Gcn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The maximum with the broadcast zero constant, at one entry, is the maximum with the real zero. -/
theorem max_zero_const (a : EReal) :
    FloatOps.maximumf (F := Ideal) (φ := .f32) a (FloatOps.ofBits .f32 0x00000000#32) = max a 0 := by
  show max a (Ideal.ofBits .f32 0x00000000#32) = max a 0
  rw [Ideal.ofBits_zero_f32]

/-! ## Layer 1 -/

/-- %0: the aggregation of the features. -/
theorem v0_eq (x0 : (⟨S16384x16384, .f32⟩ : BufTy).Contents (Elt Ideal)) (x1 : (⟨S16384x64, .f32⟩ : BufTy).Contents (Elt Ideal)) :
    val_main_v0 (F := Ideal) x0 x1 = aggr x0 x1 := by
  funext i
  obtain ⟨r, j, rfl⟩ : ∃ (r : Fin 16384) (j : Fin 64), i = ix2 r j := ⟨i 0, i 1, eq_ix2 i⟩
  rw [val_main_v0_apply, aggr_ix2]
  refine Finset.sum_congr rfl fun k _ => ?_
  have el : lidx_main_v0 (ix2 r j) k = ix2 r k :=
    funext fun a => Fin.ext (by match a with | ⟨0, _⟩ => rfl | ⟨1, _⟩ => rfl)
  have er : ridx_main_v0 (ix2 r j) k = ix2 k j :=
    funext fun a => Fin.ext (by match a with | ⟨0, _⟩ => rfl | ⟨1, _⟩ => rfl)
  rw [el, er]

/-- %2: the linear stage against the transposed first weight. -/
theorem v2_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) :
    val_main_v2 (F := Ideal) x0 x1 x2 = linT (val_main_v0 (F := Ideal) x0 x1) x2 := by
  funext i
  obtain ⟨r, j, rfl⟩ : ∃ (r : Fin 16384) (j : Fin 64), i = ix2 r j := ⟨i 0, i 1, eq_ix2 i⟩
  rw [val_main_v2_apply, linT_ix2]
  refine Finset.sum_congr rfl fun d _ => ?_
  have el : lidx_main_v2 (ix2 r j) d = ix2 r d :=
    funext fun a => Fin.ext (by match a with | ⟨0, _⟩ => rfl | ⟨1, _⟩ => rfl)
  have er : idx_main_v1 (ridx_main_v2 (ix2 r j) d) = ix2 j d :=
    funext fun a => Fin.ext (by match a with | ⟨0, _⟩ => rfl | ⟨1, _⟩ => rfl)
  rw [val_main_v1_apply, el, er]

/-- %3: the positive part. -/
theorem v3_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) :
    val_main_v3 (F := Ideal) x0 x1 x2 = relu0 (val_main_v2 (F := Ideal) x0 x1 x2) := by
  funext i
  rw [val_main_v3_apply, val_main_call0_v0_apply, val_main_call0_cst_apply, relu0_apply]
  exact max_zero_const _

/-! ## Layer 2 -/

/-- %4: the aggregation of the first layer's activations. -/
theorem v4_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) :
    val_main_v4 (F := Ideal) x0 x1 x2 = aggr x0 (val_main_v3 (F := Ideal) x0 x1 x2) := by
  funext i
  obtain ⟨r, j, rfl⟩ : ∃ (r : Fin 16384) (j : Fin 64), i = ix2 r j := ⟨i 0, i 1, eq_ix2 i⟩
  rw [val_main_v4_apply, aggr_ix2]
  refine Finset.sum_congr rfl fun k _ => ?_
  have el : lidx_main_v4 (ix2 r j) k = ix2 r k :=
    funext fun a => Fin.ext (by match a with | ⟨0, _⟩ => rfl | ⟨1, _⟩ => rfl)
  have er : ridx_main_v4 (ix2 r j) k = ix2 k j :=
    funext fun a => Fin.ext (by match a with | ⟨0, _⟩ => rfl | ⟨1, _⟩ => rfl)
  rw [el, er]

/-- %6: the linear stage against the transposed second weight. -/
theorem v6_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) (x3 : (⟨S32x64, .f32⟩ : BufTy).Contents (Elt Ideal)) :
    val_main_v6 (F := Ideal) x0 x1 x2 x3 = linT (val_main_v4 (F := Ideal) x0 x1 x2) x3 := by
  funext i
  obtain ⟨r, j, rfl⟩ : ∃ (r : Fin 16384) (j : Fin 32), i = ix2 r j := ⟨i 0, i 1, eq_ix2 i⟩
  rw [val_main_v6_apply, linT_ix2]
  refine Finset.sum_congr rfl fun d _ => ?_
  have el : lidx_main_v6 (ix2 r j) d = ix2 r d :=
    funext fun a => Fin.ext (by match a with | ⟨0, _⟩ => rfl | ⟨1, _⟩ => rfl)
  have er : idx_main_v5 (ridx_main_v6 (ix2 r j) d) = ix2 j d :=
    funext fun a => Fin.ext (by match a with | ⟨0, _⟩ => rfl | ⟨1, _⟩ => rfl)
  rw [val_main_v5_apply, el, er]

/-- %7: the positive part. -/
theorem v7_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) (x3 : (⟨S32x64, .f32⟩ : BufTy).Contents (Elt Ideal)) :
    val_main_v7 (F := Ideal) x0 x1 x2 x3 = relu0 (val_main_v6 (F := Ideal) x0 x1 x2 x3) := by
  funext i
  rw [val_main_v7_apply, val_main_call1_v0_apply, val_main_call1_cst_apply, relu0_apply]
  exact max_zero_const _

/-! ## Layer 3 -/

/-- %8: the aggregation of the second layer's activations. -/
theorem v8_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) (x3 : (⟨S32x64, .f32⟩ : BufTy).Contents (Elt Ideal)) :
    val_main_v8 (F := Ideal) x0 x1 x2 x3 = aggr x0 (val_main_v7 (F := Ideal) x0 x1 x2 x3) := by
  funext i
  obtain ⟨r, j, rfl⟩ : ∃ (r : Fin 16384) (j : Fin 32), i = ix2 r j := ⟨i 0, i 1, eq_ix2 i⟩
  rw [val_main_v8_apply, aggr_ix2]
  refine Finset.sum_congr rfl fun k _ => ?_
  have el : lidx_main_v8 (ix2 r j) k = ix2 r k :=
    funext fun a => Fin.ext (by match a with | ⟨0, _⟩ => rfl | ⟨1, _⟩ => rfl)
  have er : ridx_main_v8 (ix2 r j) k = ix2 k j :=
    funext fun a => Fin.ext (by match a with | ⟨0, _⟩ => rfl | ⟨1, _⟩ => rfl)
  rw [el, er]

/-- %10: the linear stage against the transposed third weight. -/
theorem v10_eq (x0 : (⟨S16384x16384, .f32⟩ : BufTy).Contents (Elt Ideal)) (x1 : (⟨S16384x64, .f32⟩ : BufTy).Contents (Elt Ideal)) (x2 : (⟨S64x64, .f32⟩ : BufTy).Contents (Elt Ideal)) (x3 : (⟨S32x64, .f32⟩ : BufTy).Contents (Elt Ideal)) (x4 : (⟨S32x32, .f32⟩ : BufTy).Contents (Elt Ideal)) :
    val_main_v10 (F := Ideal) x0 x1 x2 x3 x4 = linT (val_main_v8 (F := Ideal) x0 x1 x2 x3) x4 := by
  funext i
  obtain ⟨r, j, rfl⟩ : ∃ (r : Fin 16384) (j : Fin 32), i = ix2 r j := ⟨i 0, i 1, eq_ix2 i⟩
  rw [val_main_v10_apply, linT_ix2]
  refine Finset.sum_congr rfl fun d _ => ?_
  have el : lidx_main_v10 (ix2 r j) d = ix2 r d :=
    funext fun a => Fin.ext (by match a with | ⟨0, _⟩ => rfl | ⟨1, _⟩ => rfl)
  have er : idx_main_v9 (ridx_main_v10 (ix2 r j) d) = ix2 j d :=
    funext fun a => Fin.ext (by match a with | ⟨0, _⟩ => rfl | ⟨1, _⟩ => rfl)
  rw [val_main_v9_apply, el, er]

/-! ## The whole reference -/

/-- The reference's result array is the R-form of its five arguments. -/
theorem ref_eq_rform (x0 : (⟨S16384x16384, .f32⟩ : BufTy).Contents (Elt Ideal)) (x1 : (⟨S16384x64, .f32⟩ : BufTy).Contents (Elt Ideal)) (x2 : (⟨S64x64, .f32⟩ : BufTy).Contents (Elt Ideal)) (x3 : (⟨S32x64, .f32⟩ : BufTy).Contents (Elt Ideal)) (x4 : (⟨S32x32, .f32⟩ : BufTy).Contents (Elt Ideal)) :
    val_main_v10 (F := Ideal) x0 x1 x2 x3 x4 = Cert.Gcn.rform x0 x1 x2 x3 x4 := by
  rw [v10_eq, v8_eq, v7_eq, v6_eq, v4_eq, v3_eq, v2_eq, v0_eq, rform]

/-- The term the reference's run leaves in its result buffer is the R-form of the arguments. -/
theorem run_term_eq (x0 : FVec Ideal S16384x16384 .f32) (x1 : FVec Ideal S16384x64 .f32) (x2 : FVec Ideal S64x64 .f32) (x3 : FVec Ideal S32x64 .f32) (x4 : FVec Ideal S32x32 .f32) :
    Host.dotGeneral dot_S16384x32_S32x32_S16384x32_1_0_0_1_n_n none (Host.dotGeneral dot_S16384x16384_S16384x32_S16384x32_1_0_0_1_n_n none (x0) (maximumf (Host.dotGeneral dot_S16384x64_S64x32_S16384x32_1_0_0_1_n_n none (Host.dotGeneral dot_S16384x16384_S16384x64_S16384x64_1_0_0_1_n_n none (x0) (maximumf (Host.dotGeneral dot_S16384x64_S64x64_S16384x64_1_0_0_1_n_n none (Host.dotGeneral dot_S16384x16384_S16384x64_S16384x64_1_0_0_1_n_n none (x0) (x1)) (transpose S64x64 [1, 0] (x2) transposes_S64x64_S64x64_1_0)) (broadcastInDim S16384x64 ![] bcast_S_S16384x64 (constant (F := Ideal) S_ .f32 0x00000000#32)))) (transpose S64x32 [1, 0] (x3) transposes_S32x64_S64x32_1_0)) (broadcastInDim S16384x32 ![] bcast_S_S16384x32 (constant (F := Ideal) S_ .f32 0x00000000#32)))) (transpose S32x32 [1, 0] (x4) transposes_S32x32_S32x32_1_0)
      = Cert.Gcn.rform x0 x1 x2 x3 x4 :=
  (val_main_v10_eq (F := Ideal) x0 x1 x2 x3 x4).trans (ref_eq_rform x0 x1 x2 x3 x4)

end Cert.Gcn.Ref

end
-- ==== Proof.GcnFinite.lean ====
/-
  From the precondition to real entries.

  The precondition says, of each of the five argument arrays, that every entry's absolute value is below +∞, and
  takes the conjunction. An extended real whose absolute value max(x, −x) is below +∞ is neither +∞ nor −∞ (at −∞
  the negation is +∞), so every entry of every argument is a real number.
-/
import proofs.«113216_j26164940767949_2_alg».proof.Defs
import Idealize.ShloMosaic.Lib.ReduceAll
import Idealize.ShloMosaic.Lib.ValueIdx
import Idealize.ShloMosaic.PureOps.Ideal.Laws

noncomputable section

namespace Cert.Gcn.Fin

open Idealize.ShloMosaic Idealize.SL.Sem Idealize.ShloMosaic.ValueIdx

/-- The scalar shape has one index. -/
instance : Subsingleton Cert.Pre_finite_inputs.S_.Idx := ⟨fun a b => funext fun d => d.elim0⟩

/-- The word 0x7F800000 is +∞. -/
theorem ofBits_inf : Ideal.ofBits .f32 0x7F800000#32 = ⊤ := by
  simp [Ideal.ofBits, Ideal.ieee]

/-- An extended real whose absolute value is below +∞ is a real number. -/
theorem real_of_abs_lt_inf {x : EReal}
    (h : Ideal.cmp .olt (max x (-x)) (Ideal.ofBits .f32 0x7F800000#32) = 1#1) : x ≠ ⊤ ∧ x ≠ ⊥ := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  constructor
  · rintro rfl
    simp at hlt
  · rintro rfl
    simp at hlt

/-- One entry of the comparison array being 1 says that entry of the argument is a real number. -/
theorem entry_real {S : Shape} (bc : Cert.Pre_finite_inputs.S_.BroadcastsInDim S (![] : Fin 0 → Fin S.rank))
    (x : FVec Ideal S .f32) (i : S.Idx)
    (h : cmpf .olt (Host.absf x)
      (broadcastInDim S ![] bc (constant (F := Ideal) Cert.Pre_finite_inputs.S_ .f32 0x7F800000#32)) i = 1#1) :
    x i ≠ ⊤ ∧ x i ≠ ⊥ :=
  real_of_abs_lt_inf h

/-- Every entry of an array is a real number: neither +∞ nor −∞. -/
abbrev AllReal {S : Shape} (x : S.Idx → EReal) : Prop := ∀ i, x i ≠ ⊤ ∧ x i ≠ ⊥

/-- Under the precondition every entry of each of the five arguments is a real number. -/
theorem args_real [hPre_finite_inputs : Cert.Pre_finite_inputs.Facts] [hKernelIdeal : Cert.KernelIdeal.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    AllReal (S := ⟨2, ![16384, 16384]⟩) (m ((c.tc : Thread Cert.KernelIdeal.nD Cert.KernelIdeal.τ).loc Cert.KernelIdeal.main_arg0))
    ∧ AllReal (S := ⟨2, ![16384, 64]⟩) (m ((c.tc : Thread Cert.KernelIdeal.nD Cert.KernelIdeal.τ).loc Cert.KernelIdeal.main_arg1))
    ∧ AllReal (S := ⟨2, ![64, 64]⟩) (m ((c.tc : Thread Cert.KernelIdeal.nD Cert.KernelIdeal.τ).loc Cert.KernelIdeal.main_arg2))
    ∧ AllReal (S := ⟨2, ![32, 64]⟩) (m ((c.tc : Thread Cert.KernelIdeal.nD Cert.KernelIdeal.τ).loc Cert.KernelIdeal.main_arg3))
    ∧ AllReal (S := ⟨2, ![32, 32]⟩) (m ((c.tc : Thread Cert.KernelIdeal.nD Cert.KernelIdeal.τ).loc Cert.KernelIdeal.main_arg4)) := by
  have h := congrFun (hm c) ix0
  dsimp only [Cert.Pre_finite_inputs.fn, Cert.Pre_finite_inputs.fn_part1] at h
  obtain ⟨h18, h22⟩ := IntOp.andi_eq_one.1 h
  obtain ⟨h13, h17⟩ := IntOp.andi_eq_one.1 h18
  obtain ⟨h8, h12⟩ := IntOp.andi_eq_one.1 h13
  obtain ⟨h3, h7⟩ := IntOp.andi_eq_one.1 h8
  exact ⟨fun i => entry_real _ _ i (Host.reduce_andi_all _ _ _ _ ix0 h3 i),
    fun i => entry_real _ _ i (Host.reduce_andi_all _ _ _ _ ix0 h7 i),
    fun i => entry_real _ _ i (Host.reduce_andi_all _ _ _ _ ix0 h12 i),
    fun i => entry_real _ _ i (Host.reduce_andi_all _ _ _ _ ix0 h17 i),
    fun i => entry_real _ _ i (Host.reduce_andi_all _ _ _ _ ix0 h22 i)⟩

end Cert.Gcn.Fin

end
-- ==== Proof.lean ====
/-
  The certificate of a three-layer graph convolution. The kernel computes each layer as
  [relu](A · (h · Wᵀ)): the small product with the transposed weight on the host, then one kernel region that
  accumulates the product with the adjacency matrix A block by block along the contraction axis in a scratch
  accumulator and writes [max(·, 0) of] it at the last block; the first region also writes a narrowed copy of A
  that the later regions read. The reference computes [relu]((A · h) · Wᵀ). On the extended reals the two agree
  when every input entry is finite, by associativity of the matrix product; narrowing is the identity there and
  the block-by-block accumulation is a regrouping of the contraction sum.
  The three frames: the word-level kernel and its idealization run as the same chain of host stretches and kernel
  regions (one text at any float instance); the reference's frame is its run with the result dropped. The ideal
  pass rewrote nothing, so there is nothing to preserve.
-/
import proofs.«113216_j26164940767949_2_alg».proof.Defs
import proofs.«113216_j26164940767949_2_alg».proof.Proof.Gen.Kernel
import proofs.«113216_j26164940767949_2_alg».proof.Proof.Gen.KernelIdeal
import proofs.«113216_j26164940767949_2_alg».proof.Proof.Gen.ReferenceIdeal
import proofs.«113216_j26164940767949_2_alg».proof.Proof.Gen.ReferenceIdeal.Run
import proofs.«113216_j26164940767949_2_alg».proof.Proof.Gen.ReferenceIdeal.Read
import proofs.«113216_j26164940767949_2_alg».proof.Proof.Gen.Pre_finite_inputs
import proofs.«113216_j26164940767949_2_alg».proof.Proof.KRun
import proofs.«113216_j26164940767949_2_alg».proof.Proof.BKRun
import proofs.«113216_j26164940767949_2_alg».proof.Proof.KValue
import proofs.«113216_j26164940767949_2_alg».proof.Proof.GcnRef
import proofs.«113216_j26164940767949_2_alg».proof.Proof.GcnFinite
import proofs.«113216_j26164940767949_2_alg».proof.Proof.GcnSpec

noncomputable section

namespace Cert.Proof

open Idealize.ShloMosaic Idealize.SL.Sem

/-- The word-level kernel runs and leaves its arguments as launched. -/
theorem frame_k [hK : Cert.Kernel.Facts] [hP : Cert.Pre_finite_inputs.Facts] : Cert.frame_Kernel :=
  fun m ρ _ => Cert.Kernel.Hand.frame (F := Bits) m ρ

/-- So does its idealization. -/
theorem frame_ki [hK : Cert.KernelIdeal.Facts] [hP : Cert.Pre_finite_inputs.Facts] : Cert.frame_KernelIdeal :=
  fun m ρ _ => Cert.KernelIdeal.Hand.frame (F := Ideal) m ρ

/-- The reference is host operations only: its frame is its run with the result dropped. -/
theorem frame_ri [hR : Cert.ReferenceIdeal.Facts] [hP : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result array ends at the three layers with each small product taken
    first, the reference's at the three layers with it taken last; on finite inputs these are one function, and
    the inputs agree. -/
theorem algebraic [hK : Cert.KernelIdeal.Facts] [hR : Cert.ReferenceIdeal.Facts] [hP : Cert.Pre_finite_inputs.Facts] : Cert.algebraic_KernelIdeal_ReferenceIdeal := by
  intro m ρ m' ρ' hpre hagree
  refine ⟨fun c => (Cert.KernelIdeal.Hand.dat2 (F := Ideal) (Cert.KernelIdeal.Hand.V5 m) c).arrAt 2 Cert.KernelIdeal.cfg2.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hA, hX, hW1, hW2, hW3⟩ := Cert.Gcn.Fin.args_real m hpre c
  rw [(hagree c).1, (hagree c).2.1, (hagree c).2.2.1, (hagree c).2.2.2.1, (hagree c).2.2.2.2]
  refine (Cert.Gcn.Ref.run_term_eq _ _ _ _ _).trans ?_
  refine (Cert.Gcn.kform_eq_rform hA hX hW1 hW2 hW3).symm.trans ?_
  exact (Cert.KernelIdeal.HandValue.result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
